-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x4096 .f32) (main_arg1 : FVec F S4096x256 .f32) (main_arg2 : FVec F S256x256 .f32) (main_arg3 : FVec F S256 .f32) (main_arg4 : FVec F S256x256 .f32) (main_arg5 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S4096 : Shape := ⟨1, ![4096]⟩
abbrev S16x8x4096 : Shape := ⟨3, ![16, 8, 4096]⟩
abbrev S256x4096 : Shape := ⟨2, ![256, 4096]⟩
abbrev S1x8x4096 : Shape := ⟨3, ![1, 8, 4096]⟩
abbrev S8x4096 : Shape := ⟨2, ![8, 4096]⟩
abbrev S1x4096 : Shape := ⟨2, ![1, 4096]⟩
abbrev S_ : Shape := ⟨0, ![]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩
abbrev S1x256 : Shape := ⟨2, ![1, 256]⟩

abbrev nBuf : Space → Nat
  | .hbm => 23
  | .vmem => 40
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4096x4096, .bf16⟩
  | .hbm, ⟨7, _⟩ => ⟨S4096, .f32⟩
  | .hbm, ⟨8, _⟩ => ⟨S16x8x4096, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096x256, .bf16⟩
  | .hbm, ⟨20, _⟩ => ⟨S4096x256, .f32⟩
  | .hbm, ⟨21, _⟩ => ⟨S4096x256, .bf16⟩
  | .hbm, ⟨22, _⟩ => ⟨S4096x256, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256, .f32⟩
  | .local _ .vmem, ⟨5, _⟩ => ⟨S256, .f32⟩
  | .local _ .vmem, ⟨6, _⟩ => ⟨S1x8x4096, .f32⟩
  | .local _ .vmem, ⟨7, _⟩ => ⟨S1x8x4096, .f32⟩
  | .local _ .vmem, ⟨8, _⟩ => ⟨S1024x256, .f32⟩
  | .local _ .vmem, ⟨9, _⟩ => ⟨S1024x256, .f32⟩
  | .local _ .vmem, ⟨10, _⟩ => ⟨S1024, .f32⟩
  | .local _ .vmem, ⟨11, _⟩ => ⟨S1024, .f32⟩
  | .local _ .vmem, ⟨12, _⟩ => ⟨S256x256, .f32⟩
  | .local _ .vmem, ⟨13, _⟩ => ⟨S1024x256, .bf16⟩
  | .local _ .vmem, ⟨14, _⟩ => ⟨S1024x256, .bf16⟩
  | .local _ .vmem, ⟨15, _⟩ => ⟨S1024x1024, .bf16⟩
  | .local _ .vmem, ⟨16, _⟩ => ⟨S1024x1024, .bf16⟩
  | .local _ .vmem, ⟨17, _⟩ => ⟨S4096x256, .bf16⟩
  | .local _ .vmem, ⟨18, _⟩ => ⟨S1024, .f32⟩
  | .local _ .vmem, ⟨19, _⟩ => ⟨S1024, .f32⟩
  | .local _ .vmem, ⟨20, _⟩ => ⟨S256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024, .f32⟩
  | .local _ .vmem, ⟨27, _⟩ => ⟨S1024, .f32⟩
  | .local _ .vmem, ⟨28, _⟩ => ⟨S256x256, .f32⟩
  | .local _ .vmem, ⟨29, _⟩ => ⟨S1024x256, .bf16⟩
  | .local _ .vmem, ⟨30, _⟩ => ⟨S1024x256, .bf16⟩
  | .local _ .vmem, ⟨31, _⟩ => ⟨S1024x1024, .bf16⟩
  | .local _ .vmem, ⟨32, _⟩ => ⟨S1024x1024, .bf16⟩
  | .local _ .vmem, ⟨33, _⟩ => ⟨S4096x256, .bf16⟩
  | .local _ .vmem, ⟨34, _⟩ => ⟨S1024, .f32⟩
  | .local _ .vmem, ⟨35, _⟩ => ⟨S1024, .f32⟩
  | .local _ .vmem, ⟨36, _⟩ => ⟨S256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc4_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 4], ![false, false]⟩

def k2_mult1 (i : grid2.Coords) : BitVec 32 :=
  let arg1 : BitVec 32 := BitVec.ofNat 32 (i 1).val
  let c1024_i32 : BitVec 32 := 1024#32
  let v5 : BitVec 32 := Scalar.muli arg1 c1024_i32
  v5
def k2_off1 (i : grid2.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k2_cond2 (i : grid2.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![4, 4], ![false, false]⟩

def k4_mult1 (i : grid4.Coords) : BitVec 32 :=
  let arg1 : BitVec 32 := BitVec.ofNat 32 (i 1).val
  let c1024_i32 : BitVec 32 := 1024#32
  let v5 : BitVec 32 := Scalar.muli arg1 c1024_i32
  v5
def k4_off1 (i : grid4.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k4_cond2 (i : grid4.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_3 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S4096x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S256x4096_S256x4096_0_0 : ∀ a, (![0, 0] : Fin 2 → Nat) a + S256x4096.size a ≤ S256x4096.size a
  h_S256x4096 : 0 < S256x4096.numel
  iota_S256x4096_d0_w32 : S256x4096.Iotas .tc 32 [0]
  iota_S256x4096_d1_w32 : S256x4096.Iotas .tc 32 [1]
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reduces_S256x4096_S256 : S256x4096.Reduces [1] S256
  inb_S256_S256_0 : ∀ a, (![0] : Fin 1 → Nat) a + S256.size a ≤ S256.size a
  h_S256 : 0 < S256.numel
  reduces_S256x4096_S4096 : S256x4096.Reduces [0] S4096
  iota_S8x4096_d0_w32 : S8x4096.Iotas .tc 32 [0]
  shapeCasts_S4096_S1x4096 : S4096.ShapeCasts S1x4096
  shapeCasts_S1x4096_S1x4096 : S1x4096.ShapeCasts S1x4096
  broadcasts_S1x4096_S8x4096 : S1x4096.Broadcasts S8x4096
  inb_S1x8x4096_S1x8x4096_0_0_0 : ∀ a, (![0, 0, 0] : Fin 3 → Nat) a + S1x8x4096.size a ≤ S1x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  reducesTo_S16x8x4096_S4096_d0_1 : S16x8x4096.ReducesTo [0, 1] S4096
  h_S_ : 0 < S_.numel
  bcast_S_S4096 : S_.BroadcastsInDim S4096 (![] : Fin 0 → Fin S4096.rank)
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256_S1x256 : S256.ShapeCasts S1x256
  broadcasts_S1x256_S1024x256 : S1x256.Broadcasts S1024x256
  dot_S1024x256_S256x256_S1024x256_1_0_0_1_n_n_wf : DotDims.WF S1024x256 S256x256 S1024x256 [1] [0] [0] [1] [] []
  dot_S1024x1024_S1024x256_S1024x256_0_0_1_1_n_n_wf : DotDims.WF S1024x1024 S1024x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x4096.size a ≤ S16x8x4096.size a
  hwx0_3 : ∀ i : grid0.Coords, EltTy.bits .f32 = 32 ∨ (Rect.block (s := S16x8x4096) S1x8x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S4096.size a
  hwx1_1 : ∀ i : grid1.Coords, EltTy.bits .f32 = 32 ∨ (Rect.block (s := S4096) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hrank2 : 0 < grid2.rank
  k2_mult1_dvd : ∀ i : grid2.Coords, 1024 ∣ (k2_mult1 i).toNat
  k2_off1_inb : ∀ i : grid2.Coords, ∀ a, (k2_off1 i) a + S1024x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S4096x256.size a
  hwx2_4 : ∀ i : grid2.Coords, EltTy.bits .f32 = 32 ∨ (Rect.block (s := S4096x256) S1024x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .f32 = 32 ∨ (Rect.block (s := S4096x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S4096.size a
  hwx3_1 : ∀ i : grid3.Coords, EltTy.bits .f32 = 32 ∨ (Rect.block (s := S4096) S1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S4096x256.size a
  hwx3_3 : ∀ i : grid3.Coords, EltTy.bits .bf16 = 32 ∨ (Rect.block (s := S4096x256) S1024x256.size (cc3_transform_3 i) (hinb3_3 i)).WholeWords (EltTy.packing .bf16)
  hrank4 : 0 < grid4.rank
  k4_mult1_dvd : ∀ i : grid4.Coords, 1024 ∣ (k4_mult1 i).toNat
  k4_off1_inb : ∀ i : grid4.Coords, ∀ a, (k4_off1 i) a + S1024x256.size a ≤ S4096x256.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x256.size a ≤ S4096x256.size a
  hwx4_1 : ∀ i : grid4.Coords, EltTy.bits .bf16 = 32 ∨ (Rect.block (s := S4096x256) S4096x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S4096x256.size a
  hwx4_4 : ∀ i : grid4.Coords, EltTy.bits .f32 = 32 ∨ (Rect.block (s := S4096x256) S1024x256.size (cc4_transform_4 i) (hinb4_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v9) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0_0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S4096x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v11) S1024x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .f32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096x256, .f32⟩
  | .hbm, ⟨57, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_cst : Ref sig .tc := ⟨.hbm, 55, rfl⟩
abbrev main_call1_v0 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096x4096_S4096_d0 : S4096x4096.ReducesTo [0] S4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_0_0_1_1_n_n_wf : DotDims.WF S4096x4096 S4096x256 S4096x256 [0] [0] [1] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_0_0_1_1_n_n : DotDims S4096x4096 S4096x256 S4096x256 where
  lhsContracting := [0]
  rhsContracting := [0]
  lhsNonContracting := [1]
  rhsNonContracting := [1]
  lhsBatch := []
  rhsBatch := []
  wf := dot_S4096x4096_S4096x256_S4096x256_0_0_1_1_n_n_wf

class Facts : Prop extends Facts₀ where

variable [Facts]
-- ==== Proof.KB.Region0.lean ====
/-
  Region 0: the graph-building kernel over 16 row blocks of 256 rows. At a row block the body reads the block of
  the adjacency input, forms the thresholded entries plus the diagonal, and stores three things: the block
  itself, its row sums, and its column sums on sublane 0 of an 8-row tile (zeros on the other seven).
  Stated at a parameter `V`, the buffer contents the region is entered with.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_A : Rect S256x4096 := Rect.unit (s := S256x4096) ![0, 0] S256x4096.size inb_S256x4096_S256x4096_0_0
abbrev r0_R : Rect S256 := Rect.unit (s := S256) ![0] S256.size inb_S256_S256_0
abbrev r0_P : Rect S1x8x4096 := Rect.unit (s := S1x8x4096) ![0, 0, 0] S1x8x4096.size inb_S1x8x4096_S1x8x4096_0_0_0

/-- The stored block of thresholded entries plus the diagonal, from the row block `x0` at grid coordinates `i`. -/
def out0_1 (i : grid0.Coords) (x0 : Vec F S256x4096 .f32) : Vec F S256x4096 .bf16 :=
  View.canon [⟨r0_A, k0_pay2 i (View.ld x0 r0_A)⟩]
/-- The stored row sums of that block. -/
def out0_2 (i : grid0.Coords) (x0 : Vec F S256x4096 .f32) : Vec F S256 .f32 :=
  View.canon [⟨r0_R, k0_pay3 i (View.ld x0 r0_A)⟩]
/-- The stored column sums of that block, on sublane 0 of the tile. -/
def out0_3 (i : grid0.Coords) (x0 : Vec F S256x4096 .f32) : Vec F S1x8x4096 .f32 :=
  View.canon [⟨r0_P, k0_pay4 i (View.ld x0 r0_A)⟩]

theorem cover0_1 (p0 : Vec F S256x4096 .bf16) (y : S256x4096.Idx) :
    ∃ pc ∈ ([⟨r0_A, p0⟩] : List (View.Piece (Elt F) S256x4096 .bf16)), y ∈ pc.1.set :=
  View.cover_of_tiled [⟨r0_A, p0⟩] S256x4096.size (by rfl) y
theorem cover0_2 (p0 : Vec F S256 .f32) (y : S256.Idx) :
    ∃ pc ∈ ([⟨r0_R, p0⟩] : List (View.Piece (Elt F) S256 .f32)), y ∈ pc.1.set :=
  View.cover_of_tiled [⟨r0_R, p0⟩] S256.size (by rfl) y
theorem cover0_3 (p0 : Vec F S1x8x4096 .f32) (y : S1x8x4096.Idx) :
    ∃ pc ∈ ([⟨r0_P, p0⟩] : List (View.Piece (Elt F) S1x8x4096 .f32)), y ∈ pc.1.set :=
  View.cover_of_tiled [⟨r0_P, p0⟩] S1x8x4096.size (by rfl) y

set_option maxHeartbeats 1000000 in
/-- The body on whole staging memrefs: the input's at `x0`, the three outputs' at anything; it leaves the input
    as it was and each output at its stored value. -/
theorem sound_kernel0 (c : Dev nD) (E : Set ℕ) (i : grid0.Coords)
    (arg1 : Memref sig .tc .vmem S256x4096 .f32) (harg1 : arg1.IsWhole) (arg2 : Memref sig .tc .vmem S256x4096 .bf16) (harg2 : arg2.IsWhole)
    (arg3 : Memref sig .tc .vmem S256 .f32) (harg3 : arg3.IsWhole) (arg4 : Memref sig .tc .vmem S1x8x4096 .f32) (harg4 : arg4.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare (out0_1 i x0)
            ∗ owns (c : Thread nD τ) arg3 fullShare (out0_2 i x0) ∗ owns (c : Thread nD τ) arg4 fullShare (out0_3 i x0)) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the region on core `c`: the arrays as found; after the body at point `t` the input's buffer
    at its block and each output's at its stored value of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
    | ⟨3, _⟩ => out0_3 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]
theorem after0_3 (c : Dev nD) (t : Fin cfg0.N) : (dat0 V c).after 3 t = out0_3 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Region1.lean ====
/-
  Region 1: the scaled projection over 4 row blocks of 1024 rows. At a row block the body reads the block of the
  layer's input, the block of the source scales and the whole weight matrix, and stores the product
  (rows scaled, then multiplied by the weights) as one block.
  Stated at a parameter `V`, the buffer contents the region is entered with.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_H : Rect S1024x256 := Rect.unit (s := S1024x256) ![0, 0] S1024x256.size inb_S1024x256_S1024x256_0_0
abbrev r1_S : Rect S1024 := Rect.unit (s := S1024) ![0] S1024.size inb_S1024_S1024_0
abbrev r1_W : Rect S256x256 := Rect.unit (s := S256x256) ![0, 0] S256x256.size inb_S256x256_S256x256_0_0

/-- The stored block: the input block's rows scaled and multiplied by the weights. -/
def out1_3 (x0 : Vec F S1024x256 .f32) (x1 : Vec F S1024 .f32) (x2 : Vec F S256x256 .f32) : Vec F S1024x256 .bf16 :=
  View.canon [⟨r1_H, k1_pay1 (View.ld x0 r1_H) (View.ld x1 r1_S) (View.ld x2 r1_W)⟩]

theorem cover1_3 (p0 : Vec F S1024x256 .bf16) (y : S1024x256.Idx) :
    ∃ pc ∈ ([⟨r1_H, p0⟩] : List (View.Piece (Elt F) S1024x256 .bf16)), y ∈ pc.1.set :=
  View.cover_of_tiled [⟨r1_H, p0⟩] S1024x256.size (by rfl) y

set_option maxHeartbeats 1000000 in
/-- The body on whole staging memrefs: the three inputs' at `x0 x1 x2`, the output's at anything; it leaves the
    inputs as they were and the output at its stored value. -/
theorem sound_kernel1 (c : Dev nD) (E : Set ℕ) (i : grid1.Coords)
    (arg1 : Memref sig .tc .vmem S1024x256 .f32) (harg1 : arg1.IsWhole) (arg2 : Memref sig .tc .vmem S1024 .f32) (harg2 : arg2.IsWhole)
    (arg3 : Memref sig .tc .vmem S256x256 .f32) (harg3 : arg3.IsWhole) (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Region2.lean ====
/-
  Region 2: the aggregation over 4 row blocks of 1024 rows, each reduced in 4 steps over 1024 columns. At step k of a
  row block the body multiplies the [1024,1024] block of the first matrix by rows 1024·k … 1024·k+1023 of the second
  (held whole) and adds the product to an accumulator, which it zeroes first at step 0; at step 3 it then stores the
  accumulator, its rows scaled, a row vector added and negatives replaced by zero, as the output block.
  Stated at a parameter `V`, the buffer contents the region is entered with.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- The first conditional's condition: the reduction step is the first one. -/
abbrev cond2_0 (i : grid2.Coords) : Prop := (Scalar.cmpi .ne (Scalar.extui (Scalar.cmpi .eq (BitVec.ofNat 32 (i 1).val) 0#32)) 0#32) = 1#1
/-- It holds exactly at the points whose reduction step is 0. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition: the reduction step is the last one. -/
abbrev cond2_1 (i : grid2.Coords) : Prop := k2_cond2 i = 1#1
/-- It holds exactly at the points whose reduction step is 3. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last reduction step the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last reduction step the output window is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S1024x256 .f32 := (Memref.whole cc2_stg4_0 : Memref sig .tc .vmem S1024x256 .f32).view
/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S1024x256 .f32 := Memref.whole cc2_scratch0
/-- The accumulator as a view: what it holds is stated through it. -/
abbrev VS2_0 : View sig .tc .vmem S1024x256 .f32 := scM2_0.view

/-- What the launch hands the region, with the accumulator as a memref owned at some contents, the other scoped
    buffers unopened, and the generator register at some state. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_split]; simp only [scM2_0, owns_whole]; try rfl

/-! ## The body on any whole memrefs, case by case -/

set_option maxHeartbeats 1000000 in
/-- FIRST REDUCTION STEP (the first condition holds, the second does not). The pieces the accumulator ends with
    (last store first), with the proof that from the two matrix inputs at `x0`, `x1` and the accumulator at
    anything the body runs to the continuation holding the inputs as they were and the accumulator with the pieces
    written. The other three memrefs are not touched. -/
noncomputable def kernelRun2_A (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, fun E K => ?run⟩
  case run =>
    simp only [cc2__aggregate_kernel_eq_skeleton]; unfold cc2__aggregate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE REDUCTION STEP (neither condition holds). As before, from the accumulator at what the step before
    left, `xs0`. -/
noncomputable def kernelRun2_B (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, fun E K => ?run⟩
  case run =>
    simp only [cc2__aggregate_kernel_eq_skeleton]; unfold cc2__aggregate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST REDUCTION STEP (the second condition holds, the first does not). The pieces the output block and the
    accumulator end with, with the proof that from the four inputs at `x0 … x3`, the output block at anything and
    the accumulator at what the step before left, the body runs to the continuation holding the inputs as they
    were and the output block and the accumulator with their pieces written. -/
noncomputable def kernelRun2_C (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, ?_, fun E K => ?run⟩
  case run =>
    simp only [cc2__aggregate_kernel_eq_skeleton]; unfold cc2__aggregate_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the accumulator and in the output block -/

/-- The first step's pieces for the accumulator cover it. -/
theorem scover2_A_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) (y : S1024x256.Idx) :
    ∃ pc ∈ (kernelRun2_A c i arg2 harg2 arg3 harg3 arg4 harg4 arg5 harg5 arg6 harg6 arg7 harg7 hc0 hc1 x0 x1).1, y ∈ pc.1.set :=
  View.cover_of_tiledL (kernelRun2_A c i arg2 harg2 arg3 harg3 arg4 harg4 arg5 harg5 arg6 harg6 arg7 harg7 hc0 hc1 x0 x1).1 S1024x256.size (by sl_kernel_rfl) y

/-- What the first step leaves in the accumulator: its pieces read back. -/
def sout2_A_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) : Vec F S1024x256 .f32 :=
  VS2_0.read (Elt F) (VS2_0.writes (Elt F) VS2_0.junk (kernelRun2_A c i arg2 harg2 arg3 harg3 arg4 harg4 arg5 harg5 arg6 harg6 arg7 harg7 hc0 hc1 x0 x1).1)

/-- A middle step's pieces for the accumulator cover it. -/
theorem scover2_B_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) (y : S1024x256.Idx) :
    ∃ pc ∈ (kernelRun2_B c i arg2 harg2 arg3 harg3 arg4 harg4 arg5 harg5 arg6 harg6 arg7 harg7 hc0 hc1 x0 x1 xs0).1, y ∈ pc.1.set :=
  View.cover_of_tiledL (kernelRun2_B c i arg2 harg2 arg3 harg3 arg4 harg4 arg5 harg5 arg6 harg6 arg7 harg7 hc0 hc1 x0 x1 xs0).1 S1024x256.size (by sl_kernel_rfl) y

/-- What a middle step leaves in the accumulator. -/
def sout2_B_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) : Vec F S1024x256 .f32 :=
  VS2_0.read (Elt F) (VS2_0.writes (Elt F) VS2_0.junk (kernelRun2_B c i arg2 harg2 arg3 harg3 arg4 harg4 arg5 harg5 arg6 harg6 arg7 harg7 hc0 hc1 x0 x1 xs0).1)

/-- The last step's pieces for the output block cover it. -/
theorem cover2_C_4 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x256.size (by sl_kernel_rfl) y

/-- What the last step leaves in the output block. -/
def out2_C_4 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) : Vec F S1024x256 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- The last step's pieces for the accumulator cover it. -/
theorem scover2_C_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x256.size (by sl_kernel_rfl) y

/-- What the last step leaves in the accumulator. -/
def sout2_C_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) : Vec F S1024x256 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-- The output block's entry in the table below at a point that stores nothing into it: a placeholder nothing
    consults, the window being idle there and its block not written back. -/
def outIdle2_4 : Vec F S1024x256 .f32 := VO2_4.read (Elt F) VO2_4.junk

/-! ## What the output block and the accumulator hold after each point -/

/-- THE ACCUMULATION: after the body at position `n`, the output block's staging buffer (first component) and the
    accumulator (second): the case the point is in, run at the point's memrefs and input blocks, the accumulator
    taken at what position `n - 1` left. -/
def outsAt2 (c : Dev nD) : (n : ℕ) → n < cfg2.N → Vec F S1024x256 .f32 × Vec F S1024x256 .f32
  | 0, hn => (outIdle2_4, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (outIdle2_4, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (outIdle2_4, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a first reduction step. -/
theorem outsAt2_A (c : Dev nD) (t : Fin cfg2.N) (h0 : t.val % 4 = 0) (h1 : ¬t.val % 4 = 3) :
    outsAt2 V c t.val t.isLt = (outIdle2_4, sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle reduction step: over what the point before left in the accumulator. -/
theorem outsAt2_B (c : Dev nD) (t : Fin cfg2.N) (h0 : ¬t.val % 4 = 0) (h1 : ¬t.val % 4 = 3) :
    outsAt2 V c t.val t.isLt = (outIdle2_4, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last reduction step: over what the point before left in the accumulator. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region; afterwards
    the accumulator at what the point before left in it, the other scoped buffers unopened, and the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

/-! ## The proof data -/

/-- The proof data of the region on core `c`: the arrays as the region finds them; after the body at point `t`
    each input's buffer at its block and the output's at `outsAt2`'s first component; the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point's reduction step says which case it is
    in; the invariant hands the body the accumulator (at anything at the first point, at what the point before
    left afterwards) and takes it back at this point's contents; where the output window is idle its buffer is
    handed back as found, at the last step it is left at the stored block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) _).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Region2

end Cert.Kernel.Hand

end
-- ==== Proof.KB.Region3.lean ====
/-
  Region 3: the scaled projection over 4 row blocks of 1024 rows. At a row block the body reads the block of the
  layer's input, the block of the source scales and the whole weight matrix, and stores the product
  (rows scaled, then multiplied by the weights) as one block.
  Stated at a parameter `V`, the buffer contents the region is entered with.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_H : Rect S1024x256 := Rect.unit (s := S1024x256) ![0, 0] S1024x256.size inb_S1024x256_S1024x256_0_0
abbrev r3_S : Rect S1024 := Rect.unit (s := S1024) ![0] S1024.size inb_S1024_S1024_0
abbrev r3_W : Rect S256x256 := Rect.unit (s := S256x256) ![0, 0] S256x256.size inb_S256x256_S256x256_0_0

/-- The stored block: the input block's rows scaled and multiplied by the weights. -/
def out3_3 (x0 : Vec F S1024x256 .f32) (x1 : Vec F S1024 .f32) (x2 : Vec F S256x256 .f32) : Vec F S1024x256 .bf16 :=
  View.canon [⟨r3_H, k3_pay1 (View.ld x0 r3_H) (View.ld x1 r3_S) (View.ld x2 r3_W)⟩]

theorem cover3_3 (p0 : Vec F S1024x256 .bf16) (y : S1024x256.Idx) :
    ∃ pc ∈ ([⟨r3_H, p0⟩] : List (View.Piece (Elt F) S1024x256 .bf16)), y ∈ pc.1.set :=
  View.cover_of_tiled [⟨r3_H, p0⟩] S1024x256.size (by rfl) y

set_option maxHeartbeats 1000000 in
/-- The body on whole staging memrefs: the three inputs' at `x0 x1 x2`, the output's at anything; it leaves the
    inputs as they were and the output at its stored value. -/
theorem sound_kernel3 (c : Dev nD) (E : Set ℕ) (i : grid3.Coords)
    (arg1 : Memref sig .tc .vmem S1024x256 .f32) (harg1 : arg1.IsWhole) (arg2 : Memref sig .tc .vmem S1024 .f32) (harg2 : arg2.IsWhole)
    (arg3 : Memref sig .tc .vmem S256x256 .f32) (harg3 : arg3.IsWhole) (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__scale_matmul_kernel i arg1 harg1 arg2 harg2 arg3 harg3 arg4 harg4) K := by
  simp only [cc3__scale_matmul_kernel_eq_skeleton]; unfold cc3__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KB.Region4.lean ====
/-
  Region 4: the aggregation over 4 row blocks of 1024 rows, each reduced in 4 steps over 1024 columns. At step k of a
  row block the body multiplies the [1024,1024] block of the first matrix by rows 1024·k … 1024·k+1023 of the second
  (held whole) and adds the product to an accumulator, which it zeroes first at step 0; at step 3 it then stores the
  accumulator, its rows scaled, a row vector added and negatives replaced by zero, as the output block.
  Stated at a parameter `V`, the buffer contents the region is entered with.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, over the grid -/

/-- The first conditional's condition: the reduction step is the first one. -/
abbrev cond4_0 (i : grid4.Coords) : Prop := (Scalar.cmpi .ne (Scalar.extui (Scalar.cmpi .eq (BitVec.ofNat 32 (i 1).val) 0#32)) 0#32) = 1#1
/-- It holds exactly at the points whose reduction step is 0. -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's condition: the reduction step is the last one. -/
abbrev cond4_1 (i : grid4.Coords) : Prop := k4_cond2 i = 1#1
/-- It holds exactly at the points whose reduction step is 3. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last reduction step the output window is idle and its block is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last reduction step the output window is live. -/
theorem liveAt4_4 : ∀ t : Fin cfg4.N, cond4_1 (grid4.coords t) → cfg4.idle 4 (grid4.coords t) = false := by decide +kernel

/-! ## The memrefs the body is called with -/

/-- One staging buffer of the output window, through which its contents are stated. -/
abbrev VO4_4 : View sig .tc .vmem S1024x256 .f32 := (Memref.whole cc4_stg4_0 : Memref sig .tc .vmem S1024x256 .f32).view
/-- Each window's current staging memref at point `t`, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)
/-- The accumulator: a whole scoped buffer of the kernel's own, passed beside the windows. -/
abbrev scM4_0 : Memref sig .tc .vmem S1024x256 .f32 := Memref.whole cc4_scratch0
/-- The accumulator as a view: what it holds is stated through it. -/
abbrev VS4_0 : View sig .tc .vmem S1024x256 .f32 := scM4_0.view

/-- What the launch hands the region, with the accumulator as a memref owned at some contents, the other scoped
    buffers unopened, and the generator register at some state. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_split]; simp only [scM4_0, owns_whole]; try rfl

/-! ## The body on any whole memrefs, case by case -/

set_option maxHeartbeats 1000000 in
/-- FIRST REDUCTION STEP (the first condition holds, the second does not). The pieces the accumulator ends with
    (last store first), with the proof that from the two matrix inputs at `x0`, `x1` and the accumulator at
    anything the body runs to the continuation holding the inputs as they were and the accumulator with the pieces
    written. The other three memrefs are not touched. -/
noncomputable def kernelRun4_A (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, fun E K => ?run⟩
  case run =>
    simp only [cc4__aggregate_kernel_eq_skeleton]; unfold cc4__aggregate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE REDUCTION STEP (neither condition holds). As before, from the accumulator at what the step before
    left, `xs0`. -/
noncomputable def kernelRun4_B (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, fun E K => ?run⟩
  case run =>
    simp only [cc4__aggregate_kernel_eq_skeleton]; unfold cc4__aggregate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST REDUCTION STEP (the second condition holds, the first does not). The pieces the output block and the
    accumulator end with, with the proof that from the four inputs at `x0 … x3`, the output block at anything and
    the accumulator at what the step before left, the body runs to the continuation holding the inputs as they
    were and the output block and the accumulator with their pieces written. -/
noncomputable def kernelRun4_C (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, ?_, fun E K => ?run⟩
  case run =>
    simp only [cc4__aggregate_kernel_eq_skeleton]; unfold cc4__aggregate_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the accumulator and in the output block -/

/-- The first step's pieces for the accumulator cover it. -/
theorem scover4_A_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) (y : S1024x256.Idx) :
    ∃ pc ∈ (kernelRun4_A c i arg2 harg2 arg3 harg3 arg4 harg4 arg5 harg5 arg6 harg6 arg7 harg7 hc0 hc1 x0 x1).1, y ∈ pc.1.set :=
  View.cover_of_tiledL (kernelRun4_A c i arg2 harg2 arg3 harg3 arg4 harg4 arg5 harg5 arg6 harg6 arg7 harg7 hc0 hc1 x0 x1).1 S1024x256.size (by sl_kernel_rfl) y

/-- What the first step leaves in the accumulator: its pieces read back. -/
def sout4_A_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) : Vec F S1024x256 .f32 :=
  VS4_0.read (Elt F) (VS4_0.writes (Elt F) VS4_0.junk (kernelRun4_A c i arg2 harg2 arg3 harg3 arg4 harg4 arg5 harg5 arg6 harg6 arg7 harg7 hc0 hc1 x0 x1).1)

/-- A middle step's pieces for the accumulator cover it. -/
theorem scover4_B_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) (y : S1024x256.Idx) :
    ∃ pc ∈ (kernelRun4_B c i arg2 harg2 arg3 harg3 arg4 harg4 arg5 harg5 arg6 harg6 arg7 harg7 hc0 hc1 x0 x1 xs0).1, y ∈ pc.1.set :=
  View.cover_of_tiledL (kernelRun4_B c i arg2 harg2 arg3 harg3 arg4 harg4 arg5 harg5 arg6 harg6 arg7 harg7 hc0 hc1 x0 x1 xs0).1 S1024x256.size (by sl_kernel_rfl) y

/-- What a middle step leaves in the accumulator. -/
def sout4_B_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) : Vec F S1024x256 .f32 :=
  VS4_0.read (Elt F) (VS4_0.writes (Elt F) VS4_0.junk (kernelRun4_B c i arg2 harg2 arg3 harg3 arg4 harg4 arg5 harg5 arg6 harg6 arg7 harg7 hc0 hc1 x0 x1 xs0).1)

/-- The last step's pieces for the output block cover it. -/
theorem cover4_C_4 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun4_C c i arg2 harg2 arg3 harg3 arg4 harg4 arg5 harg5 arg6 harg6 arg7 harg7 hc0 hc1 x0 x1 x2 x3 xs0).1, y ∈ pc.1.set :=
  View.cover_of_tiledL (kernelRun4_C c i arg2 harg2 arg3 harg3 arg4 harg4 arg5 harg5 arg6 harg6 arg7 harg7 hc0 hc1 x0 x1 x2 x3 xs0).1 S1024x256.size (by sl_kernel_rfl) y

/-- What the last step leaves in the output block. -/
def out4_C_4 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) : Vec F S1024x256 .f32 :=
  VO4_4.read (Elt F) (VO4_4.writes (Elt F) VO4_4.junk (kernelRun4_C c i arg2 harg2 arg3 harg3 arg4 harg4 arg5 harg5 arg6 harg6 arg7 harg7 hc0 hc1 x0 x1 x2 x3 xs0).1)

/-- The last step's pieces for the accumulator cover it. -/
theorem scover4_C_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun4_C c i arg2 harg2 arg3 harg3 arg4 harg4 arg5 harg5 arg6 harg6 arg7 harg7 hc0 hc1 x0 x1 x2 x3 xs0).2.1, y ∈ pc.1.set :=
  View.cover_of_tiledL (kernelRun4_C c i arg2 harg2 arg3 harg3 arg4 harg4 arg5 harg5 arg6 harg6 arg7 harg7 hc0 hc1 x0 x1 x2 x3 xs0).2.1 S1024x256.size (by sl_kernel_rfl) y

/-- What the last step leaves in the accumulator. -/
def sout4_C_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) : Vec F S1024x256 .f32 :=
  VS4_0.read (Elt F) (VS4_0.writes (Elt F) VS4_0.junk (kernelRun4_C c i arg2 harg2 arg3 harg3 arg4 harg4 arg5 harg5 arg6 harg6 arg7 harg7 hc0 hc1 x0 x1 x2 x3 xs0).2.1)

/-- The output block's entry in the table below at a point that stores nothing into it: a placeholder nothing
    consults, the window being idle there and its block not written back. -/
def outIdle4_4 : Vec F S1024x256 .f32 := VO4_4.read (Elt F) VO4_4.junk

/-! ## What the output block and the accumulator hold after each point -/

/-- THE ACCUMULATION: after the body at position `n`, the output block's staging buffer (first component) and the
    accumulator (second): the case the point is in, run at the point's memrefs and input blocks, the accumulator
    taken at what position `n - 1` left. -/
def outsAt4 (c : Dev nD) : (n : ℕ) → n < cfg4.N → Vec F S1024x256 .f32 × Vec F S1024x256 .f32
  | 0, hn => (outIdle4_4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (outIdle4_4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2,
          sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)
      else
        (outIdle4_4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a first reduction step. -/
theorem outsAt4_A (c : Dev nD) (t : Fin cfg4.N) (h0 : t.val % 4 = 0) (h1 : ¬t.val % 4 = 3) :
    outsAt4 V c t.val t.isLt = (outIdle4_4, sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle reduction step: over what the point before left in the accumulator. -/
theorem outsAt4_B (c : Dev nD) (t : Fin cfg4.N) (h0 : ¬t.val % 4 = 0) (h1 : ¬t.val % 4 = 3) :
    outsAt4 V c t.val t.isLt = (outIdle4_4, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last reduction step: over what the point before left in the accumulator. -/
theorem outsAt4_C (c : Dev nD) (t : Fin cfg4.N) (h0 : ¬t.val % 4 = 0) (h1 : t.val % 4 = 3) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region; afterwards
    the accumulator at what the point before left in it, the other scoped buffers unopened, and the generator
    register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The proof data -/

/-- The proof data of the region on core `c`: the arrays as the region finds them; after the body at point `t`
    each input's buffer at its block and the output's at `outsAt4`'s first component; the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' memrefs hold their blocks; the point's reduction step says which case it is
    in; the invariant hands the body the accumulator (at anything at the first point, at what the point before
    left afterwards) and takes it back at this point's contents; where the output window is idle its buffer is
    handed back as found, at the last step it is left at the stored block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_4 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) (iblk4 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C_4 c _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_B c (grid4.coords t) _ _ _ _ _ _ _ _ _ _ _ _ (fun h => h0 ((hcond4_0 t).mp h)) (fun h => h1 ((hcond4_1 t).mp h)) (iblk4 V c 0 t) (iblk4 V c 1 t) _).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end Region4

end Cert.Kernel.Hand

end
-- ==== Proof.KB.Run.lean ====
/-
  The whole run: the program is five kernel regions with one stretch of host operations after the first. The
  buffer contents at each boundary are a fold from the launch memory: a region replaces its windows' arrays by
  what its write-backs leave, the host stretch applies its operations. Every weakly fair execution ends with
  every unscoped buffer at the last fold.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import proofs.«144456_j68298569941180_2_alg».proof.Proof.KB.Region0
import proofs.«144456_j68298569941180_2_alg».proof.Proof.KB.Region1
import proofs.«144456_j68298569941180_2_alg».proof.Proof.KB.Region2
import proofs.«144456_j68298569941180_2_alg».proof.Proof.KB.Region3
import proofs.«144456_j68298569941180_2_alg».proof.Proof.KB.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At region 0's exit: its arrays at what its write-backs leave, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (U0 m ρ) c).arrAt_in w hw _).trans (A_eq0 (U0 m ρ) c w))
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the host operations between regions 0 and 1 (the degree clamps and inverse square roots). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit: its arrays at what its write-backs leave, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (U2 m ρ) c).arrAt_in w hw _).trans (A_eq1 (U2 m ρ) c w))
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- At region 2's exit: its arrays at what its write-backs leave, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (U3 m ρ) c).arrAt_in w hw _).trans (A_eq2 (U3 m ρ) c w))
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- At region 3's exit: its arrays at what its write-backs leave, every other buffer as entered. -/
def W5 (c : Dev nD) : Valuation τ sig (Elt F) :=
  Pipeline.withArrays spec3 c (W4 m ρ c) fun w => (dat3 (U4 m ρ) c).arrAt w cfg3.N
theorem W5_arr (c : Dev nD) (w : Fin cfg3.W) :
    W5 m ρ c (Proc.devRef .tc (Pipeline.arrRef spec3 w)) = (dat3 (U4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- An input window's array leaves region 3 as it entered. -/
theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (U4 m ρ) c).arrAt_in w hw _).trans (A_eq3 (U4 m ρ) c w))
abbrev U5 : (c : Dev nD) → (b : Ref sig .tc) → Buf (Elt F) ((c : Thread nD τ).loc b) := fun c b => W5 m ρ c b
theorem hF3 (c : Dev nD) (w : Fin cfg3.W) : (dat3 (U4 m ρ) c).arrAt w cfg3.N = U5 m ρ c (Pipeline.arrRef spec3 w) :=
  (W5_arr m ρ c w).symm
theorem hrest3 (c : Dev nD) : ∀ b, b ∉ Finset.univ.image (Pipeline.arrRef spec3) → U5 m ρ c b = U4 m ρ c b :=
  fun b hb => W5_of_ne m ρ c b fun w e => hb (Finset.mem_image.mpr ⟨w, Finset.mem_univ _, e⟩)
/-- At region 4's exit: its arrays at what its write-backs leave, every other buffer as entered. -/
def W6 (c : Dev nD) : Valuation τ sig (Elt F) :=
  Pipeline.withArrays spec4 c (W5 m ρ c) fun w => (dat4 (U5 m ρ) c).arrAt w cfg4.N
theorem W6_arr (c : Dev nD) (w : Fin cfg4.W) :
    W6 m ρ c (Proc.devRef .tc (Pipeline.arrRef spec4 w)) = (dat4 (U5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- An input window's array leaves region 4 as it entered. -/
theorem W6_in (c : Dev nD) (w : Fin cfg4.W) (hw : (cfg4.win w).isOut = false) :
    W6 m ρ c (Proc.devRef .tc (Pipeline.arrRef spec4 w)) = W5 m ρ c (Proc.devRef .tc (Pipeline.arrRef spec4 w)) :=
  (W6_arr m ρ c w).trans (((dat4 (U5 m ρ) c).arrAt_in w hw _).trans (A_eq4 (U5 m ρ) c w))
abbrev U6 : (c : Dev nD) → (b : Ref sig .tc) → Buf (Elt F) ((c : Thread nD τ).loc b) := fun c b => W6 m ρ c b
theorem hF4 (c : Dev nD) (w : Fin cfg4.W) : (dat4 (U5 m ρ) c).arrAt w cfg4.N = U6 m ρ c (Pipeline.arrRef spec4 w) :=
  (W6_arr m ρ c w).symm
theorem hrest4 (c : Dev nD) : ∀ b, b ∉ Finset.univ.image (Pipeline.arrRef spec4) → U6 m ρ c b = U5 m ρ c b :=
  fun b hb => W6_of_ne m ρ c b fun w e => hb (Finset.mem_image.mpr ⟨w, Finset.mem_univ _, e⟩)

/-! ## The proof data family and the thread state -/

abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
  | ⟨2, _⟩ => fun c => dat2 (U3 m ρ) c
  | ⟨3, _⟩ => fun c => dat3 (U4 m ρ) c
  | ⟨4, _⟩ => fun c => dat4 (U5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W0`, left with them at `W1`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U3 m ρ) c)
    unfold Pipeline.ΦA
    iintro ⟨Hp, -, Hr⟩
    isplitl [Hr]; · iexact Hr
    iexact Hp
  hout c := by
    rw [Pipeline.ownSems0_none]
    refine (hout2 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W4`, left with them at `W5`. Its arrays
    are split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U4 m ρ c) (U5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W5`, left with them at `W6`. Its arrays
    are split out of the unscoped buffers and put back at the exit contents; the generator register goes into the
    region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (U5 m ρ) c)
    unfold Pipeline.ΦA
    iintro ⟨Hp, -, Hr⟩
    isplitl [Hr]; · iexact Hr
    iexact Hp
  hout c := by
    rw [Pipeline.ownSems0_none]
    refine (hout4 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U5 m ρ c) (U6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ),
    .region (reg3 m ρ),
    .region (reg4 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting,
    and every final state has every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Kernel.Hand

end
-- ==== Proof.KB.Ends.lean ====
/-
  What the last fold holds: each argument array as launched, the first result array what region 2's write-backs
  left (region 3 reads it, region 4 does not touch it), the second what region 4's left.
-/
import proofs.«144456_j68298569941180_2_alg».proof.Proof.Gen.Kernel.Launch
import proofs.«144456_j68298569941180_2_alg».proof.Proof.Gen.Kernel.Skeleton
import proofs.«144456_j68298569941180_2_alg».proof.Proof.Gen.Kernel.Points
import proofs.«144456_j68298569941180_2_alg».proof.Proof.KB.Run
import proofs.«144456_j68298569941180_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no region writes it back and no host operation writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_of_ne m ρ c _ (by decide))
    _ = W4 m ρ c (Proc.devRef .tc main_arg0) := (W5_of_ne m ρ c _ (by decide))
    _ = W3 m ρ c (Proc.devRef .tc main_arg0) := (W4_of_ne m ρ c _ (by decide))
    _ = W2 m ρ c (Proc.devRef .tc main_arg0) := (W3_of_ne m ρ c _ (by decide))
    _ = W1 m ρ c (Proc.devRef .tc main_arg0) := (StableHlo.after_of_writes_sub hostOps1 _ hostOps1_writes (by decide))
    _ = W0 m ρ c (Proc.devRef .tc main_arg0) := (W1_in m ρ c 0 rfl)
    _ = m ((c : Thread nD τ).loc main_arg0) := rfl
/-- `main_arg1` ends as launched: no region writes it back and no host operation writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_of_ne m ρ c _ (by decide))
    _ = W4 m ρ c (Proc.devRef .tc main_arg1) := (W5_of_ne m ρ c _ (by decide))
    _ = W3 m ρ c (Proc.devRef .tc main_arg1) := (W4_of_ne m ρ c _ (by decide))
    _ = W2 m ρ c (Proc.devRef .tc main_arg1) := (W3_in m ρ c 0 rfl)
    _ = W1 m ρ c (Proc.devRef .tc main_arg1) := (StableHlo.after_of_writes_sub hostOps1 _ hostOps1_writes (by decide))
    _ = W0 m ρ c (Proc.devRef .tc main_arg1) := (W1_of_ne m ρ c _ (by decide))
    _ = m ((c : Thread nD τ).loc main_arg1) := rfl
/-- `main_arg2` ends as launched: no region writes it back and no host operation writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := (W6_of_ne m ρ c _ (by decide))
    _ = W4 m ρ c (Proc.devRef .tc main_arg2) := (W5_of_ne m ρ c _ (by decide))
    _ = W3 m ρ c (Proc.devRef .tc main_arg2) := (W4_of_ne m ρ c _ (by decide))
    _ = W2 m ρ c (Proc.devRef .tc main_arg2) := (W3_in m ρ c 2 rfl)
    _ = W1 m ρ c (Proc.devRef .tc main_arg2) := (StableHlo.after_of_writes_sub hostOps1 _ hostOps1_writes (by decide))
    _ = W0 m ρ c (Proc.devRef .tc main_arg2) := (W1_of_ne m ρ c _ (by decide))
    _ = m ((c : Thread nD τ).loc main_arg2) := rfl
/-- `main_arg3` ends as launched: no region writes it back and no host operation writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_of_ne m ρ c _ (by decide))
    _ = W4 m ρ c (Proc.devRef .tc main_arg3) := (W5_of_ne m ρ c _ (by decide))
    _ = W3 m ρ c (Proc.devRef .tc main_arg3) := (W4_in m ρ c 3 rfl)
    _ = W2 m ρ c (Proc.devRef .tc main_arg3) := (W3_of_ne m ρ c _ (by decide))
    _ = W1 m ρ c (Proc.devRef .tc main_arg3) := (StableHlo.after_of_writes_sub hostOps1 _ hostOps1_writes (by decide))
    _ = W0 m ρ c (Proc.devRef .tc main_arg3) := (W1_of_ne m ρ c _ (by decide))
    _ = m ((c : Thread nD τ).loc main_arg3) := rfl
/-- `main_arg4` ends as launched: no region writes it back and no host operation writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_of_ne m ρ c _ (by decide))
    _ = W4 m ρ c (Proc.devRef .tc main_arg4) := (W5_in m ρ c 2 rfl)
    _ = W3 m ρ c (Proc.devRef .tc main_arg4) := (W4_of_ne m ρ c _ (by decide))
    _ = W2 m ρ c (Proc.devRef .tc main_arg4) := (W3_of_ne m ρ c _ (by decide))
    _ = W1 m ρ c (Proc.devRef .tc main_arg4) := (StableHlo.after_of_writes_sub hostOps1 _ hostOps1_writes (by decide))
    _ = W0 m ρ c (Proc.devRef .tc main_arg4) := (W1_of_ne m ρ c _ (by decide))
    _ = m ((c : Thread nD τ).loc main_arg4) := rfl
/-- `main_arg5` ends as launched: no region writes it back and no host operation writes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_in m ρ c 3 rfl)
    _ = W4 m ρ c (Proc.devRef .tc main_arg5) := (W5_of_ne m ρ c _ (by decide))
    _ = W3 m ρ c (Proc.devRef .tc main_arg5) := (W4_of_ne m ρ c _ (by decide))
    _ = W2 m ρ c (Proc.devRef .tc main_arg5) := (W3_of_ne m ρ c _ (by decide))
    _ = W1 m ρ c (Proc.devRef .tc main_arg5) := (StableHlo.after_of_writes_sub hostOps1 _ hostOps1_writes (by decide))
    _ = W0 m ρ c (Proc.devRef .tc main_arg5) := (W1_of_ne m ρ c _ (by decide))
    _ = m ((c : Thread nD τ).loc main_arg5) := rfl

/-- The first result array at the end: what region 2's write-backs left in it. -/
theorem W6_main_v9 (c : Dev nD) : W6 m ρ c (Proc.devRef .tc main_v9) = (dat2 (U3 m ρ) c).arrAt 4 cfg2.N :=
  calc W6 m ρ c (Proc.devRef .tc main_v9)
    _ = W5 m ρ c (Proc.devRef .tc main_v9) := (W6_of_ne m ρ c _ (by decide))
    _ = W4 m ρ c (Proc.devRef .tc main_v9) := (W5_in m ρ c 0 rfl)
    _ = (dat2 (U3 m ρ) c).arrAt 4 cfg2.N := W4_arr m ρ c 4
/-- The second result array at the end: what region 4's write-backs left in it. -/
theorem W6_main_v11 (c : Dev nD) : W6 m ρ c (Proc.devRef .tc main_v11) = (dat4 (U5 m ρ) c).arrAt 4 cfg4.N :=
  W6_arr m ρ c 4

/-- The frame: every weakly fair execution terminates, nothing faulting, with the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Hand

end
-- ==== Proof.KI.Region0.lean ====
/-
  Region 0: the graph-building kernel over 16 row blocks of 256 rows. At a row block the body reads the block of
  the adjacency input, forms the thresholded entries plus the diagonal, and stores three things: the block
  itself, its row sums, and its column sums on sublane 0 of an 8-row tile (zeros on the other seven).
  Stated at a parameter `V`, the buffer contents the region is entered with.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the row block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_A : Rect S256x4096 := Rect.unit (s := S256x4096) ![0, 0] S256x4096.size inb_S256x4096_S256x4096_0_0
abbrev r0_R : Rect S256 := Rect.unit (s := S256) ![0] S256.size inb_S256_S256_0
abbrev r0_P : Rect S1x8x4096 := Rect.unit (s := S1x8x4096) ![0, 0, 0] S1x8x4096.size inb_S1x8x4096_S1x8x4096_0_0_0

/-- The stored block of thresholded entries plus the diagonal, from the row block `x0` at grid coordinates `i`. -/
def out0_1 (i : grid0.Coords) (x0 : Vec F S256x4096 .f32) : Vec F S256x4096 .bf16 :=
  View.canon [⟨r0_A, k0_pay2 i (View.ld x0 r0_A)⟩]
/-- The stored row sums of that block. -/
def out0_2 (i : grid0.Coords) (x0 : Vec F S256x4096 .f32) : Vec F S256 .f32 :=
  View.canon [⟨r0_R, k0_pay3 i (View.ld x0 r0_A)⟩]
/-- The stored column sums of that block, on sublane 0 of the tile. -/
def out0_3 (i : grid0.Coords) (x0 : Vec F S256x4096 .f32) : Vec F S1x8x4096 .f32 :=
  View.canon [⟨r0_P, k0_pay4 i (View.ld x0 r0_A)⟩]

theorem cover0_1 (p0 : Vec F S256x4096 .bf16) (y : S256x4096.Idx) :
    ∃ pc ∈ ([⟨r0_A, p0⟩] : List (View.Piece (Elt F) S256x4096 .bf16)), y ∈ pc.1.set :=
  View.cover_of_tiled [⟨r0_A, p0⟩] S256x4096.size (by rfl) y
theorem cover0_2 (p0 : Vec F S256 .f32) (y : S256.Idx) :
    ∃ pc ∈ ([⟨r0_R, p0⟩] : List (View.Piece (Elt F) S256 .f32)), y ∈ pc.1.set :=
  View.cover_of_tiled [⟨r0_R, p0⟩] S256.size (by rfl) y
theorem cover0_3 (p0 : Vec F S1x8x4096 .f32) (y : S1x8x4096.Idx) :
    ∃ pc ∈ ([⟨r0_P, p0⟩] : List (View.Piece (Elt F) S1x8x4096 .f32)), y ∈ pc.1.set :=
  View.cover_of_tiled [⟨r0_P, p0⟩] S1x8x4096.size (by rfl) y

set_option maxHeartbeats 1000000 in
/-- The body on whole staging memrefs: the input's at `x0`, the three outputs' at anything; it leaves the input
    as it was and each output at its stored value. -/
theorem sound_kernel0 (c : Dev nD) (E : Set ℕ) (i : grid0.Coords)
    (arg1 : Memref sig .tc .vmem S256x4096 .f32) (harg1 : arg1.IsWhole) (arg2 : Memref sig .tc .vmem S256x4096 .bf16) (harg2 : arg2.IsWhole)
    (arg3 : Memref sig .tc .vmem S256 .f32) (harg3 : arg3.IsWhole) (arg4 : Memref sig .tc .vmem S1x8x4096 .f32) (harg4 : arg4.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg1 fullShare x0 ∗ owns (c : Thread nD τ) arg2 fullShare (out0_1 i x0)
            ∗ owns (c : Thread nD τ) arg3 fullShare (out0_2 i x0) ∗ owns (c : Thread nD τ) arg4 fullShare (out0_3 i x0)) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-- The proof data of the region on core `c`: the arrays as found; after the body at point `t` the input's buffer
    at its block and each output's at its stored value of the input block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (grid0.coords t) (iblk0 V c 0 t)
    | ⟨2, _⟩ => out0_2 (grid0.coords t) (iblk0 V c 0 t)
    | ⟨3, _⟩ => out0_3 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (grid0.coords t) (iblk0 V c 0 t) := by dsimp only [dat0]
theorem after0_2 (c : Dev nD) (t : Fin cfg0.N) : (dat0 V c).after 2 t = out0_2 (grid0.coords t) (iblk0 V c 0 t) := by dsimp only [dat0]
theorem after0_3 (c : Dev nD) (t : Fin cfg0.N) : (dat0 V c).after 3 t = out0_3 (grid0.coords t) (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  Region 1: the scaled projection over 4 row blocks of 1024 rows. At a row block the body reads the block of the
  layer's input, the block of the source scales and the whole weight matrix, and stores the product
  (rows scaled, then multiplied by the weights) as one block.
  Stated at a parameter `V`, the buffer contents the region is entered with.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_H : Rect S1024x256 := Rect.unit (s := S1024x256) ![0, 0] S1024x256.size inb_S1024x256_S1024x256_0_0
abbrev r1_S : Rect S1024 := Rect.unit (s := S1024) ![0] S1024.size inb_S1024_S1024_0
abbrev r1_W : Rect S256x256 := Rect.unit (s := S256x256) ![0, 0] S256x256.size inb_S256x256_S256x256_0_0

/-- The stored block: the input block's rows scaled and multiplied by the weights. -/
def out1_3 (x0 : Vec F S1024x256 .f32) (x1 : Vec F S1024 .f32) (x2 : Vec F S256x256 .f32) : Vec F S1024x256 .bf16 :=
  View.canon [⟨r1_H, k1_pay1 (View.ld x0 r1_H) (View.ld x1 r1_S) (View.ld x2 r1_W)⟩]

theorem cover1_3 (p0 : Vec F S1024x256 .bf16) (y : S1024x256.Idx) :
    ∃ pc ∈ ([⟨r1_H, p0⟩] : List (View.Piece (Elt F) S1024x256 .bf16)), y ∈ pc.1.set :=
  View.cover_of_tiled [⟨r1_H, p0⟩] S1024x256.size (by rfl) y

set_option maxHeartbeats 1000000 in
/-- The body on whole staging memrefs: the three inputs' at `x0 x1 x2`, the output's at anything; it leaves the
    inputs as they were and the output at its stored value. -/
theorem sound_kernel1 (c : Dev nD) (E : Set ℕ) (i : grid1.Coords)
    (arg1 : Memref sig .tc .vmem S1024x256 .f32) (harg1 : arg1.IsWhole) (arg2 : Memref sig .tc .vmem S1024 .f32) (harg2 : arg2.IsWhole)
    (arg3 : Memref sig .tc .vmem S256x256 .f32) (harg3 : arg3.IsWhole) (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2.lean ====
/-
  Region 2: the aggregation over 4 row blocks of 1024 rows, each reduced in 4 steps over 1024 columns. At step k of a
  row block the body multiplies the [1024,1024] block of the first matrix by rows 1024·k … 1024·k+1023 of the second
  (held whole) and adds the product to an accumulator, which it zeroes first at step 0; at step 3 it then stores the
  accumulator, its rows scaled, a row vector added and negatives replaced by zero, as the output block.
  Stated at a parameter `V`, the buffer contents the region is entered with.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions of the body, over the grid -/

/-- The first conditional's condition: the reduction step is the first one. -/
abbrev cond2_0 (i : grid2.Coords) : Prop := (Scalar.cmpi .ne (Scalar.extui (Scalar.cmpi .eq (BitVec.ofNat 32 (i 1).val) 0#32)) 0#32) = 1#1
/-- It holds exactly at the points whose reduction step is 0. -/
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional's condition: the reduction step is the last one. -/
abbrev cond2_1 (i : grid2.Coords) : Prop := k2_cond2 i = 1#1
/-- It holds exactly at the points whose reduction step is 3. -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last reduction step the output window is idle and its block is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
/-- At the last reduction step the output window is live. -/
theorem liveAt2_4 : ∀ t : Fin cfg2.N, cond2_1 (grid2.coords t) → cfg2.idle 4 (grid2.coords t) = false := by decide +kernel

/-! ## The memrefs the body is called with -/

/-- One staging buffer of the output window, through which its contents are stated. -/
abbrev VO2_4 : View sig .tc .vmem S1024x256 .f32 := (Memref.whole cc2_stg4_0 : Memref sig .tc .vmem S1024x256 .f32).view
/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S1024x256 .f32 := Memref.whole cc2_scratch0
/-- The accumulator as a view: what it holds is stated through it. -/
abbrev VS2_0 : View sig .tc .vmem S1024x256 .f32 := scM2_0.view

/-- What the launch hands the region, with the accumulator as a memref owned at some contents, the other scoped
    buffers unopened, and the generator register at some state. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_split]; simp only [scM2_0, owns_whole]; try rfl

/-! ## The body on any whole memrefs, case by case -/

set_option maxHeartbeats 1000000 in
/-- FIRST REDUCTION STEP (the first condition holds, the second does not). The pieces the accumulator ends with
    (last store first), with the proof that from the two matrix inputs at `x0`, `x1` and the accumulator at
    anything the body runs to the continuation holding the inputs as they were and the accumulator with the pieces
    written. The other three memrefs are not touched. -/
noncomputable def kernelRun2_A (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, fun E K => ?run⟩
  case run =>
    simp only [cc2__aggregate_kernel_eq_skeleton]; unfold cc2__aggregate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE REDUCTION STEP (neither condition holds). As before, from the accumulator at what the step before
    left, `xs0`. -/
noncomputable def kernelRun2_B (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, fun E K => ?run⟩
  case run =>
    simp only [cc2__aggregate_kernel_eq_skeleton]; unfold cc2__aggregate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST REDUCTION STEP (the second condition holds, the first does not). The pieces the output block and the
    accumulator end with, with the proof that from the four inputs at `x0 … x3`, the output block at anything and
    the accumulator at what the step before left, the body runs to the continuation holding the inputs as they
    were and the output block and the accumulator with their pieces written. -/
noncomputable def kernelRun2_C (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2__aggregate_kernel i arg2 harg2 arg3 harg3 arg4 harg4 arg5 harg5 arg6 harg6 arg7 harg7) K } := by
  refine ⟨?_, ?_, fun E K => ?run⟩
  case run =>
    simp only [cc2__aggregate_kernel_eq_skeleton]; unfold cc2__aggregate_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the accumulator and in the output block -/

/-- The first step's pieces for the accumulator cover it. -/
theorem scover2_A_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) (y : S1024x256.Idx) :
    ∃ pc ∈ (kernelRun2_A c i arg2 harg2 arg3 harg3 arg4 harg4 arg5 harg5 arg6 harg6 arg7 harg7 hc0 hc1 x0 x1).1, y ∈ pc.1.set :=
  View.cover_of_tiledL (kernelRun2_A c i arg2 harg2 arg3 harg3 arg4 harg4 arg5 harg5 arg6 harg6 arg7 harg7 hc0 hc1 x0 x1).1 S1024x256.size (by sl_kernel_rfl) y

/-- What the first step leaves in the accumulator: its pieces read back. -/
def sout2_A_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) : Vec F S1024x256 .f32 :=
  VS2_0.read (Elt F) (VS2_0.writes (Elt F) VS2_0.junk (kernelRun2_A c i arg2 harg2 arg3 harg3 arg4 harg4 arg5 harg5 arg6 harg6 arg7 harg7 hc0 hc1 x0 x1).1)

/-- A middle step's pieces for the accumulator cover it. -/
theorem scover2_B_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) (y : S1024x256.Idx) :
    ∃ pc ∈ (kernelRun2_B c i arg2 harg2 arg3 harg3 arg4 harg4 arg5 harg5 arg6 harg6 arg7 harg7 hc0 hc1 x0 x1 xs0).1, y ∈ pc.1.set :=
  View.cover_of_tiledL (kernelRun2_B c i arg2 harg2 arg3 harg3 arg4 harg4 arg5 harg5 arg6 harg6 arg7 harg7 hc0 hc1 x0 x1 xs0).1 S1024x256.size (by sl_kernel_rfl) y

/-- What a middle step leaves in the accumulator. -/
def sout2_B_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) : Vec F S1024x256 .f32 :=
  VS2_0.read (Elt F) (VS2_0.writes (Elt F) VS2_0.junk (kernelRun2_B c i arg2 harg2 arg3 harg3 arg4 harg4 arg5 harg5 arg6 harg6 arg7 harg7 hc0 hc1 x0 x1 xs0).1)

/-- The last step's pieces for the output block cover it. -/
theorem cover2_C_4 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun2_C c i arg2 harg2 arg3 harg3 arg4 harg4 arg5 harg5 arg6 harg6 arg7 harg7 hc0 hc1 x0 x1 x2 x3 xs0).1, y ∈ pc.1.set :=
  View.cover_of_tiledL (kernelRun2_C c i arg2 harg2 arg3 harg3 arg4 harg4 arg5 harg5 arg6 harg6 arg7 harg7 hc0 hc1 x0 x1 x2 x3 xs0).1 S1024x256.size (by sl_kernel_rfl) y

/-- What the last step leaves in the output block. -/
def out2_C_4 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) : Vec F S1024x256 .f32 :=
  VO2_4.read (Elt F) (VO2_4.writes (Elt F) VO2_4.junk (kernelRun2_C c i arg2 harg2 arg3 harg3 arg4 harg4 arg5 harg5 arg6 harg6 arg7 harg7 hc0 hc1 x0 x1 x2 x3 xs0).1)

/-- The last step's pieces for the accumulator cover it. -/
theorem scover2_C_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun2_C c i arg2 harg2 arg3 harg3 arg4 harg4 arg5 harg5 arg6 harg6 arg7 harg7 hc0 hc1 x0 x1 x2 x3 xs0).2.1, y ∈ pc.1.set :=
  View.cover_of_tiledL (kernelRun2_C c i arg2 harg2 arg3 harg3 arg4 harg4 arg5 harg5 arg6 harg6 arg7 harg7 hc0 hc1 x0 x1 x2 x3 xs0).2.1 S1024x256.size (by sl_kernel_rfl) y

/-- What the last step leaves in the accumulator. -/
def sout2_C_0 (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) : Vec F S1024x256 .f32 :=
  VS2_0.read (Elt F) (VS2_0.writes (Elt F) VS2_0.junk (kernelRun2_C c i arg2 harg2 arg3 harg3 arg4 harg4 arg5 harg5 arg6 harg6 arg7 harg7 hc0 hc1 x0 x1 x2 x3 xs0).2.1)

/-- The output block's entry in the table below at a point that stores nothing into it: a placeholder nothing
    consults, the window being idle there and its block not written back. -/
def outIdle2_4 : Vec F S1024x256 .f32 := VO2_4.read (Elt F) VO2_4.junk

/-! ## What the output block and the accumulator hold after each point -/

/-- THE ACCUMULATION: after the body at position `n`, the output block's staging buffer (first component) and the
    accumulator (second): the case the point is in, run at the point's memrefs and input blocks, the accumulator
    taken at what position `n - 1` left. -/
def outsAt2 (c : Dev nD) : (n : ℕ) → n < cfg2.N → Vec F S1024x256 .f32 × Vec F S1024x256 .f32
  | 0, hn => (outIdle2_4, sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (outIdle2_4, sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (outIdle2_4, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a first reduction step. -/
theorem outsAt2_A (c : Dev nD) (t : Fin cfg2.N) (h0 : t.val % 4 = 0) (h1 : ¬t.val % 4 = 3) :
    outsAt2 V c t.val t.isLt = (outIdle2_4, sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a middle reduction step: over what the point before left in the accumulator. -/
theorem outsAt2_B (c : Dev nD) (t : Fin cfg2.N) (h0 : ¬t.val % 4 = 0) (h1 : ¬t.val % 4 = 3) :
    outsAt2 V c t.val t.isLt = (outIdle2_4, sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a last reduction step: over what the point before left in the accumulator. -/
theorem outsAt2_C (c : Dev nD) (t : Fin cfg2.N) (h0 : ¬t.val % 4 = 0) (h1 : t.val % 4 = 3) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region; afterwards
    the accumulator at what the point before left in it, the other scoped buffers unopened, and the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Pipeline.scopedRestBut spec2 c [cc2_scratch0]) ∗ (∃ r, prngReg c r)) := by
  cases n with
  | zero => exact absurd rfl hz
  | succ n => rfl

/-! ## The proof data -/

/-- The proof data of the region on core `c`: the arrays as the region finds them; after the body at point `t`
    each input's buffer at its block and the output's at `outsAt2`'s first component; the invariant `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' memrefs hold their blocks; the point's reduction step says which case it is
    in; the invariant hands the body the accumulator (at anything at the first point, at what the point before
    left afterwards) and takes it back at this point's contents; where the output window is idle its buffer is
    handed back as found, at the last step it is left at the stored block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun2_B c (grid2.coords t) _ _ _ _ _ _ _ _ _ _ _ _ (fun h => h0 ((hcond2_0 t).mp h)) (fun h => h1 ((hcond2_1 t).mp h)) (iblk2 V c 0 t) (iblk2 V c 1 t) _).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Region2

end Cert.KernelIdeal.Hand

end
-- ==== Proof.KI.Region3.lean ====
/-
  Region 3: the scaled projection over 4 row blocks of 1024 rows. At a row block the body reads the block of the
  layer's input, the block of the source scales and the whole weight matrix, and stores the product
  (rows scaled, then multiplied by the weights) as one block.
  Stated at a parameter `V`, the buffer contents the region is entered with.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_H : Rect S1024x256 := Rect.unit (s := S1024x256) ![0, 0] S1024x256.size inb_S1024x256_S1024x256_0_0
abbrev r3_S : Rect S1024 := Rect.unit (s := S1024) ![0] S1024.size inb_S1024_S1024_0
abbrev r3_W : Rect S256x256 := Rect.unit (s := S256x256) ![0, 0] S256x256.size inb_S256x256_S256x256_0_0

/-- The stored block: the input block's rows scaled and multiplied by the weights. -/
def out3_3 (x0 : Vec F S1024x256 .f32) (x1 : Vec F S1024 .f32) (x2 : Vec F S256x256 .f32) : Vec F S1024x256 .bf16 :=
  View.canon [⟨r3_H, k3_pay1 (View.ld x0 r3_H) (View.ld x1 r3_S) (View.ld x2 r3_W)⟩]

theorem cover3_3 (p0 : Vec F S1024x256 .bf16) (y : S1024x256.Idx) :
    ∃ pc ∈ ([⟨r3_H, p0⟩] : List (View.Piece (Elt F) S1024x256 .bf16)), y ∈ pc.1.set :=
  View.cover_of_tiled [⟨r3_H, p0⟩] S1024x256.size (by rfl) y

set_option maxHeartbeats 1000000 in
/-- The body on whole staging memrefs: the three inputs' at `x0 x1 x2`, the output's at anything; it leaves the
    inputs as they were and the output at its stored value. -/
theorem sound_kernel3 (c : Dev nD) (E : Set ℕ) (i : grid3.Coords)
    (arg1 : Memref sig .tc .vmem S1024x256 .f32) (harg1 : arg1.IsWhole) (arg2 : Memref sig .tc .vmem S1024 .f32) (harg2 : arg2.IsWhole)
    (arg3 : Memref sig .tc .vmem S256x256 .f32) (harg3 : arg3.IsWhole) (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__scale_matmul_kernel i arg1 harg1 arg2 harg2 arg3 harg3 arg4 harg4) K := by
  simp only [cc3__scale_matmul_kernel_eq_skeleton]; unfold cc3__scale_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Region4.lean ====
/-
  Region 4: the aggregation over 4 row blocks of 1024 rows, each reduced in 4 steps over 1024 columns. At step k of a
  row block the body multiplies the [1024,1024] block of the first matrix by rows 1024·k … 1024·k+1023 of the second
  (held whole) and adds the product to an accumulator, which it zeroes first at step 0; at step 3 it then stores the
  accumulator, its rows scaled, a row vector added and negatives replaced by zero, as the output block.
  Stated at a parameter `V`, the buffer contents the region is entered with.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions of the body, over the grid -/

/-- The first conditional's condition: the reduction step is the first one. -/
abbrev cond4_0 (i : grid4.Coords) : Prop := (Scalar.cmpi .ne (Scalar.extui (Scalar.cmpi .eq (BitVec.ofNat 32 (i 1).val) 0#32)) 0#32) = 1#1
/-- It holds exactly at the points whose reduction step is 0. -/
theorem hcond4_0 : ∀ t : Fin cfg4.N, cond4_0 (grid4.coords t) ↔ t.val % 4 = 0 :=
  (by decide +kernel : ∀ t : Fin grid4.N, cond4_0 (grid4.coords t) ↔ t.val % 4 = 0)

/-- The second conditional's condition: the reduction step is the last one. -/
abbrev cond4_1 (i : grid4.Coords) : Prop := k4_cond2 i = 1#1
/-- It holds exactly at the points whose reduction step is 3. -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

/-- The inputs are never idle. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last reduction step the output window is idle and its block is not written back. -/
theorem idleAt4_4 : ∀ t : Fin cfg4.N, ¬cond4_1 (grid4.coords t) → cfg4.idle 4 (grid4.coords t) = true := by decide +kernel
theorem noFlush4_4 : ∀ t : Fin cfg4.N, ¬cond4_1 (grid4.coords t) → (cfg4.win 4).flush t = false := by decide +kernel
/-- At the last reduction step the output window is live. -/
theorem liveAt4_4 : ∀ t : Fin cfg4.N, cond4_1 (grid4.coords t) → cfg4.idle 4 (grid4.coords t) = false := by decide +kernel

/-! ## The memrefs the body is called with -/

/-- One staging buffer of the output window, through which its contents are stated. -/
abbrev VO4_4 : View sig .tc .vmem S1024x256 .f32 := (Memref.whole cc4_stg4_0 : Memref sig .tc .vmem S1024x256 .f32).view
/-- Each window's current staging memref at point `t`, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)
/-- The accumulator: a whole scoped buffer of the kernel's own, passed beside the windows. -/
abbrev scM4_0 : Memref sig .tc .vmem S1024x256 .f32 := Memref.whole cc4_scratch0
/-- The accumulator as a view: what it holds is stated through it. -/
abbrev VS4_0 : View sig .tc .vmem S1024x256 .f32 := scM4_0.view

/-- What the launch hands the region, with the accumulator as a memref owned at some contents, the other scoped
    buffers unopened, and the generator register at some state. -/
theorem PhiA4_eq (c : Dev nD) :
    (Pipeline.ΦA spec4 c : sProp 𝕄)
      = iprop(iprop((∃ d, owns (c : Thread nD τ) scM4_0 fullShare d) ∗ Pipeline.scopedRestBut spec4 c [cc4_scratch0]) ∗ (∃ r, prngReg c r)) := by
  unfold Pipeline.ΦA; rw [scopedRest4_split]; simp only [scM4_0, owns_whole]; try rfl

/-! ## The body on any whole memrefs, case by case -/

set_option maxHeartbeats 1000000 in
/-- FIRST REDUCTION STEP (the first condition holds, the second does not). The pieces the accumulator ends with
    (last store first), with the proof that from the two matrix inputs at `x0`, `x1` and the accumulator at
    anything the body runs to the continuation holding the inputs as they were and the accumulator with the pieces
    written. The other three memrefs are not touched. -/
noncomputable def kernelRun4_A (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg7 fullShare d)
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, fun E K => ?run⟩
  case run =>
    simp only [cc4__aggregate_kernel_eq_skeleton]; unfold cc4__aggregate_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- A MIDDLE REDUCTION STEP (neither condition holds). As before, from the accumulator at what the step before
    left, `xs0`. -/
noncomputable def kernelRun4_B (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) :
    { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg7 fullShare xs0
            ∗ (iprop(owns (c : Thread nD τ) arg2 fullShare x0 ∗ owns (c : Thread nD τ) arg3 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, fun E K => ?run⟩
  case run =>
    simp only [cc4__aggregate_kernel_eq_skeleton]; unfold cc4__aggregate_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- THE LAST REDUCTION STEP (the second condition holds, the first does not). The pieces the output block and the
    accumulator end with, with the proof that from the four inputs at `x0 … x3`, the output block at anything and
    the accumulator at what the step before left, the body runs to the continuation holding the inputs as they
    were and the output block and the accumulator with their pieces written. -/
noncomputable def kernelRun4_C (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) :
    Σ' (L4 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc4__aggregate_kernel i arg2 harg2 arg3 harg3 arg4 harg4 arg5 harg5 arg6 harg6 arg7 harg7) K } := by
  refine ⟨?_, ?_, fun E K => ?run⟩
  case run =>
    simp only [cc4__aggregate_kernel_eq_skeleton]; unfold cc4__aggregate_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## What each case leaves in the accumulator and in the output block -/

/-- The first step's pieces for the accumulator cover it. -/
theorem scover4_A_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) (y : S1024x256.Idx) :
    ∃ pc ∈ (kernelRun4_A c i arg2 harg2 arg3 harg3 arg4 harg4 arg5 harg5 arg6 harg6 arg7 harg7 hc0 hc1 x0 x1).1, y ∈ pc.1.set :=
  View.cover_of_tiledL (kernelRun4_A c i arg2 harg2 arg3 harg3 arg4 harg4 arg5 harg5 arg6 harg6 arg7 harg7 hc0 hc1 x0 x1).1 S1024x256.size (by sl_kernel_rfl) y

/-- What the first step leaves in the accumulator: its pieces read back. -/
def sout4_A_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) : Vec F S1024x256 .f32 :=
  VS4_0.read (Elt F) (VS4_0.writes (Elt F) VS4_0.junk (kernelRun4_A c i arg2 harg2 arg3 harg3 arg4 harg4 arg5 harg5 arg6 harg6 arg7 harg7 hc0 hc1 x0 x1).1)

/-- A middle step's pieces for the accumulator cover it. -/
theorem scover4_B_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) (y : S1024x256.Idx) :
    ∃ pc ∈ (kernelRun4_B c i arg2 harg2 arg3 harg3 arg4 harg4 arg5 harg5 arg6 harg6 arg7 harg7 hc0 hc1 x0 x1 xs0).1, y ∈ pc.1.set :=
  View.cover_of_tiledL (kernelRun4_B c i arg2 harg2 arg3 harg3 arg4 harg4 arg5 harg5 arg6 harg6 arg7 harg7 hc0 hc1 x0 x1 xs0).1 S1024x256.size (by sl_kernel_rfl) y

/-- What a middle step leaves in the accumulator. -/
def sout4_B_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) : Vec F S1024x256 .f32 :=
  VS4_0.read (Elt F) (VS4_0.writes (Elt F) VS4_0.junk (kernelRun4_B c i arg2 harg2 arg3 harg3 arg4 harg4 arg5 harg5 arg6 harg6 arg7 harg7 hc0 hc1 x0 x1 xs0).1)

/-- The last step's pieces for the output block cover it. -/
theorem cover4_C_4 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun4_C c i arg2 harg2 arg3 harg3 arg4 harg4 arg5 harg5 arg6 harg6 arg7 harg7 hc0 hc1 x0 x1 x2 x3 xs0).1, y ∈ pc.1.set :=
  View.cover_of_tiledL (kernelRun4_C c i arg2 harg2 arg3 harg3 arg4 harg4 arg5 harg5 arg6 harg6 arg7 harg7 hc0 hc1 x0 x1 x2 x3 xs0).1 S1024x256.size (by sl_kernel_rfl) y

/-- What the last step leaves in the output block. -/
def out4_C_4 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) : Vec F S1024x256 .f32 :=
  VO4_4.read (Elt F) (VO4_4.writes (Elt F) VO4_4.junk (kernelRun4_C c i arg2 harg2 arg3 harg3 arg4 harg4 arg5 harg5 arg6 harg6 arg7 harg7 hc0 hc1 x0 x1 x2 x3 xs0).1)

/-- The last step's pieces for the accumulator cover it. -/
theorem scover4_C_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) (y : S1024x256.Idx) :
    ∃ pc ∈ (kernelRun4_C c i arg2 harg2 arg3 harg3 arg4 harg4 arg5 harg5 arg6 harg6 arg7 harg7 hc0 hc1 x0 x1 x2 x3 xs0).2.1, y ∈ pc.1.set :=
  View.cover_of_tiledL (kernelRun4_C c i arg2 harg2 arg3 harg3 arg4 harg4 arg5 harg5 arg6 harg6 arg7 harg7 hc0 hc1 x0 x1 x2 x3 xs0).2.1 S1024x256.size (by sl_kernel_rfl) y

/-- What the last step leaves in the accumulator. -/
def sout4_C_0 (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) : Vec F S1024x256 .f32 :=
  VS4_0.read (Elt F) (VS4_0.writes (Elt F) VS4_0.junk (kernelRun4_C c i arg2 harg2 arg3 harg3 arg4 harg4 arg5 harg5 arg6 harg6 arg7 harg7 hc0 hc1 x0 x1 x2 x3 xs0).2.1)

/-- The output block's entry in the table below at a point that stores nothing into it: a placeholder nothing
    consults, the window being idle there and its block not written back. -/
def outIdle4_4 : Vec F S1024x256 .f32 := VO4_4.read (Elt F) VO4_4.junk

/-! ## What the output block and the accumulator hold after each point -/

/-- THE ACCUMULATION: after the body at position `n`, the output block's staging buffer (first component) and the
    accumulator (second): the case the point is in, run at the point's memrefs and input blocks, the accumulator
    taken at what position `n - 1` left. -/
def outsAt4 (c : Dev nD) : (n : ℕ) → n < cfg4.N → Vec F S1024x256 .f32 × Vec F S1024x256 .f32
  | 0, hn => (outIdle4_4, sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (outIdle4_4, sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2,
          sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2)
      else
        (outIdle4_4, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a first reduction step. -/
theorem outsAt4_A (c : Dev nD) (t : Fin cfg4.N) (h0 : t.val % 4 = 0) (h1 : ¬t.val % 4 = 3) :
    outsAt4 V c t.val t.isLt = (outIdle4_4, sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle reduction step: over what the point before left in the accumulator. -/
theorem outsAt4_B (c : Dev nD) (t : Fin cfg4.N) (h0 : ¬t.val % 4 = 0) (h1 : ¬t.val % 4 = 3) :
    outsAt4 V c t.val t.isLt = (outIdle4_4, sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last reduction step: over what the point before left in the accumulator. -/
theorem outsAt4_C (c : Dev nD) (t : Fin cfg4.N) (h0 : ¬t.val % 4 = 0) (h1 : t.val % 4 = 3) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region; afterwards
    the accumulator at what the point before left in it, the other scoped buffers unopened, and the generator
    register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The proof data -/

/-- The proof data of the region on core `c`: the arrays as the region finds them; after the body at point `t`
    each input's buffer at its block and the output's at `outsAt4`'s first component; the invariant `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' memrefs hold their blocks; the point's reduction step says which case it is
    in; the invariant hands the body the accumulator (at anything at the first point, at what the point before
    left afterwards) and takes it back at this point's contents; where the output window is idle its buffer is
    handed back as found, at the last step it is left at the stored block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_A c (grid4.coords t) _ _ _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [show (dat4 V c).leavesExact 4 t = owns (c : Thread nD τ) (ms4_4 t) fullShare ((dat4 V c).after 4 t) from by
        unfold Dat.leavesExact; rw [liveAt4_4 t ((hcond4_1 t).mpr h1)], after4_4]
      rw [outsAt4_C V c t h0 h1]
      unfold out4_C_4 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) (iblk4 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover4_C_4 c _ _ _ _ _ _ _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2 t], after4_2]
      rw [show (dat4 V c).leavesExact 3 t = owns (c : Thread nD τ) (ms4_3 t) fullShare ((dat4 V c).after 3 t) from by
        unfold Dat.leavesExact; rw [liveAt4_3 t], after4_3]
      rw [Dat.leavesExact_idle (dat4 V c) 4 t (idleAt4_4 t (fun h => h1 ((hcond4_1 t).mp h))) (noFlush4_4 t (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun4_B c (grid4.coords t) _ _ _ _ _ _ _ _ _ _ _ _ (fun h => h0 ((hcond4_0 t).mp h)) (fun h => h1 ((hcond4_1 t).mp h)) (iblk4 V c 0 t) (iblk4 V c 1 t) _).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end Region4

end Cert.KernelIdeal.Hand

end
-- ==== Proof.KI.Run.lean ====
/-
  The whole run: the program is five kernel regions with one stretch of host operations after the first. The
  buffer contents at each boundary are a fold from the launch memory: a region replaces its windows' arrays by
  what its write-backs leave, the host stretch applies its operations. Every weakly fair execution ends with
  every unscoped buffer at the last fold.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import proofs.«144456_j68298569941180_2_alg».proof.Proof.KI.Region0
import proofs.«144456_j68298569941180_2_alg».proof.Proof.KI.Region1
import proofs.«144456_j68298569941180_2_alg».proof.Proof.KI.Region2
import proofs.«144456_j68298569941180_2_alg».proof.Proof.KI.Region3
import proofs.«144456_j68298569941180_2_alg».proof.Proof.KI.Region4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At region 0's exit: its arrays at what its write-backs leave, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- An input window's array leaves region 0 as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (U0 m ρ) c).arrAt_in w hw _).trans (A_eq0 (U0 m ρ) c w))
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)
/-- After the host operations between regions 0 and 1 (the degree clamps and inverse square roots). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit: its arrays at what its write-backs leave, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (U2 m ρ) c).arrAt_in w hw _).trans (A_eq1 (U2 m ρ) c w))
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- At region 2's exit: its arrays at what its write-backs leave, every other buffer as entered. -/
def W4 (c : Dev nD) : Valuation τ sig (Elt F) :=
  Pipeline.withArrays spec2 c (W3 m ρ c) fun w => (dat2 (U3 m ρ) c).arrAt w cfg2.N
theorem W4_arr (c : Dev nD) (w : Fin cfg2.W) :
    W4 m ρ c (Proc.devRef .tc (Pipeline.arrRef spec2 w)) = (dat2 (U3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- An input window's array leaves region 2 as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (U3 m ρ) c).arrAt_in w hw _).trans (A_eq2 (U3 m ρ) c w))
abbrev U4 : (c : Dev nD) → (b : Ref sig .tc) → Buf (Elt F) ((c : Thread nD τ).loc b) := fun c b => W4 m ρ c b
theorem hF2 (c : Dev nD) (w : Fin cfg2.W) : (dat2 (U3 m ρ) c).arrAt w cfg2.N = U4 m ρ c (Pipeline.arrRef spec2 w) :=
  (W4_arr m ρ c w).symm
theorem hrest2 (c : Dev nD) : ∀ b, b ∉ Finset.univ.image (Pipeline.arrRef spec2) → U4 m ρ c b = U3 m ρ c b :=
  fun b hb => W4_of_ne m ρ c b fun w e => hb (Finset.mem_image.mpr ⟨w, Finset.mem_univ _, e⟩)
/-- At region 3's exit: its arrays at what its write-backs leave, every other buffer as entered. -/
def W5 (c : Dev nD) : Valuation τ sig (Elt F) :=
  Pipeline.withArrays spec3 c (W4 m ρ c) fun w => (dat3 (U4 m ρ) c).arrAt w cfg3.N
theorem W5_arr (c : Dev nD) (w : Fin cfg3.W) :
    W5 m ρ c (Proc.devRef .tc (Pipeline.arrRef spec3 w)) = (dat3 (U4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- An input window's array leaves region 3 as it entered. -/
theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (U4 m ρ) c).arrAt_in w hw _).trans (A_eq3 (U4 m ρ) c w))
abbrev U5 : (c : Dev nD) → (b : Ref sig .tc) → Buf (Elt F) ((c : Thread nD τ).loc b) := fun c b => W5 m ρ c b
theorem hF3 (c : Dev nD) (w : Fin cfg3.W) : (dat3 (U4 m ρ) c).arrAt w cfg3.N = U5 m ρ c (Pipeline.arrRef spec3 w) :=
  (W5_arr m ρ c w).symm
theorem hrest3 (c : Dev nD) : ∀ b, b ∉ Finset.univ.image (Pipeline.arrRef spec3) → U5 m ρ c b = U4 m ρ c b :=
  fun b hb => W5_of_ne m ρ c b fun w e => hb (Finset.mem_image.mpr ⟨w, Finset.mem_univ _, e⟩)
/-- At region 4's exit: its arrays at what its write-backs leave, every other buffer as entered. -/
def W6 (c : Dev nD) : Valuation τ sig (Elt F) :=
  Pipeline.withArrays spec4 c (W5 m ρ c) fun w => (dat4 (U5 m ρ) c).arrAt w cfg4.N
theorem W6_arr (c : Dev nD) (w : Fin cfg4.W) :
    W6 m ρ c (Proc.devRef .tc (Pipeline.arrRef spec4 w)) = (dat4 (U5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
/-- An input window's array leaves region 4 as it entered. -/
theorem W6_in (c : Dev nD) (w : Fin cfg4.W) (hw : (cfg4.win w).isOut = false) :
    W6 m ρ c (Proc.devRef .tc (Pipeline.arrRef spec4 w)) = W5 m ρ c (Proc.devRef .tc (Pipeline.arrRef spec4 w)) :=
  (W6_arr m ρ c w).trans (((dat4 (U5 m ρ) c).arrAt_in w hw _).trans (A_eq4 (U5 m ρ) c w))
abbrev U6 : (c : Dev nD) → (b : Ref sig .tc) → Buf (Elt F) ((c : Thread nD τ).loc b) := fun c b => W6 m ρ c b
theorem hF4 (c : Dev nD) (w : Fin cfg4.W) : (dat4 (U5 m ρ) c).arrAt w cfg4.N = U6 m ρ c (Pipeline.arrRef spec4 w) :=
  (W6_arr m ρ c w).symm
theorem hrest4 (c : Dev nD) : ∀ b, b ∉ Finset.univ.image (Pipeline.arrRef spec4) → U6 m ρ c b = U5 m ρ c b :=
  fun b hb => W6_of_ne m ρ c b fun w e => hb (Finset.mem_image.mpr ⟨w, Finset.mem_univ _, e⟩)

/-! ## The proof data family and the thread state -/

abbrev adm : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
  | ⟨2, _⟩ => fun c => dat2 (U3 m ρ) c
  | ⟨3, _⟩ => fun c => dat3 (U4 m ρ) c
  | ⟨4, _⟩ => fun c => dat4 (U5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered with every unscoped buffer at `W0`, left with them at `W1`. Its arrays
    are split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its arrays
    are split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U3 m ρ) c)
    unfold Pipeline.ΦA
    iintro ⟨Hp, -, Hr⟩
    isplitl [Hr]; · iexact Hr
    iexact Hp
  hout c := by
    rw [Pipeline.ownSems0_none]
    refine (hout2 (U3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W4`, left with them at `W5`. Its arrays
    are split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (U4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (U4 m ρ c) (U5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W5`, left with them at `W6`. Its arrays
    are split out of the unscoped buffers and put back at the exit contents; the generator register goes into the
    region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (U5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (U5 m ρ) c)
    unfold Pipeline.ΦA
    iintro ⟨Hp, -, Hr⟩
    isplitl [Hr]; · iexact Hr
    iexact Hp
  hout c := by
    rw [Pipeline.ownSems0_none]
    refine (hout4 (U5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (U5 m ρ c) (U6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ),
    .region (reg3 m ρ),
    .region (reg4 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting,
    and every final state has every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Hand

end
-- ==== Proof.KI.Ends.lean ====
/-
  What the last fold holds: each argument array as launched, the first result array what region 2's write-backs
  left (region 3 reads it, region 4 does not touch it), the second what region 4's left.
-/
import proofs.«144456_j68298569941180_2_alg».proof.Proof.Gen.KernelIdeal.Launch
import proofs.«144456_j68298569941180_2_alg».proof.Proof.Gen.KernelIdeal.Skeleton
import proofs.«144456_j68298569941180_2_alg».proof.Proof.Gen.KernelIdeal.Points
import proofs.«144456_j68298569941180_2_alg».proof.Proof.KI.Run
import proofs.«144456_j68298569941180_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no region writes it back and no host operation writes it. -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := (W6_of_ne m ρ c _ (by decide))
    _ = W4 m ρ c (Proc.devRef .tc main_arg0) := (W5_of_ne m ρ c _ (by decide))
    _ = W3 m ρ c (Proc.devRef .tc main_arg0) := (W4_of_ne m ρ c _ (by decide))
    _ = W2 m ρ c (Proc.devRef .tc main_arg0) := (W3_of_ne m ρ c _ (by decide))
    _ = W1 m ρ c (Proc.devRef .tc main_arg0) := (StableHlo.after_of_writes_sub hostOps1 _ hostOps1_writes (by decide))
    _ = W0 m ρ c (Proc.devRef .tc main_arg0) := (W1_in m ρ c 0 rfl)
    _ = m ((c : Thread nD τ).loc main_arg0) := rfl
/-- `main_arg1` ends as launched: no region writes it back and no host operation writes it. -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_of_ne m ρ c _ (by decide))
    _ = W4 m ρ c (Proc.devRef .tc main_arg1) := (W5_of_ne m ρ c _ (by decide))
    _ = W3 m ρ c (Proc.devRef .tc main_arg1) := (W4_of_ne m ρ c _ (by decide))
    _ = W2 m ρ c (Proc.devRef .tc main_arg1) := (W3_in m ρ c 0 rfl)
    _ = W1 m ρ c (Proc.devRef .tc main_arg1) := (StableHlo.after_of_writes_sub hostOps1 _ hostOps1_writes (by decide))
    _ = W0 m ρ c (Proc.devRef .tc main_arg1) := (W1_of_ne m ρ c _ (by decide))
    _ = m ((c : Thread nD τ).loc main_arg1) := rfl
/-- `main_arg2` ends as launched: no region writes it back and no host operation writes it. -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := (W6_of_ne m ρ c _ (by decide))
    _ = W4 m ρ c (Proc.devRef .tc main_arg2) := (W5_of_ne m ρ c _ (by decide))
    _ = W3 m ρ c (Proc.devRef .tc main_arg2) := (W4_of_ne m ρ c _ (by decide))
    _ = W2 m ρ c (Proc.devRef .tc main_arg2) := (W3_in m ρ c 2 rfl)
    _ = W1 m ρ c (Proc.devRef .tc main_arg2) := (StableHlo.after_of_writes_sub hostOps1 _ hostOps1_writes (by decide))
    _ = W0 m ρ c (Proc.devRef .tc main_arg2) := (W1_of_ne m ρ c _ (by decide))
    _ = m ((c : Thread nD τ).loc main_arg2) := rfl
/-- `main_arg3` ends as launched: no region writes it back and no host operation writes it. -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := (W6_of_ne m ρ c _ (by decide))
    _ = W4 m ρ c (Proc.devRef .tc main_arg3) := (W5_of_ne m ρ c _ (by decide))
    _ = W3 m ρ c (Proc.devRef .tc main_arg3) := (W4_in m ρ c 3 rfl)
    _ = W2 m ρ c (Proc.devRef .tc main_arg3) := (W3_of_ne m ρ c _ (by decide))
    _ = W1 m ρ c (Proc.devRef .tc main_arg3) := (StableHlo.after_of_writes_sub hostOps1 _ hostOps1_writes (by decide))
    _ = W0 m ρ c (Proc.devRef .tc main_arg3) := (W1_of_ne m ρ c _ (by decide))
    _ = m ((c : Thread nD τ).loc main_arg3) := rfl
/-- `main_arg4` ends as launched: no region writes it back and no host operation writes it. -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := (W6_of_ne m ρ c _ (by decide))
    _ = W4 m ρ c (Proc.devRef .tc main_arg4) := (W5_in m ρ c 2 rfl)
    _ = W3 m ρ c (Proc.devRef .tc main_arg4) := (W4_of_ne m ρ c _ (by decide))
    _ = W2 m ρ c (Proc.devRef .tc main_arg4) := (W3_of_ne m ρ c _ (by decide))
    _ = W1 m ρ c (Proc.devRef .tc main_arg4) := (StableHlo.after_of_writes_sub hostOps1 _ hostOps1_writes (by decide))
    _ = W0 m ρ c (Proc.devRef .tc main_arg4) := (W1_of_ne m ρ c _ (by decide))
    _ = m ((c : Thread nD τ).loc main_arg4) := rfl
/-- `main_arg5` ends as launched: no region writes it back and no host operation writes it. -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_in m ρ c 3 rfl)
    _ = W4 m ρ c (Proc.devRef .tc main_arg5) := (W5_of_ne m ρ c _ (by decide))
    _ = W3 m ρ c (Proc.devRef .tc main_arg5) := (W4_of_ne m ρ c _ (by decide))
    _ = W2 m ρ c (Proc.devRef .tc main_arg5) := (W3_of_ne m ρ c _ (by decide))
    _ = W1 m ρ c (Proc.devRef .tc main_arg5) := (StableHlo.after_of_writes_sub hostOps1 _ hostOps1_writes (by decide))
    _ = W0 m ρ c (Proc.devRef .tc main_arg5) := (W1_of_ne m ρ c _ (by decide))
    _ = m ((c : Thread nD τ).loc main_arg5) := rfl

/-- The first result array at the end: what region 2's write-backs left in it. -/
theorem W6_main_v9 (c : Dev nD) : W6 m ρ c (Proc.devRef .tc main_v9) = (dat2 (U3 m ρ) c).arrAt 4 cfg2.N :=
  calc W6 m ρ c (Proc.devRef .tc main_v9)
    _ = W5 m ρ c (Proc.devRef .tc main_v9) := (W6_of_ne m ρ c _ (by decide))
    _ = W4 m ρ c (Proc.devRef .tc main_v9) := (W5_in m ρ c 0 rfl)
    _ = (dat2 (U3 m ρ) c).arrAt 4 cfg2.N := W4_arr m ρ c 4
/-- The second result array at the end: what region 4's write-backs left in it. -/
theorem W6_main_v11 (c : Dev nD) : W6 m ρ c (Proc.devRef .tc main_v11) = (dat4 (U5 m ρ) c).arrAt 4 cfg4.N :=
  W6_arr m ρ c 4

/-- The frame: every weakly fair execution terminates, nothing faulting, with the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Hand

end
-- ==== Proof.KI.Rd.lean ====
/-
  Reading an array of extended reals at an index, with the element type spelled as the extended reals.
-/
import Idealize.ShloMosaic.PureOps.Ideal

namespace Cert.KernelIdeal.Val

open Idealize.ShloMosaic

/-- The array `f` of shape `S` read at the index `i`. -/
abbrev rd (S : Shape) (f : S.Idx → EReal) (i : S.Idx) : EReal := f i

end Cert.KernelIdeal.Val
-- ==== Proof.KI.Val0Base.lean ====
/-
  Region 0, shared by the three output windows: the adjacency input by row and column, the block index of every
  window at a grid point, the point whose block holds a given row, and the input block read at an index.
-/
import proofs.«144456_j68298569941180_2_alg».proof.Proof.KI.Region0
import proofs.«144456_j68298569941180_2_alg».proof.Proof.KI.Rd
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-- The adjacency input as the region finds it, by row and column. -/
def r0_A0 : Fin 4096 → Fin 4096 → EReal := fun u v => rd S4096x4096 (V c main_arg0) (ix2 u v)

theorem r0_hz2 : (![0, 0] : Fin 2 → Nat) = fun _ => 0 := funext fun a => by fin_cases a <;> rfl
theorem r0_hz1 : (![0] : Fin 1 → Nat) = fun _ => 0 := funext fun a => by fin_cases a <;> rfl
theorem r0_hz3 : (![0, 0, 0] : Fin 3 → Nat) = fun _ => 0 := funext fun a => by fin_cases a <;> rfl

/-- The printed index maps, decided over the grid: at point `t` every window's block index along the row-block axis is
    `t`'s coordinate, which is `t` itself, and zero along the other axes. -/
theorem r0_idx_facts : ∀ t : Fin cfg0.N, win0_0.index t (0 : Fin 2) = (grid0.coords t 0).val ∧ win0_0.index t (1 : Fin 2) = 0
    ∧ win0_1.index t (0 : Fin 2) = (grid0.coords t 0).val ∧ win0_1.index t (1 : Fin 2) = 0
    ∧ win0_2.index t (0 : Fin 1) = (grid0.coords t 0).val
    ∧ win0_3.index t (0 : Fin 3) = (grid0.coords t 0).val ∧ win0_3.index t (1 : Fin 3) = 0 ∧ win0_3.index t (2 : Fin 3) = 0
    ∧ (grid0.coords t 0).val = t.val :=
  (by decide +kernel : ∀ t : Fin grid0.N, _)

/-- The row block that holds row `r` is point `r / 256`. -/
def r0_rowPoint (r : Nat) (hr : r < 4096) : Fin cfg0.N := ⟨r / 256, by rw [show cfg0.N = 16 from N_0]; omega⟩

theorem r0_rowPoint_val (r : Nat) (hr : r < 4096) : (r0_rowPoint r hr).val = r / 256 := rfl

/-- The input block at point `t`, at an index `j`, is the input array at the index `k` whose row is `256 t + j 0` and whose
    column is `j 1`. -/
theorem r0_iblk_apply (t : Fin cfg0.N) (j : S256x4096.Idx) (k : S4096x4096.Idx)
    (hk0 : (k 0).val = (grid0.coords t 0).val * 256 + (j 0).val) (hk1 : (k 1).val = (j 1).val) :
    (iblk0 V c 0 t : Vec Ideal S256x4096 .f32) j = (V c main_arg0 : S4096x4096.Idx → EReal) k := by
  obtain ⟨e00, e01, -⟩ := r0_idx_facts t
  show V c main_arg0 (((cfg0.win 0).blk t).view.emb j) = V c main_arg0 k
  refine congrArg _ (funext fun a => Fin.ext ?_)
  match a with
  | ⟨0, _⟩ => show win0_0.index t (0 : Fin 2) * 256 + 1 * (j 0).val = (k 0).val; rw [e00, hk0]; omega
  | ⟨1, _⟩ => show win0_0.index t (1 : Fin 2) * 4096 + 1 * (j 1).val = (k 1).val; rw [e01, hk1]; omega

end Cert.KernelIdeal.Val

end
-- ==== Proof.Spec.lean ====
import Idealize.ShloMosaic.PureOps.Ideal
import Idealize.ShloMosaic.PureOps.Ideal.Laws
import Idealize.ShloMosaic.Lib.ValueIdx

/-!
# A two-layer graph convolution on the extended reals

The mathematics both programs compute, as plain functions over the literal index sets
`Fin 4096` (nodes) and `Fin 256` (features), with values in the extended reals.

* `adj A u v` is the number of edges `u → v`: one when the entry `A u v` reaches the threshold,
  plus one more on the diagonal (the self loop), so it takes the values 0, 1 and 2.
* `outDeg A u` and `inDeg A v` are the row and column sums of `adj A`; `outScale` and `inScale`
  are the reciprocal square roots of those degrees clamped below by one.
* `layer A h W b v d` scales the source features by `outScale`, multiplies by the weights `W`,
  sums the result over the edges entering `v`, scales by `inScale A v`, adds the bias and clamps
  below at zero.
* `h1` is one layer applied to the input features, `h2` a second layer applied to `h1`.
-/

noncomputable section

namespace Cert.Spec

open Idealize.ShloMosaic

/-- The threshold: the extended real the single-precision word `0x3D23D70A` denotes (about 0.04). -/
def thr : EReal := Ideal.ofBits .f32 0x3D23D70A#32

/-- Edge count `u → v`: the thresholded entry plus the identity. -/
def adj (A : Fin 4096 → Fin 4096 → EReal) (u v : Fin 4096) : EReal :=
  (if thr ≤ A u v then 1 else 0) + (if u = v then 1 else 0)

/-- Out-degree of `u`: the sum of row `u`. -/
def outDeg (A : Fin 4096 → Fin 4096 → EReal) (u : Fin 4096) : EReal := ∑ v : Fin 4096, adj A u v

/-- In-degree of `v`: the sum of column `v`. -/
def inDeg (A : Fin 4096 → Fin 4096 → EReal) (v : Fin 4096) : EReal := ∑ u : Fin 4096, adj A u v

/-- Reciprocal square root of the out-degree clamped below by one. -/
def outScale (A : Fin 4096 → Fin 4096 → EReal) (u : Fin 4096) : EReal :=
  Ideal.rsqrt (max (outDeg A u) 1)

/-- Reciprocal square root of the in-degree clamped below by one. -/
def inScale (A : Fin 4096 → Fin 4096 → EReal) (v : Fin 4096) : EReal :=
  Ideal.rsqrt (max (inDeg A v) 1)

/-- One graph-convolution layer followed by the clamp at zero. -/
def layer (A : Fin 4096 → Fin 4096 → EReal) (h : Fin 4096 → Fin 256 → EReal)
    (W : Fin 256 → Fin 256 → EReal) (b : Fin 256 → EReal) (v : Fin 4096) (d : Fin 256) : EReal :=
  max ((∑ u : Fin 4096, adj A u v * (∑ j : Fin 256, (h u j * outScale A u) * W j d)) * inScale A v + b d) 0

/-- The first layer's output. -/
def h1 (A : Fin 4096 → Fin 4096 → EReal) (X : Fin 4096 → Fin 256 → EReal)
    (W1 : Fin 256 → Fin 256 → EReal) (b1 : Fin 256 → EReal) : Fin 4096 → Fin 256 → EReal :=
  layer A X W1 b1

/-- The second layer's output: a layer applied to the first layer's output. -/
def h2 (A : Fin 4096 → Fin 4096 → EReal) (X : Fin 4096 → Fin 256 → EReal)
    (W1 : Fin 256 → Fin 256 → EReal) (b1 : Fin 256 → EReal)
    (W2 : Fin 256 → Fin 256 → EReal) (b2 : Fin 256 → EReal) : Fin 4096 → Fin 256 → EReal :=
  layer A (h1 A X W1 b1) W2 b2

/-! ## The two results as arrays

The same functions over the index sets of the arrays themselves, so that both programs' results
can be stated as one term of their argument arrays. -/

/-- The first result as an array over (node, feature) indices, from the argument arrays. -/
def out1 (A : (⟨2, ![4096, 4096]⟩ : Shape).Idx → EReal) (X : (⟨2, ![4096, 256]⟩ : Shape).Idx → EReal)
    (W1 : (⟨2, ![256, 256]⟩ : Shape).Idx → EReal) (b1 : (⟨1, ![256]⟩ : Shape).Idx → EReal) :
    (⟨2, ![4096, 256]⟩ : Shape).Idx → EReal :=
  fun i => h1 (fun u v => A (ValueIdx.ix2 u v)) (fun u j => X (ValueIdx.ix2 u j))
    (fun j d => W1 (ValueIdx.ix2 j d)) (fun d => b1 (ValueIdx.ix1 d)) (i 0) (i 1)

/-- The second result as an array over (node, feature) indices, from the argument arrays. -/
def out2 (A : (⟨2, ![4096, 4096]⟩ : Shape).Idx → EReal) (X : (⟨2, ![4096, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨2, ![4096, 256]⟩ : Shape).Idx → EReal :=
  fun i => h2 (fun u v => A (ValueIdx.ix2 u v)) (fun u j => X (ValueIdx.ix2 u j))
    (fun j d => W1 (ValueIdx.ix2 j d)) (fun d => b1 (ValueIdx.ix1 d))
    (fun j d => W2 (ValueIdx.ix2 j d)) (fun d => b2 (ValueIdx.ix1 d)) (i 0) (i 1)

/-! ## The elementary operations read as these functions -/

/-- The single-precision word `0x3F800000` denotes one. -/
theorem ofBits_one_f32 : Ideal.ofBits .f32 0x3F800000#32 = 1 := by
  simp [Ideal.ofBits, Ideal.ieee]
  rw [← EReal.coe_mul]
  norm_num

/-- A comparison `a ≥ t` converted to a float is the indicator of `t ≤ a`. -/
theorem uitofp_cmp_oge (a t : EReal) :
    FloatOps.uitofp (F := Ideal) .f32 (Ideal.cmp .oge a t) = if t ≤ a then 1 else 0 := by
  show (((BitVec.ofBool (decide (t ≤ a))).toNat : ℝ) : EReal) = _
  by_cases h : t ≤ a <;> simp [h]

/-- Two 32-bit words made from node numbers are equal exactly when the nodes are: the converted
    comparison is the indicator of the diagonal. -/
theorem uitofp_cmpi_eq (u v : Fin 4096) :
    FloatOps.uitofp (F := Ideal) .f32 (IntOp.cmpi .eq (BitVec.ofNat 32 u.val) (BitVec.ofNat 32 v.val))
      = if u = v then 1 else 0 := by
  show (((BitVec.ofBool (BitVec.ofNat 32 u.val == BitVec.ofNat 32 v.val)).toNat : ℝ) : EReal) = _
  by_cases h : u = v
  · subst h; simp
  · have hne : ¬ (BitVec.ofNat 32 u.val = BitVec.ofNat 32 v.val) := by
      intro e
      have e' := congrArg BitVec.toNat e
      simp only [BitVec.toNat_ofNat] at e'
      apply h; apply Fin.ext; omega
    simp [h, hne]

end Cert.Spec

end
-- ==== Proof.KI.Val0Pay.lean ====
/-
  Region 0, the body's arithmetic read at an index, on the extended reals: the thresholded entry plus the diagonal
  at a row and a column of a row block, its row sums and its column sums, as the graph's edge counts.
-/
import proofs.«144456_j68298569941180_2_alg».proof.Proof.Gen.KernelIdeal.Skeleton
import proofs.«144456_j68298569941180_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

/-- A one-bit word widened to 32 bits and converted as a signed integer is the indicator of the bit. -/
theorem r0_sitofp_extui (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h <;> subst h <;> simp

/-- The comparison `a ≥ t` is the bit one exactly when `t ≤ a`. -/
theorem r0_cmp_oge_eq_one (a t : EReal) : Ideal.cmp .oge a t = 1#1 ↔ t ≤ a := by
  show BitVec.ofBool (decide (t ≤ a)) = 1#1 ↔ _
  by_cases h : t ≤ a <;> simp [h]

/-- The comparison of two words for equality is the bit one exactly when they are equal. -/
theorem r0_cmpi_eq_eq_one (x y : BitVec 32) : IntOp.cmpi .eq x y = 1#1 ↔ x = y := by
  show BitVec.ofBool (x == y) = 1#1 ↔ _
  by_cases h : x = y
  · subst h; simp
  · have hb : (x == y) = false := beq_eq_false_iff_ne.mpr h
    rw [hb]; simp [h]

/-- Row block `n` times 256 plus the row inside the block, computed on 32-bit words, meets the column's word
    exactly when the numbers agree: nothing wraps below 4096. -/
theorem r0_row_word (n p q : Nat) (hn : n < 16) (hp : p < 256) (hq : q < 4096) :
    IntOp.addi (Scalar.muli (BitVec.ofNat 32 n) 256#32) (BitVec.ofNat 32 p) = BitVec.ofNat 32 q ↔ n * 256 + p = q := by
  show BitVec.ofNat 32 n * 256#32 + BitVec.ofNat 32 p = BitVec.ofNat 32 q ↔ _
  constructor
  · intro e
    have e' := congrArg BitVec.toNat e
    simp only [BitVec.toNat_add, BitVec.toNat_mul, BitVec.toNat_ofNat] at e'
    omega
  · intro e
    apply BitVec.eq_of_toNat_eq
    simp only [BitVec.toNat_add, BitVec.toNat_mul, BitVec.toNat_ofNat]
    omega

/-- The thresholded entry plus the diagonal, at row `p` and column `q` of row block `i 0`. -/
theorem k0_pay1_apply (i : grid0.Coords) (x0 : Vec Ideal S256x4096 .f32) (p : Fin 256) (q : Fin 4096) :
    k0_pay1 (F := Ideal) i x0 (ix2 p q)
      = (if Cert.Spec.thr ≤ x0 (ix2 p q) then 1 else 0) + (if (i 0).val * 256 + p.val = q.val then 1 else 0) := by
  unfold k0_pay1
  show FloatOps.sitofp (F := Ideal) .f32 ((Ideal.cmp .oge (x0 (ix2 p q)) (Ideal.ofBits .f32 0x3D23D70A#32)).setWidth 32)
     + FloatOps.sitofp (F := Ideal) .f32 ((IntOp.cmpi .eq (IntOp.addi (Scalar.muli (BitVec.ofNat 32 (i 0).val) 256#32)
          (iota .tc S256x4096 32 [0] iota_S256x4096_d0_w32 (ix2 p q))) (iota .tc S256x4096 32 [1] iota_S256x4096_d1_w32 (ix2 p q))).setWidth 32) = _
  rw [r0_sitofp_extui, r0_sitofp_extui, iota_single_apply, iota_single_apply]
  have hn : (i 0).val < 16 := (i 0).isLt
  congr 1
  · exact if_congr (r0_cmp_oge_eq_one _ _) rfl rfl
  · refine if_congr ((r0_cmpi_eq_eq_one _ _).trans ?_) rfl rfl
    exact r0_row_word (i 0).val p.val q.val hn p.isLt q.isLt

/-- The stored block is the same entries: rounding to the narrower format changes nothing on the extended reals. -/
theorem k0_pay2_apply (i : grid0.Coords) (x0 : Vec Ideal S256x4096 .f32) (j : S256x4096.Idx) :
    k0_pay2 (F := Ideal) i x0 j = k0_pay1 (F := Ideal) i x0 j := rfl

/-- The stored row sums: row `p` of the block summed over the 4096 columns. -/
theorem k0_pay3_apply (i : grid0.Coords) (x0 : Vec Ideal S256x4096 .f32) (p : Fin 256) :
    k0_pay3 (F := Ideal) i x0 (ix1 p) = ∑ q : Fin 4096, k0_pay1 (F := Ideal) i x0 (ix2 p q) := by
  unfold k0_pay3
  refine (Ideal.multiReduction_add_single (k0_pay1 (F := Ideal) i x0) 0x00000000#32 reduces_S256x4096_S256 (.inl rfl) rfl (ix1 p)).trans ?_
  refine Finset.sum_congr rfl fun q _ => congrArg _ ?_
  funext a
  match a with
  | ⟨0, _⟩ => rfl
  | ⟨1, _⟩ => rfl

/-- A select on "sublane `s` is 0", `s` below 8, is the `if` on `s`. -/
theorem r0_select_sublane0 {α : Type} (s : Nat) (hs : s < 8) (A B : α) :
    Scalar.select (IntOp.cmpi .eq (BitVec.ofNat 32 s) 0#32) A B = if s = 0 then A else B := by
  interval_cases s <;> rfl

/-- The stored column sums: on sublane 0 column `v` of the block summed over its 256 rows, zero on the other sublanes. -/
theorem k0_pay4_apply (i : grid0.Coords) (x0 : Vec Ideal S256x4096 .f32) (z : Fin 1) (s : Fin 8) (v : Fin 4096) :
    k0_pay4 (F := Ideal) i x0 (ix3 z s v)
      = if s.val = 0 then ∑ r : Fin 256, k0_pay1 (F := Ideal) i x0 (ix2 r v) else 0 := by
  unfold k0_pay4
  refine (shapeCast_ab_1ab_apply _ _ z s v).trans ?_
  show Scalar.select (IntOp.cmpi .eq (iota .tc S8x4096 32 [0] iota_S8x4096_d0_w32 (ix2 s v)) 0#32) _ (Ideal.ofBits .f32 0x00000000#32) = _
  rw [iota_single_apply]
  refine (r0_select_sublane0 s.val s.isLt _ _).trans ?_
  refine if_congr Iff.rfl ?_ Ideal.ofBits_zero_f32
  refine (broadcastTo_1b_ab_apply _ _ s v).trans ?_
  rw [shapeCast_self]
  refine (shapeCast_a_1a_apply _ _ (0 : Fin 1) v).trans ?_
  refine (Ideal.multiReduction_add_single (k0_pay1 (F := Ideal) i x0) 0x00000000#32 reduces_S256x4096_S4096 (.inl rfl) rfl (ix1 v)).trans ?_
  refine Finset.sum_congr rfl fun r _ => congrArg _ ?_
  funext a
  match a with
  | ⟨0, _⟩ => rfl
  | ⟨1, _⟩ => rfl

/-- The entry of the stored block at row `p`, column `q` of row block `i 0` is the edge count `u → v` of the matrix
    `A`, when `u` is the block's row `i 0 * 256 + p`, `v` is `q`, and the loaded block holds `A u v` there. -/
theorem k0_pay1_adj (i : grid0.Coords) (x0 : Vec Ideal S256x4096 .f32) (A : Fin 4096 → Fin 4096 → EReal)
    (p : Fin 256) (q : Fin 4096) (u v : Fin 4096) (hu : u.val = (i 0).val * 256 + p.val) (hv : v.val = q.val)
    (hx : x0 (ix2 p q) = A u v) :
    k0_pay1 (F := Ideal) i x0 (ix2 p q) = Cert.Spec.adj A u v := by
  rw [k0_pay1_apply, hx]
  unfold Cert.Spec.adj
  congr 1
  refine if_congr ?_ rfl rfl
  rw [Fin.ext_iff, hu, hv]

end Cert.KernelIdeal.Val

end
-- ==== Proof.KI.Val0Adj.lean ====
/-
  Region 0, output window 1: after the region the first output array holds, at each row and column, the graph's
  edge count there (the thresholded entry plus the diagonal).
-/
import proofs.«144456_j68298569941180_2_alg».proof.Proof.KI.Val0Base
import proofs.«144456_j68298569941180_2_alg».proof.Proof.KI.Val0Pay

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## Output window 1: the edge counts -/

/-- What the first output array ends holding: the edge count at each row and column. -/
def r0_G1 : S4096x4096.Idx → EReal :=
  fun i => Cert.Spec.adj (r0_A0 V c) ⟨(i 0).val, idx2_lt0 i⟩ ⟨(i 1).val, idx2_lt1 i⟩

/-- The stored block at an index `j` is the edge count at the array index `k` under it. -/
theorem r0_blk1_point (i : grid0.Coords) (x0 : Vec Ideal S256x4096 .f32) (A : Fin 4096 → Fin 4096 → EReal)
    (j : S256x4096.Idx) (k : S4096x4096.Idx)
    (hk0 : (k 0).val = (i 0).val * 256 + (j 0).val) (hk1 : (k 1).val = (j 1).val)
    (hx : x0 j = A ⟨(k 0).val, idx2_lt0 k⟩ ⟨(k 1).val, idx2_lt1 k⟩) :
    k0_pay2 (F := Ideal) i x0 j = Cert.Spec.adj A ⟨(k 0).val, idx2_lt0 k⟩ ⟨(k 1).val, idx2_lt1 k⟩ := by
  rw [k0_pay2_apply]
  obtain ⟨p, q, rfl⟩ : ∃ (p : Fin 256) (q : Fin 4096), j = ix2 p q := ⟨j 0, j 1, eq_ix2 j⟩
  exact k0_pay1_adj i x0 A p q _ _ hk0 hk1 hx

/-- What point `t` writes back is block `t` of the edge counts. -/
theorem r0_flushed1_eq (t : Fin cfg0.N) :
    (dat0 V c).flushed 1 t = ((cfg0.win 1).blk t).view.read (Elt Ideal) (r0_G1 V c) := by
  show (cfg0.win 1).cut (grid0.coords t) ((dat0 V c).after 1 t) = _
  rw [after0_1]
  unfold out0_1
  rw [View.canon_unit_zero r0_hz2]
  simp only [View.ld_unit_zero (S := S256x4096) r0_hz2]
  obtain ⟨e00, e01, e10, e11, e2, e30, e31, e32, et⟩ := r0_idx_facts t
  funext j
  show k0_pay2 (F := Ideal) (grid0.coords t) (iblk0 V c 0 t) j = r0_G1 V c (((cfg0.win 1).blk t).view.emb j)
  have hk0 : ((((cfg0.win 1).blk t).view.emb j) 0).val = (grid0.coords t 0).val * 256 + (j 0).val := by
    show win0_1.index t (0 : Fin 2) * 256 + 1 * (j 0).val = (grid0.coords t 0).val * 256 + (j 0).val
    rw [e10]; omega
  have hk1 : ((((cfg0.win 1).blk t).view.emb j) 1).val = (j 1).val := by
    show win0_1.index t (1 : Fin 2) * 4096 + 1 * (j 1).val = (j 1).val
    rw [e11]; omega
  exact r0_blk1_point (grid0.coords t) (iblk0 V c 0 t) (r0_A0 V c) j (((cfg0.win 1).blk t).view.emb j) hk0 hk1
    (r0_iblk_apply V c t j _ hk0 hk1)

/-- An index of the array is in point `t`'s block iff each coordinate is in the block's range on its axis. -/
theorem r0_mem_blk1 (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0_0).slice (win0_1.rect t)).set ↔ _
  rw [View.set_slice_whole, Rect.mem_set_unit]
  exact Iff.rfl

/-- Every index of the array is in the block of its row's point. -/
theorem r0_cover1 (i : S4096x4096.Idx) : ∃ t : Fin cfg0.N, (cfg0.win 1).flush t = true ∧ i ∈ ((cfg0.win 1).blk t).view.set := by
  have hi0 : (i 0).val < 4096 := idx2_lt0 i
  have hi1 : (i 1).val < 4096 := idx2_lt1 i
  refine ⟨r0_rowPoint (i 0).val hi0, flush0_1 _, ?_⟩
  rw [r0_mem_blk1]
  obtain ⟨e00, e01, e10, e11, e2, e30, e31, e32, et⟩ := r0_idx_facts (r0_rowPoint (i 0).val hi0)
  have htv := r0_rowPoint_val (i 0).val hi0
  intro a
  match a with
  | ⟨0, _⟩ => show win0_1.index (r0_rowPoint (i 0).val hi0) (0 : Fin 2) * 256 ≤ (i 0).val ∧ (i 0).val < win0_1.index (r0_rowPoint (i 0).val hi0) (0 : Fin 2) * 256 + 256; rw [e10, et, htv]; omega
  | ⟨1, _⟩ => show win0_1.index (r0_rowPoint (i 0).val hi0) (1 : Fin 2) * 4096 ≤ (i 1).val ∧ (i 1).val < win0_1.index (r0_rowPoint (i 0).val hi0) (1 : Fin 2) * 4096 + 4096; rw [e11]; omega

/-- The first output array after the region: the edge counts. -/
theorem r0_final1 : (dat0 V c).arrAt 1 cfg0.N = r0_G1 V c :=
  (dat0 V c).arrAt_eq_of_cover 1 (r0_G1 V c) (fun t _ => r0_flushed1_eq V c t) r0_cover1

/-- The first output array after the region, at row `u` and column `v`: the edge count `u → v`. -/
theorem arr0_adj (u v : Fin 4096) :
    rd S4096x4096 ((dat0 (F := Ideal) V c).arrAt 1 cfg0.N) (ix2 u v)
      = Cert.Spec.adj (fun u v => rd S4096x4096 (V c main_arg0) (ix2 u v)) u v :=
  (congrFun (r0_final1 V c) (ix2 u v)).trans rfl

end Cert.KernelIdeal.Val

end
-- ==== Proof.KI.Val0Out.lean ====
/-
  Region 0, output window 2: after the region the second output array holds each node's out-degree, the sum of its
  row of edge counts.
-/
import proofs.«144456_j68298569941180_2_alg».proof.Proof.KI.Val0Base
import proofs.«144456_j68298569941180_2_alg».proof.Proof.KI.Val0Pay

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## Output window 2: the out-degrees -/

/-- A rank-1 index's coordinate is below the extent, written as `n` itself. -/
theorem r0_idx1_lt {n : Nat} (j : (⟨1, ![n]⟩ : Shape).Idx) : (j 0).val < n := (j 0).isLt

/-- What the second output array ends holding: the out-degree of each node. -/
def r0_G2 : S4096.Idx → EReal := fun i => Cert.Spec.outDeg (r0_A0 V c) ⟨(i 0).val, r0_idx1_lt i⟩

/-- The stored row sum at an index `j` is the out-degree of the node `u` whose row it is. -/
theorem r0_blk2_point (i : grid0.Coords) (x0 : Vec Ideal S256x4096 .f32) (A : Fin 4096 → Fin 4096 → EReal)
    (j : S256.Idx) (u : Fin 4096) (hu : u.val = (i 0).val * 256 + (j 0).val)
    (hx : ∀ (p : Fin 256) (q : Fin 4096), p.val = (j 0).val → x0 (ix2 p q) = A u q) :
    k0_pay3 (F := Ideal) i x0 j = Cert.Spec.outDeg A u := by
  obtain ⟨p, rfl⟩ : ∃ p : Fin 256, j = ix1 p := ⟨j 0, eq_ix1 j⟩
  rw [k0_pay3_apply]
  unfold Cert.Spec.outDeg
  exact Finset.sum_congr rfl fun q _ => k0_pay1_adj i x0 A p q u q hu rfl (hx p q rfl)

/-- What point `t` writes back is block `t` of the out-degrees. -/
theorem r0_flushed2_eq (t : Fin cfg0.N) :
    (dat0 V c).flushed 2 t = ((cfg0.win 2).blk t).view.read (Elt Ideal) (r0_G2 V c) := by
  show (cfg0.win 2).cut (grid0.coords t) ((dat0 V c).after 2 t) = _
  rw [after0_2]
  unfold out0_2
  rw [View.canon_unit_zero r0_hz1]
  simp only [View.ld_unit_zero (S := S256x4096) r0_hz2]
  obtain ⟨e00, e01, e10, e11, e2, e30, e31, e32, et⟩ := r0_idx_facts t
  funext j
  show k0_pay3 (F := Ideal) (grid0.coords t) (iblk0 V c 0 t) j = r0_G2 V c (((cfg0.win 2).blk t).view.emb j)
  have hk0 : ((((cfg0.win 2).blk t).view.emb j) 0).val = (grid0.coords t 0).val * 256 + (j 0).val := by
    show win0_2.index t (0 : Fin 1) * 256 + 1 * (j 0).val = (grid0.coords t 0).val * 256 + (j 0).val
    rw [e2]; omega
  refine r0_blk2_point (grid0.coords t) (iblk0 V c 0 t) (r0_A0 V c) j ⟨_, r0_idx1_lt (((cfg0.win 2).blk t).view.emb j)⟩ hk0 (fun p q hp => ?_)
  refine r0_iblk_apply V c t (ix2 p q) (ix2 ⟨_, r0_idx1_lt (((cfg0.win 2).blk t).view.emb j)⟩ q) ?_ rfl
  show ((((cfg0.win 2).blk t).view.emb j) 0).val = (grid0.coords t 0).val * 256 + p.val
  rw [hk0, hp]

/-- An index of the array is in point `t`'s block iff its coordinate is in the block's range. -/
theorem r0_mem_blk2 (t : Fin cfg0.N) (i : S4096.Idx) :
    i ∈ ((cfg0.win 2).blk t).view.set ↔ ∀ a : Fin 1, win0_2.index t a * S256.size a ≤ (i a).val ∧ (i a).val < win0_2.index t a * S256.size a + S256.size a := by
  show i ∈ ((View.whole main_v0_1).slice (win0_2.rect t)).set ↔ _
  rw [View.set_slice_whole, Rect.mem_set_unit]
  exact Iff.rfl

/-- Every index of the array is in the block of its row's point. -/
theorem r0_cover2 (i : S4096.Idx) : ∃ t : Fin cfg0.N, (cfg0.win 2).flush t = true ∧ i ∈ ((cfg0.win 2).blk t).view.set := by
  have hi0 : (i 0).val < 4096 := r0_idx1_lt i
  refine ⟨r0_rowPoint (i 0).val hi0, flush0_2 _, ?_⟩
  rw [r0_mem_blk2]
  obtain ⟨e00, e01, e10, e11, e2, e30, e31, e32, et⟩ := r0_idx_facts (r0_rowPoint (i 0).val hi0)
  have htv := r0_rowPoint_val (i 0).val hi0
  intro a
  match a with
  | ⟨0, _⟩ => show win0_2.index (r0_rowPoint (i 0).val hi0) (0 : Fin 1) * 256 ≤ (i 0).val ∧ (i 0).val < win0_2.index (r0_rowPoint (i 0).val hi0) (0 : Fin 1) * 256 + 256; rw [e2, et, htv]; omega

/-- The second output array after the region: the out-degrees. -/
theorem r0_final2 : (dat0 V c).arrAt 2 cfg0.N = r0_G2 V c :=
  (dat0 V c).arrAt_eq_of_cover 2 (r0_G2 V c) (fun t _ => r0_flushed2_eq V c t) r0_cover2

/-- The second output array after the region, at node `u`: its out-degree. -/
theorem arr0_out (u : Fin 4096) :
    rd S4096 ((dat0 (F := Ideal) V c).arrAt 2 cfg0.N) (ix1 u)
      = Cert.Spec.outDeg (fun u v => rd S4096x4096 (V c main_arg0) (ix2 u v)) u :=
  (congrFun (r0_final2 V c) (ix1 u)).trans rfl

end Cert.KernelIdeal.Val

end
-- ==== Proof.KI.Val0Colp.lean ====
/-
  Region 0, output window 3: after the region the third output array holds, for each row block, the column sums of
  that block's edge counts on sublane 0 of the block's tile, and zero on the other seven sublanes.
-/
import proofs.«144456_j68298569941180_2_alg».proof.Proof.KI.Val0Base
import proofs.«144456_j68298569941180_2_alg».proof.Proof.KI.Val0Pay

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## Output window 3: the column sums of each row block -/

theorem r0_idx3_lt0 {n0 n1 n2 : Nat} (j : (⟨3, ![n0, n1, n2]⟩ : Shape).Idx) : (j 0).val < n0 := (j 0).isLt
theorem r0_idx3_lt1 {n0 n1 n2 : Nat} (j : (⟨3, ![n0, n1, n2]⟩ : Shape).Idx) : (j 1).val < n1 := (j 1).isLt
theorem r0_idx3_lt2 {n0 n1 n2 : Nat} (j : (⟨3, ![n0, n1, n2]⟩ : Shape).Idx) : (j 2).val < n2 := (j 2).isLt

/-- Row `r` of row block `b`, as a node. -/
def r0_blockRow (b r : Nat) (hb : b < 16) (hr : r < 256) : Fin 4096 := ⟨256 * b + r, by omega⟩

/-- The column sums of the edge counts over the rows of one row block, on sublane 0; zero on the other sublanes. -/
def r0_colSum (A : Fin 4096 → Fin 4096 → EReal) (k : S16x8x4096.Idx) : EReal :=
  if (k 1).val = 0 then ∑ r : Fin 256, Cert.Spec.adj A (r0_blockRow (k 0).val r.val (r0_idx3_lt0 k) r.isLt) ⟨(k 2).val, r0_idx3_lt2 k⟩ else 0

/-- What the third output array ends holding. -/
def r0_G3 : S16x8x4096.Idx → EReal := r0_colSum (r0_A0 V c)

/-- The stored tile at an index `j` is the column sum at the array index `k` under it. -/
theorem r0_blk3_point (i : grid0.Coords) (x0 : Vec Ideal S256x4096 .f32) (A : Fin 4096 → Fin 4096 → EReal)
    (j : S1x8x4096.Idx) (k : S16x8x4096.Idx)
    (hk0 : (k 0).val = (i 0).val) (hk1 : (k 1).val = (j 1).val) (hk2 : (k 2).val = (j 2).val)
    (hx : ∀ (r : Fin 256) (q : Fin 4096), q.val = (j 2).val →
      x0 (ix2 r q) = A (r0_blockRow (k 0).val r.val (r0_idx3_lt0 k) r.isLt) ⟨(k 2).val, r0_idx3_lt2 k⟩) :
    k0_pay4 (F := Ideal) i x0 j = r0_colSum A k := by
  obtain ⟨z, s, q, rfl⟩ : ∃ (z : Fin 1) (s : Fin 8) (q : Fin 4096), j = ix3 z s q := ⟨j 0, j 1, j 2, eq_ix3 j⟩
  rw [k0_pay4_apply]
  unfold r0_colSum
  refine if_congr (by rw [hk1]) (Finset.sum_congr rfl fun r _ => ?_) rfl
  refine k0_pay1_adj i x0 A r q _ _ ?_ hk2 (hx r q rfl)
  show 256 * (k 0).val + r.val = (i 0).val * 256 + r.val
  rw [hk0]; omega

/-- What point `t` writes back is block `t` of the column sums. -/
theorem r0_flushed3_eq (t : Fin cfg0.N) :
    (dat0 V c).flushed 3 t = ((cfg0.win 3).blk t).view.read (Elt Ideal) (r0_G3 V c) := by
  show (cfg0.win 3).cut (grid0.coords t) ((dat0 V c).after 3 t) = _
  rw [after0_3]
  unfold out0_3
  rw [View.canon_unit_zero r0_hz3]
  simp only [View.ld_unit_zero (S := S256x4096) r0_hz2]
  obtain ⟨e00, e01, e10, e11, e2, e30, e31, e32, et⟩ := r0_idx_facts t
  funext j
  show k0_pay4 (F := Ideal) (grid0.coords t) (iblk0 V c 0 t) j = r0_G3 V c (((cfg0.win 3).blk t).view.emb j)
  have hj0 : (j 0).val < 1 := (j 0).isLt
  have hk0 : ((((cfg0.win 3).blk t).view.emb j) 0).val = (grid0.coords t 0).val := by
    show win0_3.index t (0 : Fin 3) * 1 + 1 * (j 0).val = (grid0.coords t 0).val
    rw [e30]; omega
  have hk1 : ((((cfg0.win 3).blk t).view.emb j) 1).val = (j 1).val := by
    show win0_3.index t (1 : Fin 3) * 8 + 1 * (j 1).val = (j 1).val
    rw [e31]; omega
  have hk2 : ((((cfg0.win 3).blk t).view.emb j) 2).val = (j 2).val := by
    show win0_3.index t (2 : Fin 3) * 4096 + 1 * (j 2).val = (j 2).val
    rw [e32]; omega
  refine r0_blk3_point (grid0.coords t) (iblk0 V c 0 t) (r0_A0 V c) j (((cfg0.win 3).blk t).view.emb j) hk0 hk1 hk2 (fun r q hq => ?_)
  refine r0_iblk_apply V c t (ix2 r q) (ix2 (r0_blockRow _ r.val (r0_idx3_lt0 (((cfg0.win 3).blk t).view.emb j)) r.isLt) ⟨_, r0_idx3_lt2 (((cfg0.win 3).blk t).view.emb j)⟩) ?_ ?_
  · show 256 * ((((cfg0.win 3).blk t).view.emb j) 0).val + r.val = (grid0.coords t 0).val * 256 + r.val
    rw [hk0]; omega
  · show ((((cfg0.win 3).blk t).view.emb j) 2).val = q.val
    rw [hk2, hq]

/-- An index of the array is in point `t`'s block iff each coordinate is in the block's range on its axis. -/
theorem r0_mem_blk3 (t : Fin cfg0.N) (i : S16x8x4096.Idx) :
    i ∈ ((cfg0.win 3).blk t).view.set ↔ ∀ a : Fin 3, win0_3.index t a * S1x8x4096.size a ≤ (i a).val ∧ (i a).val < win0_3.index t a * S1x8x4096.size a + S1x8x4096.size a := by
  show i ∈ ((View.whole main_v0_2).slice (win0_3.rect t)).set ↔ _
  rw [View.set_slice_whole, Rect.mem_set_unit]
  exact Iff.rfl

/-- Every index of the array is in the block of the point its first coordinate names. -/
theorem r0_cover3 (i : S16x8x4096.Idx) : ∃ t : Fin cfg0.N, (cfg0.win 3).flush t = true ∧ i ∈ ((cfg0.win 3).blk t).view.set := by
  have hi0 : (i 0).val < 16 := r0_idx3_lt0 i
  have hi1 : (i 1).val < 8 := r0_idx3_lt1 i
  have hi2 : (i 2).val < 4096 := r0_idx3_lt2 i
  have hN : cfg0.N = 16 := N_0
  refine ⟨⟨(i 0).val, by rw [hN]; exact hi0⟩, flush0_3 _, ?_⟩
  rw [r0_mem_blk3]
  obtain ⟨e00, e01, e10, e11, e2, e30, e31, e32, et⟩ := r0_idx_facts ⟨(i 0).val, by rw [hN]; exact hi0⟩
  have htv : ((⟨(i 0).val, by rw [hN]; exact hi0⟩ : Fin cfg0.N)).val = (i 0).val := rfl
  intro a
  match a with
  | ⟨0, _⟩ => show win0_3.index ⟨(i 0).val, _⟩ (0 : Fin 3) * 1 ≤ (i 0).val ∧ (i 0).val < win0_3.index ⟨(i 0).val, _⟩ (0 : Fin 3) * 1 + 1; rw [e30, et, htv]; omega
  | ⟨1, _⟩ => show win0_3.index ⟨(i 0).val, _⟩ (1 : Fin 3) * 8 ≤ (i 1).val ∧ (i 1).val < win0_3.index ⟨(i 0).val, _⟩ (1 : Fin 3) * 8 + 8; rw [e31]; omega
  | ⟨2, _⟩ => show win0_3.index ⟨(i 0).val, _⟩ (2 : Fin 3) * 4096 ≤ (i 2).val ∧ (i 2).val < win0_3.index ⟨(i 0).val, _⟩ (2 : Fin 3) * 4096 + 4096; rw [e32]; omega

/-- The third output array after the region: the column sums of each row block. -/
theorem r0_final3 : (dat0 V c).arrAt 3 cfg0.N = r0_G3 V c :=
  (dat0 V c).arrAt_eq_of_cover 3 (r0_G3 V c) (fun t _ => r0_flushed3_eq V c t) r0_cover3

/-- The third output array after the region, at row block `b`, sublane `s`, column `v`: on sublane 0 the sum over the
    block's 256 rows of the edge counts into `v`, zero on the other sublanes. -/
theorem arr0_colp (b : Fin 16) (s : Fin 8) (v : Fin 4096) :
    rd S16x8x4096 ((dat0 (F := Ideal) V c).arrAt 3 cfg0.N) (ix3 b s v)
      = if s = 0 then ∑ r : Fin 256, Cert.Spec.adj (fun u v => rd S4096x4096 (V c main_arg0) (ix2 u v))
          ⟨256 * b.val + r.val, by have := b.isLt; have := r.isLt; omega⟩ v else 0 := by
  refine (congrFun (r0_final3 V c) (ix3 b s v)).trans ?_
  show (if s.val = 0 then _ else _) = _
  exact if_congr (by rw [Fin.ext_iff]; rfl) rfl rfl

end Cert.KernelIdeal.Val

end
-- ==== Proof.KI.Val0.lean ====
/-
  Region 0, the three output arrays after the region, index by index: the edge counts, the out-degrees, and the
  column sums of each row block.
-/
import proofs.«144456_j68298569941180_2_alg».proof.Proof.KI.Val0Adj
import proofs.«144456_j68298569941180_2_alg».proof.Proof.KI.Val0Out
import proofs.«144456_j68298569941180_2_alg».proof.Proof.KI.Val0Colp
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.KI.ValHost.lean ====
import proofs.«144456_j68298569941180_2_alg».proof.Proof.Gen.KernelIdeal.Launch
import proofs.«144456_j68298569941180_2_alg».proof.Proof.Gen.KernelIdeal.Regions
import proofs.«144456_j68298569941180_2_alg».proof.Proof.Spec
import proofs.«144456_j68298569941180_2_alg».proof.Proof.LibSumBlocks
import Idealize.ShloMosaic.Lib.StableHlo.Run
import Idealize.ShloMosaic.Lib.ValueIdx
import Idealize.ShloMosaic.Lib.IdealHost
import Idealize.ShloMosaic.PureOps.Ideal.Laws

/-!
# The two degree scalings computed between the first two kernels

Between the kernel that builds the graph and the first projection, the program computes on the
host the two scalings. The out-degrees arrive as one array of row sums. The in-degrees arrive as
sixteen partial column sums, one per block of 256 consecutive rows, each stored in the first of
eight slots with zeros in the other seven; the host adds all `16 × 8` slots of a column, which
is the sum of the sixteen partial sums, which is the whole column sum. Each degree is then
clamped below by one and its reciprocal square root taken.
-/

noncomputable section

namespace Cert.KernelIdeal.Val

open Cert.KernelIdeal Cert.KernelIdeal.Gen Idealize.ShloMosaic Idealize.ShloMosaic.TcCoe Idealize.SL.Sem
open Idealize.ShloMosaic.ValueIdx

/-! ## Sums over a rank-3 index set -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Summing a `[16, 8, 4096]` array over its first two axes: at column `v` the indices that reduce
    to `v` are exactly the `(b, s, v)`, so the sum is the double sum over `b` and `s`. -/
theorem sum_drop01 (h : S16x8x4096.ReducesTo [0, 1] S4096) (x : S16x8x4096.Idx → EReal) (v : Fin 4096) :
    ∑ i ∈ Finset.univ.filter (fun i => h.drop i = ix1 v), x i
      = ∑ b : Fin 16, ∑ s : Fin 8, x (ix3 b s v) := by
  rw [Finset.sum_filter, sum_idx3]
  refine Finset.sum_congr rfl fun b _ => Finset.sum_congr rfl fun s _ => ?_
  have hd : ∀ w : Fin 4096, h.drop (ix3 b s w) = ix1 w := fun w =>
    funext fun a => Fin.ext (by
      obtain rfl : a = (0 : Fin S4096.rank) := Subsingleton.elim _ _
      exact Shape.ReducesTo.drop_apply_val_of_eq h (ix3 b s w) 0 2)
  rw [Finset.sum_eq_single v]
  · rw [if_pos (hd v)]
  · intro w _ hw
    rw [if_neg]
    intro e
    exact hw (congrFun ((hd w).symm.trans e) 0)
  · intro hv
    exact absurd (Finset.mem_univ v) hv

/-! ## The host operations' results -/

/-- The out-degree scaling as the host computes it from the row sums. -/
theorem host_v4_eq (W : Valuation τ sig (Elt Ideal)) :
    (StableHlo.after hostOps1 W (Proc.devRef .tc main_v4) : S4096.Idx → EReal)
      = Host.rsqrt (F := Ideal) (maximumf (W (Proc.devRef .tc main_v0_1))
          (broadcastInDim S4096 ![] bcast_S_S4096 (constant (F := Ideal) S_ .f32 0x3F800000#32))) := by
  after_results

/-- The in-degree scaling as the host computes it from the partial column sums. -/
theorem host_v7_eq (W : Valuation τ sig (Elt Ideal)) :
    (StableHlo.after hostOps1 W (Proc.devRef .tc main_v7) : S4096.Idx → EReal)
      = Host.rsqrt (F := Ideal) (maximumf
          (Host.reduceAdd (F := Ideal) (W (Proc.devRef .tc main_v0_2)) (constant (F := Ideal) S_ .f32 0x00000000#32)
            reducesTo_S16x8x4096_S4096_d0_1 h_S_)
          (broadcastInDim S4096 ![] bcast_S_S4096 (constant (F := Ideal) S_ .f32 0x3F800000#32))) := by
  after_results

/-- The reciprocal square root of row sums clamped below by one, when the row sums are the
    out-degrees, is the out-degree scaling. -/
theorem outScale_of_rows (x : S4096.Idx → EReal) (A : Fin 4096 → Fin 4096 → EReal)
    (hrow : ∀ u : Fin 4096, x (ix1 u) = Cert.Spec.outDeg A u) (u : Fin 4096) :
    Host.rsqrt (F := Ideal) (maximumf x
        (broadcastInDim S4096 ![] bcast_S_S4096 (constant (F := Ideal) S_ .f32 0x3F800000#32))) (ix1 u)
      = Cert.Spec.outScale A u := by
  show Ideal.rsqrt (max (x (ix1 u)) (Ideal.ofBits .f32 0x3F800000#32)) = _
  rw [hrow u, Cert.Spec.ofBits_one_f32]
  rfl

/-- From row sums that are the out-degrees, the host's first scaling is the out-degree scaling. -/
theorem host_outScale (W : Valuation τ sig (Elt Ideal)) (A : Fin 4096 → Fin 4096 → EReal)
    (hrow : ∀ u : Fin 4096, (W (Proc.devRef .tc main_v0_1) : S4096.Idx → EReal) (ix1 u) = Cert.Spec.outDeg A u)
    (u : Fin 4096) :
    (StableHlo.after hostOps1 W (Proc.devRef .tc main_v4) : S4096.Idx → EReal) (ix1 u) = Cert.Spec.outScale A u := by
  rw [host_v4_eq]
  exact outScale_of_rows _ A hrow u

/-- Partial column sums held in the first of eight slots, one per block of 256 rows: the sum of
    all slots of a column is the whole column sum, and its clamped reciprocal square root is the
    in-degree scaling. -/
theorem inScale_of_parts (x : S16x8x4096.Idx → EReal) (A : Fin 4096 → Fin 4096 → EReal)
    (hcol : ∀ (b : Fin 16) (s : Fin 8) (v : Fin 4096), x (ix3 b s v)
        = if s = 0 then ∑ r : Fin 256, Cert.Spec.adj A ⟨256 * b.val + r.val, by have := b.isLt; have := r.isLt; omega⟩ v else 0)
    (v : Fin 4096) :
    Host.rsqrt (F := Ideal) (maximumf
        (Host.reduceAdd (F := Ideal) x (constant (F := Ideal) S_ .f32 0x00000000#32) reducesTo_S16x8x4096_S4096_d0_1 h_S_)
        (broadcastInDim S4096 ![] bcast_S_S4096 (constant (F := Ideal) S_ .f32 0x3F800000#32))) (ix1 v)
      = Cert.Spec.inScale A v := by
  show Ideal.rsqrt (max (Ideal.ofBits .f32 0x00000000#32
      + ∑ i ∈ Finset.univ.filter (fun i => reducesTo_S16x8x4096_S4096_d0_1.drop i = ix1 v), x i)
      (Ideal.ofBits .f32 0x3F800000#32)) = _
  rw [sum_drop01, Ideal.ofBits_zero_f32, zero_add, Cert.Spec.ofBits_one_f32]
  have hs : ∀ b : Fin 16, ∑ s : Fin 8, x (ix3 b s v)
      = ∑ r : Fin 256, Cert.Spec.adj A ⟨256 * b.val + r.val, by have := b.isLt; have := r.isLt; omega⟩ v := fun b => by
    simp only [hcol]
    rw [Finset.sum_eq_single (0 : Fin 8)]
    · rw [if_pos rfl]
    · intro s _ hs0; rw [if_neg hs0]
    · intro h0; exact absurd (Finset.mem_univ _) h0
  simp only [hs]
  rw [← Cert.SumBlocks.sum_16x256 (fun u => Cert.Spec.adj A u v)]
  rfl

/-- From partial column sums held in the first of eight slots, one per block of 256 rows, the
    host's second scaling is the in-degree scaling. -/
theorem host_inScale (W : Valuation τ sig (Elt Ideal)) (A : Fin 4096 → Fin 4096 → EReal)
    (hcol : ∀ (b : Fin 16) (s : Fin 8) (v : Fin 4096),
      (W (Proc.devRef .tc main_v0_2) : S16x8x4096.Idx → EReal) (ix3 b s v)
        = if s = 0 then ∑ r : Fin 256, Cert.Spec.adj A ⟨256 * b.val + r.val, by have := b.isLt; have := r.isLt; omega⟩ v else 0)
    (v : Fin 4096) :
    (StableHlo.after hostOps1 W (Proc.devRef .tc main_v7) : S4096.Idx → EReal) (ix1 v) = Cert.Spec.inScale A v := by
  rw [host_v7_eq]
  exact inScale_of_parts _ A hcol v

/-- The host operations leave every array they do not write as they found it. -/
theorem host_keeps (W : Valuation τ sig (Elt Ideal)) (b : Ref sig .tc)
    (hb : b ∉ [main_cst, main_v1, main_cst_0, main_v2, main_v3, main_v4, main_cst_1, main_v5, main_v6, main_v7]) :
    StableHlo.after hostOps1 W (Proc.devRef .tc b) = W (Proc.devRef .tc b) :=
  StableHlo.after_of_writes_sub hostOps1 W hostOps1_writes hb

end Cert.KernelIdeal.Val

end
-- ==== Proof.KI.ValProj.lean ====
/-
  Regions 1 and 3 compute the same scaled projection. This module has what the two share: the payload of each read at an
  index (the stored block at local row `p` and column `d` is the sum over `j` of the input row's entry `j`, times the row's
  scale, times the weight at `(j, d)`), and the projection as one function of whole arrays.
-/
import proofs.«144456_j68298569941180_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.ValueIdx

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The operand indices of the `[1024,256] × [256,256]` product at output `i` and contraction index `q`, axis by axis:
    the left operand is read at `i`'s row and `q`, the right at `q` and `i`'s column. -/
theorem dot_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem dot_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dot_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dot_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- At output `(p, d)` and contraction coordinate `k`: `(p, k)` on the left, `(k, d)` on the right. -/
theorem dot_lhsIdx (p : Fin 1024) (d : Fin 256) (k : Fin 256) :
    dot_S1024x256_S256x256_S1024x256_1_0_0_1_n_n.lhsIdx (ix2 p d)
        ((contrEquiv1 dot_S1024x256_S256x256_S1024x256_1_0_0_1_n_n 256 rfl rfl).symm k) = ix2 p k := by
  have hk := contrEquiv1_symm_val dot_S1024x256_S256x256_S1024x256_1_0_0_1_n_n 256 rfl rfl k
  refine funext fun a => Fin.ext ?_
  match a with
  | ⟨0, _⟩ => exact dot_lhs_0 _ _
  | ⟨1, _⟩ => exact (dot_lhs_1 _ _).trans hk

theorem dot_rhsIdx (p : Fin 1024) (d : Fin 256) (k : Fin 256) :
    dot_S1024x256_S256x256_S1024x256_1_0_0_1_n_n.rhsIdx (ix2 p d)
        ((contrEquiv1 dot_S1024x256_S256x256_S1024x256_1_0_0_1_n_n 256 rfl rfl).symm k) = ix2 k d := by
  have hk := contrEquiv1_symm_val dot_S1024x256_S256x256_S1024x256_1_0_0_1_n_n 256 rfl rfl k
  refine funext fun a => Fin.ext ?_
  match a with
  | ⟨0, _⟩ => exact (dot_rhs_0 _ _).trans hk
  | ⟨1, _⟩ => exact dot_rhs_1 _ _

/-- The scaled rows: the input block times the scale column broadcast along the row. -/
theorem scaled_apply (x0 : Vec Ideal S1024x256 .f32) (x1 : Vec Ideal S1024 .f32) (p : Fin 1024) (k : Fin 256) :
    (mulf x0 (broadcastTo S1024x256 (shapeCast S1024x1 (shapeCast S1024 x1 shapeCasts_S1024_S1024) shapeCasts_S1024_S1024x1)
        broadcasts_S1024x1_S1024x256) : FVec Ideal S1024x256 .f32) (ix2 p k) = x0 (ix2 p k) * x1 (ix1 p) := by
  rw [mulf_apply]
  refine congrArg (x0 (ix2 p k) * ·) ?_
  refine (broadcastTo_a1_ab_apply _ broadcasts_S1024x1_S1024x256 p k).trans ?_
  refine (shapeCast_a_a1_apply _ shapeCasts_S1024_S1024x1 p 0).trans ?_
  rw [shapeCast_self]

/-- The payload of region 1 at local row `p`, column `d`. -/
theorem k1_pay1_apply (x0 : Vec Ideal S1024x256 .f32) (x1 : Vec Ideal S1024 .f32) (x2 : Vec Ideal S256x256 .f32)
    (p : Fin 1024) (d : Fin 256) :
    k1_pay1 x0 x1 x2 (ix2 p d) = ∑ j : Fin 256, (x0 (ix2 p j) * x1 (ix1 p)) * x2 (ix2 j d) := by
  unfold k1_pay1
  rw [truncf_apply]
  simp only [matmul]
  refine (Ideal.matmul_constant_zero_apply dot_S1024x256_S256x256_S1024x256_1_0_0_1_n_n none _ _ (ix2 p d)).trans ?_
  rw [← Equiv.sum_comp (contrEquiv1 dot_S1024x256_S256x256_S1024x256_1_0_0_1_n_n 256 rfl rfl).symm]
  refine Finset.sum_congr rfl fun k _ => ?_
  rw [dot_lhsIdx, dot_rhsIdx, truncf_apply, truncf_apply, scaled_apply]

/-- The payload of region 3 at local row `p`, column `d`: the same projection (its input block passes through a cast to
    its own shape first). -/
theorem k3_pay1_apply (x0 : Vec Ideal S1024x256 .f32) (x1 : Vec Ideal S1024 .f32) (x2 : Vec Ideal S256x256 .f32)
    (p : Fin 1024) (d : Fin 256) :
    k3_pay1 x0 x1 x2 (ix2 p d) = ∑ j : Fin 256, (x0 (ix2 p j) * x1 (ix1 p)) * x2 (ix2 j d) := by
  unfold k3_pay1
  rw [truncf_apply]
  simp only [matmul]
  refine (Ideal.matmul_constant_zero_apply dot_S1024x256_S256x256_S1024x256_1_0_0_1_n_n none _ _ (ix2 p d)).trans ?_
  rw [← Equiv.sum_comp (contrEquiv1 dot_S1024x256_S256x256_S1024x256_1_0_0_1_n_n 256 rfl rfl).symm]
  refine Finset.sum_congr rfl fun k _ => ?_
  rw [dot_lhsIdx, dot_rhsIdx, truncf_apply, truncf_apply, shapeCast_self, scaled_apply]

theorem projHz1 : (![0] : Fin 1 → Nat) = fun _ => 0 := funext fun a => by fin_cases a; rfl
theorem projHz2 : (![0, 0] : Fin 2 → Nat) = fun _ => 0 := funext fun a => by fin_cases a <;> rfl

/-- The scaled projection as one function of three whole arrays, index by index: at row `u` and column `d`, the sum over
    `j` of the input's entry `(u, j)`, times the scale of row `u`, times the weight at `(j, d)`. -/
def proj (A0 : S4096x256.Idx → EReal) (A1 : S4096.Idx → EReal) (A2 : S256x256.Idx → EReal) : S4096x256.Idx → EReal :=
  fun i => ∑ j : Fin 256, (A0 (ix2 (i 0) j) * A1 (ix1 (i 0))) * A2 (ix2 j (i 1))

theorem proj_apply (A0 : S4096x256.Idx → EReal) (A1 : S4096.Idx → EReal) (A2 : S256x256.Idx → EReal)
    (u : Fin 4096) (d : Fin 256) :
    proj A0 A1 A2 (ix2 u d) = ∑ j : Fin 256, (A0 (ix2 u j) * A1 (ix1 u)) * A2 (ix2 j d) := rfl

end Cert.KernelIdeal.Val

end
-- ==== Proof.KI.Val1.lean ====
/-
  Region 1, the value of its output array after the region: at row `u` and column `d` it is the sum over `j` of the
  input's entry `(u, j)`, times the source scale of row `u`, times the weight at `(j, d)`. Each of the four row blocks
  of 1024 rows is written once, from the same rows of the input and of the scales and from the whole weight matrix.
-/
import proofs.«144456_j68298569941180_2_alg».proof.Proof.KI.Region1
import proofs.«144456_j68298569941180_2_alg».proof.Proof.KI.ValProj

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of region 1's windows at each grid point: row block `t` of the input, of the scales and of
    the output; the weight's one block. -/
theorem idx_facts1 : ∀ t : Fin cfg1.N, win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point `t` is rows `1024 t … 1024 t + 1023` of the input. -/
theorem iblk1_0_apply (c : Dev nD) (t : Fin cfg1.N) (x : S1024x256.Idx) (k : S4096x256.Idx)
    (hk0 : (k 0).val = 1024 * t.val + (x 0).val) (hk1 : (k 1).val = (x 1).val) :
    (iblk1 V c 0 t : Vec Ideal S1024x256 .f32) x = (V c main_arg1 : S4096x256.Idx → EReal) k := by
  obtain ⟨e0, e1, -⟩ := idx_facts1 t
  unfold iblk1
  rw [View.read_apply]
  show V c main_arg1 _ = V c main_arg1 _
  refine congrArg (V c main_arg1) (funext fun a => Fin.ext ?_)
  match a with
  | ⟨0, _⟩ => show win1_0.index t 0 * 1024 + 1 * (x 0).val = (k 0).val; rw [e0, hk0]; omega
  | ⟨1, _⟩ => show win1_0.index t 1 * 256 + 1 * (x 1).val = (k 1).val; rw [e1, hk1]; omega

/-- The scales' block at point `t` is entries `1024 t … 1024 t + 1023` of the scales. -/
theorem iblk1_1_apply (c : Dev nD) (t : Fin cfg1.N) (x : S1024.Idx) (k : S4096.Idx)
    (hk0 : (k 0).val = 1024 * t.val + (x 0).val) :
    (iblk1 V c 1 t : Vec Ideal S1024 .f32) x = (V c main_v4 : S4096.Idx → EReal) k := by
  obtain ⟨-, -, e0, -⟩ := idx_facts1 t
  unfold iblk1
  rw [View.read_apply]
  show V c main_v4 _ = V c main_v4 _
  refine congrArg (V c main_v4) (funext fun a => Fin.ext ?_)
  match a with
  | ⟨0, _⟩ => show win1_1.index t 0 * 1024 + 1 * (x 0).val = (k 0).val; rw [e0, hk0]; omega

/-- The weight's block at every point is the whole weight matrix. -/
theorem iblk1_2_apply (c : Dev nD) (t : Fin cfg1.N) (x : S256x256.Idx) :
    (iblk1 V c 2 t : Vec Ideal S256x256 .f32) x = (V c main_arg2 : S256x256.Idx → EReal) x := by
  obtain ⟨-, -, -, e0, e1, -⟩ := idx_facts1 t
  unfold iblk1
  rw [View.read_apply]
  show V c main_arg2 _ = V c main_arg2 _
  refine congrArg (V c main_arg2) (funext fun a => Fin.ext ?_)
  match a with
  | ⟨0, _⟩ => show win1_2.index t 0 * 256 + 1 * (x 0).val = (x 0).val; rw [e0]; omega
  | ⟨1, _⟩ => show win1_2.index t 1 * 256 + 1 * (x 1).val = (x 1).val; rw [e1]; omega

/-- What point `t` writes back is block `t` of the projection of the arrays as the region finds them. -/
theorem flushed1_3_eq (c : Dev nD) (t : Fin cfg1.N) :
    (dat1 V c).flushed 3 t
      = ((cfg1.win 3).blk t).view.read (Elt Ideal) (proj (V c main_arg1) (V c main_v4) (V c main_arg2)) := by
  show (cfg1.win 3).cut (grid1.coords t) ((dat1 V c).after 3 t) = _
  rw [after1_3]
  unfold out1_3
  rw [View.canon_unit_zero projHz2]
  simp only [View.ld_unit_zero (S := S1024x256) projHz2, View.ld_unit_zero (S := S1024) projHz1, View.ld_unit_zero (S := S256x256) projHz2]
  obtain ⟨-, -, -, -, -, e0, e1⟩ := idx_facts1 t
  funext y
  obtain ⟨p, d, rfl⟩ : ∃ (p : Fin 1024) (d : Fin 256), y = ix2 p d := ⟨y 0, y 1, eq_ix2 y⟩
  show k1_pay1 (iblk1 V c 0 t) (iblk1 V c 1 t) (iblk1 V c 2 t) (ix2 p d)
    = proj (V c main_arg1) (V c main_v4) (V c main_arg2) (((cfg1.win 3).blk t).view.emb (ix2 p d))
  refine (k1_pay1_apply _ _ _ p d).trans ?_
  unfold proj
  have h0 : ((((cfg1.win 3).blk t).view.emb (ix2 p d)) 0).val = 1024 * t.val + p.val := by
    show win1_3.index t 0 * 1024 + 1 * p.val = _; rw [e0]; omega
  have h1 : ((((cfg1.win 3).blk t).view.emb (ix2 p d)) 1).val = d.val := by
    show win1_3.index t 1 * 256 + 1 * d.val = _; rw [e1]; omega
  refine Finset.sum_congr rfl fun j _ => ?_
  rw [iblk1_0_apply V c t (ix2 p j) (ix2 ((((cfg1.win 3).blk t).view.emb (ix2 p d)) 0) j) h0 rfl,
    iblk1_1_apply V c t (ix1 p) (ix1 ((((cfg1.win 3).blk t).view.emb (ix2 p d)) 0)) h0,
    iblk1_2_apply V c t (ix2 j d)]
  refine congrArg (_ * V c main_arg2 ·) ?_
  exact funext fun a => Fin.ext (by match a with | ⟨0, _⟩ => rfl | ⟨1, _⟩ => exact h1.symm)

/-- An index of the array is in point `t`'s block iff each coordinate is in the block's range on its axis. -/
theorem mem_blk1_3 (t : Fin cfg1.N) (i : S4096x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v8).slice (win1_3.rect t)).set ↔ _
  rw [View.set_slice_whole, Rect.mem_set_unit]
  exact Iff.rfl

/-- Every index of the output array is in the block of the point its row falls in. -/
theorem cover1_3_arr (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 4 := N_1
  let t : Fin cfg1.N := ⟨(i 0).val / 1024, by rw [hN]; omega⟩
  obtain ⟨-, -, -, -, -, e0, e1⟩ := idx_facts1 t
  refine ⟨t, flush1_3 t, ?_⟩
  rw [mem_blk1_3]
  intro a
  have htv : t.val = (i 0).val / 1024 := rfl
  match a with
  | ⟨0, _⟩ => show win1_3.index t (0 : Fin 2) * 1024 ≤ (i 0).val ∧ (i 0).val < win1_3.index t (0 : Fin 2) * 1024 + 1024; rw [e0, htv]; omega
  | ⟨1, _⟩ => show win1_3.index t (1 : Fin 2) * 256 ≤ (i 1).val ∧ (i 1).val < win1_3.index t (1 : Fin 2) * 256 + 256; rw [e1]; omega

/-- The output array after region 1 is the projection of the arrays as the region finds them. -/
theorem arr1_eq (c : Dev nD) :
    (dat1 V c).arrAt 3 cfg1.N = proj (V c main_arg1) (V c main_v4) (V c main_arg2) :=
  (dat1 V c).arrAt_eq_of_cover 3 (proj (V c main_arg1) (V c main_v4) (V c main_arg2))
    (fun t _ => flushed1_3_eq V c t) (cover1_3_arr)

/-- Index by index (`proj_apply` spells the right side as the sum over `j`). -/
theorem arr1_proj (c : Dev nD) (u : Fin 4096) (d : Fin 256) :
    (dat1 V c).arrAt 3 cfg1.N (ix2 u d) = proj (V c main_arg1) (V c main_v4) (V c main_arg2) (ix2 u d) :=
  congrFun (arr1_eq V c) (ix2 u d)

end Cert.KernelIdeal.Val

end
-- ==== Proof.KI.Val3.lean ====
/-
  Region 3, the value of its output array after the region: at row `u` and column `d` it is the sum over `j` of the
  input's entry `(u, j)`, times the source scale of row `u`, times the weight at `(j, d)`. Each of the four row blocks
  of 1024 rows is written once, from the same rows of the input and of the scales and from the whole weight matrix.
-/
import proofs.«144456_j68298569941180_2_alg».proof.Proof.KI.Region3
import proofs.«144456_j68298569941180_2_alg».proof.Proof.KI.ValProj

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of region 3's windows at each grid point: row block `t` of the input, of the scales and of
    the output; the weight's one block. -/
theorem idx_facts3 : ∀ t : Fin cfg3.N, win3_0.index t (0 : Fin 2) = t.val ∧ win3_0.index t (1 : Fin 2) = 0
    ∧ win3_1.index t (0 : Fin 1) = t.val
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input's block at point `t` is rows `1024 t … 1024 t + 1023` of the input. -/
theorem iblk3_0_apply (c : Dev nD) (t : Fin cfg3.N) (x : S1024x256.Idx) (k : S4096x256.Idx)
    (hk0 : (k 0).val = 1024 * t.val + (x 0).val) (hk1 : (k 1).val = (x 1).val) :
    (iblk3 V c 0 t : Vec Ideal S1024x256 .f32) x = (V c main_v9 : S4096x256.Idx → EReal) k := by
  obtain ⟨e0, e1, -⟩ := idx_facts3 t
  unfold iblk3
  rw [View.read_apply]
  show V c main_v9 _ = V c main_v9 _
  refine congrArg (V c main_v9) (funext fun a => Fin.ext ?_)
  match a with
  | ⟨0, _⟩ => show win3_0.index t 0 * 1024 + 1 * (x 0).val = (k 0).val; rw [e0, hk0]; omega
  | ⟨1, _⟩ => show win3_0.index t 1 * 256 + 1 * (x 1).val = (k 1).val; rw [e1, hk1]; omega

/-- The scales' block at point `t` is entries `1024 t … 1024 t + 1023` of the scales. -/
theorem iblk3_1_apply (c : Dev nD) (t : Fin cfg3.N) (x : S1024.Idx) (k : S4096.Idx)
    (hk0 : (k 0).val = 1024 * t.val + (x 0).val) :
    (iblk3 V c 1 t : Vec Ideal S1024 .f32) x = (V c main_v4 : S4096.Idx → EReal) k := by
  obtain ⟨-, -, e0, -⟩ := idx_facts3 t
  unfold iblk3
  rw [View.read_apply]
  show V c main_v4 _ = V c main_v4 _
  refine congrArg (V c main_v4) (funext fun a => Fin.ext ?_)
  match a with
  | ⟨0, _⟩ => show win3_1.index t 0 * 1024 + 1 * (x 0).val = (k 0).val; rw [e0, hk0]; omega

/-- The weight's block at every point is the whole weight matrix. -/
theorem iblk3_2_apply (c : Dev nD) (t : Fin cfg3.N) (x : S256x256.Idx) :
    (iblk3 V c 2 t : Vec Ideal S256x256 .f32) x = (V c main_arg4 : S256x256.Idx → EReal) x := by
  obtain ⟨-, -, -, e0, e1, -⟩ := idx_facts3 t
  unfold iblk3
  rw [View.read_apply]
  show V c main_arg4 _ = V c main_arg4 _
  refine congrArg (V c main_arg4) (funext fun a => Fin.ext ?_)
  match a with
  | ⟨0, _⟩ => show win3_2.index t 0 * 256 + 1 * (x 0).val = (x 0).val; rw [e0]; omega
  | ⟨1, _⟩ => show win3_2.index t 1 * 256 + 1 * (x 1).val = (x 1).val; rw [e1]; omega

/-- What point `t` writes back is block `t` of the projection of the arrays as the region finds them. -/
theorem flushed3_3_eq (c : Dev nD) (t : Fin cfg3.N) :
    (dat3 V c).flushed 3 t
      = ((cfg3.win 3).blk t).view.read (Elt Ideal) (proj (V c main_v9) (V c main_v4) (V c main_arg4)) := by
  show (cfg3.win 3).cut (grid3.coords t) ((dat3 V c).after 3 t) = _
  rw [after3_3]
  unfold out3_3
  rw [View.canon_unit_zero projHz2]
  simp only [View.ld_unit_zero (S := S1024x256) projHz2, View.ld_unit_zero (S := S1024) projHz1, View.ld_unit_zero (S := S256x256) projHz2]
  obtain ⟨-, -, -, -, -, e0, e1⟩ := idx_facts3 t
  funext y
  obtain ⟨p, d, rfl⟩ : ∃ (p : Fin 1024) (d : Fin 256), y = ix2 p d := ⟨y 0, y 1, eq_ix2 y⟩
  show k3_pay1 (iblk3 V c 0 t) (iblk3 V c 1 t) (iblk3 V c 2 t) (ix2 p d)
    = proj (V c main_v9) (V c main_v4) (V c main_arg4) (((cfg3.win 3).blk t).view.emb (ix2 p d))
  refine (k3_pay1_apply _ _ _ p d).trans ?_
  unfold proj
  have h0 : ((((cfg3.win 3).blk t).view.emb (ix2 p d)) 0).val = 1024 * t.val + p.val := by
    show win3_3.index t 0 * 1024 + 1 * p.val = _; rw [e0]; omega
  have h1 : ((((cfg3.win 3).blk t).view.emb (ix2 p d)) 1).val = d.val := by
    show win3_3.index t 1 * 256 + 1 * d.val = _; rw [e1]; omega
  refine Finset.sum_congr rfl fun j _ => ?_
  rw [iblk3_0_apply V c t (ix2 p j) (ix2 ((((cfg3.win 3).blk t).view.emb (ix2 p d)) 0) j) h0 rfl,
    iblk3_1_apply V c t (ix1 p) (ix1 ((((cfg3.win 3).blk t).view.emb (ix2 p d)) 0)) h0,
    iblk3_2_apply V c t (ix2 j d)]
  refine congrArg (_ * V c main_arg4 ·) ?_
  exact funext fun a => Fin.ext (by match a with | ⟨0, _⟩ => rfl | ⟨1, _⟩ => exact h1.symm)

/-- An index of the array is in point `t`'s block iff each coordinate is in the block's range on its axis. -/
theorem mem_blk3_3 (t : Fin cfg3.N) (i : S4096x256.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v10).slice (win3_3.rect t)).set ↔ _
  rw [View.set_slice_whole, Rect.mem_set_unit]
  exact Iff.rfl

/-- Every index of the output array is in the block of the point its row falls in. -/
theorem cover3_3_arr (i : S4096x256.Idx) :
    ∃ t : Fin cfg3.N, (cfg3.win 3).flush t = true ∧ i ∈ ((cfg3.win 3).blk t).view.set := by
  have hi0 : (i 0).val < 4096 := (i 0).isLt
  have hi1 : (i 1).val < 256 := (i 1).isLt
  have hN : cfg3.N = 4 := N_3
  let t : Fin cfg3.N := ⟨(i 0).val / 1024, by rw [hN]; omega⟩
  obtain ⟨-, -, -, -, -, e0, e1⟩ := idx_facts3 t
  refine ⟨t, flush3_3 t, ?_⟩
  rw [mem_blk3_3]
  intro a
  have htv : t.val = (i 0).val / 1024 := rfl
  match a with
  | ⟨0, _⟩ => show win3_3.index t (0 : Fin 2) * 1024 ≤ (i 0).val ∧ (i 0).val < win3_3.index t (0 : Fin 2) * 1024 + 1024; rw [e0, htv]; omega
  | ⟨1, _⟩ => show win3_3.index t (1 : Fin 2) * 256 ≤ (i 1).val ∧ (i 1).val < win3_3.index t (1 : Fin 2) * 256 + 256; rw [e1]; omega

/-- The output array after region 3 is the projection of the arrays as the region finds them. -/
theorem arr3_eq (c : Dev nD) :
    (dat3 V c).arrAt 3 cfg3.N = proj (V c main_v9) (V c main_v4) (V c main_arg4) :=
  (dat3 V c).arrAt_eq_of_cover 3 (proj (V c main_v9) (V c main_v4) (V c main_arg4))
    (fun t _ => flushed3_3_eq V c t) (cover3_3_arr)

/-- Index by index (`proj_apply` spells the right side as the sum over `j`). -/
theorem arr3_proj (c : Dev nD) (u : Fin 4096) (d : Fin 256) :
    (dat3 V c).arrAt 3 cfg3.N (ix2 u d) = proj (V c main_v9) (V c main_v4) (V c main_arg4) (ix2 u d) :=
  congrFun (arr3_eq V c) (ix2 u d)

end Cert.KernelIdeal.Val

end
-- ==== Proof.KI.Val2Pay.lean ====
import proofs.«144456_j68298569941180_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
# The aggregation kernel's three stored values, read at an index

The aggregation kernel keeps a `[1024, 256]` accumulator per block of output nodes. It first
stores zeros; then, for each block of 1024 source nodes, it adds to the accumulator the product of
the TRANSPOSED edge block with the projected features (entry `(r, d)` gains the sum over the
block's sources `u` of `edges (u, r) · features (u, d)`); and at the last block it stores the
accumulator times the destination's scale plus the bias, clamped below at zero. Here each of the
three stored values is read at a row `r` and a column `d`, over arbitrary loaded blocks.
-/

set_option maxRecDepth 16384

noncomputable section

namespace Cert.KernelIdeal.Val

open Cert.KernelIdeal Cert.KernelIdeal.Gen
open Idealize.ShloMosaic Idealize.ShloMosaic.ValueIdx

section Layout
variable {α : Type}

/-- A vector `[a]` viewed as the column `[a, 1]` reads, at `(i, u)`, the vector at `i`. -/
theorem col_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along `b` columns reads, at `(p, c)`, the column's entry at row `p`. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The transposed product's operand indices -/

/-- The product contracts the FIRST axis of both operands: at output `i` and contraction index `q`
    the left operand is read at `(q, i's row)`, the right at `(q, i's column)`. -/
theorem agg_lhs_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem agg_lhs_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide),
    dif_pos (show (1 : Fin S1024x1024.rank) ∈ dot_S1024x1024_S1024x256_S1024x256_0_0_1_1_n_n.lhsNonContracting by decide)]
  rfl
theorem agg_rhs_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem agg_rhs_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide),
    dif_pos (show (1 : Fin S1024x256.rank) ∈ dot_S1024x1024_S1024x256_S1024x256_0_0_1_1_n_n.rhsNonContracting by decide)]
  rfl

/-- At output `(r, d)` and contraction coordinate `k`: `(k, r)` on the left, `(k, d)` on the right. -/
theorem agg_lhsIdx (r : Fin 1024) (d : Fin 256) (k : Fin 1024) :
    dot_S1024x1024_S1024x256_S1024x256_0_0_1_1_n_n.lhsIdx (ix2 r d) ((contrEquiv1 dot_S1024x1024_S1024x256_S1024x256_0_0_1_1_n_n 1024 rfl rfl).symm k) = ix2 k r := by
  have hk := contrEquiv1_symm_val dot_S1024x1024_S1024x256_S1024x256_0_0_1_1_n_n 1024 rfl rfl k
  refine funext fun a => Fin.ext ?_
  match a with
  | ⟨0, _⟩ => exact (agg_lhs_0 _ _).trans hk
  | ⟨1, _⟩ => exact agg_lhs_1 _ _

theorem agg_rhsIdx (r : Fin 1024) (d : Fin 256) (k : Fin 1024) :
    dot_S1024x1024_S1024x256_S1024x256_0_0_1_1_n_n.rhsIdx (ix2 r d) ((contrEquiv1 dot_S1024x1024_S1024x256_S1024x256_0_0_1_1_n_n 1024 rfl rfl).symm k) = ix2 k d := by
  have hk := contrEquiv1_symm_val dot_S1024x1024_S1024x256_S1024x256_0_0_1_1_n_n 1024 rfl rfl k
  refine funext fun a => Fin.ext ?_
  match a with
  | ⟨0, _⟩ => exact (agg_rhs_0 _ _).trans hk
  | ⟨1, _⟩ => exact agg_rhs_1 _ _

/-! ## The three stored values of the first aggregation -/

/-- The zeroed accumulator: every entry is zero. -/
theorem k2_pay1_apply (r : Fin 1024) (d : Fin 256) : (k2_pay1 (F := Ideal)) (ix2 r d) = 0 := by
  unfold k2_pay1
  rw [shapeCast_self]
  exact Ideal.ofBits_zero_f32

/-- One accumulation step at local output row `r`, column `d`: the accumulator's entry plus the sum,
    over the block's source nodes `u`, of the edge count from `u` into `r` (COLUMN `r` of the edge
    block: the product contracts the first axis of both operands) times the projected feature of `u`. -/
theorem k2_pay2_apply (v3 : Vec Ideal S1024x1024 .bf16) (v8 : Vec Ideal S1024x256 .bf16) (v10 : Vec Ideal S1024x256 .f32)
    (r : Fin 1024) (d : Fin 256) :
    k2_pay2 v3 v8 v10 (ix2 r d) = v10 (ix2 r d) + ∑ u : Fin 1024, v3 (ix2 u r) * v8 (ix2 u d) := by
  unfold k2_pay2
  rw [shapeCast_self, addf_apply]
  refine congrArg (v10 (ix2 r d) + ·) ?_
  simp only [matmul]
  refine (Ideal.matmul_constant_zero_apply dot_S1024x1024_S1024x256_S1024x256_0_0_1_1_n_n none _ _ (ix2 r d)).trans ?_
  rw [← Equiv.sum_comp (contrEquiv1 dot_S1024x1024_S1024x256_S1024x256_0_0_1_1_n_n 1024 rfl rfl).symm]
  refine Finset.sum_congr rfl fun k _ => ?_
  rw [agg_lhsIdx, agg_rhsIdx, shapeCast_self, shapeCast_self]

/-- The last step at local output row `r`, column `d`: the accumulated sum times the row's scale,
    plus the column's bias, clamped below at zero. -/
theorem k2_pay3_apply (v19 : Vec Ideal S1024 .f32) (v21 : Vec Ideal S256 .f32) (v22 : Vec Ideal S1024x256 .f32)
    (r : Fin 1024) (d : Fin 256) :
    k2_pay3 v19 v21 v22 (ix2 r d) = max (v22 (ix2 r d) * v19 (ix1 r) + v21 (ix1 d)) 0 := by
  unfold k2_pay3
  rw [maximumf_apply, addf_apply, mulf_apply]
  have hcol : (broadcastTo S1024x256 (shapeCast S1024x1 (shapeCast S1024 v19 shapeCasts_S1024_S1024) shapeCasts_S1024_S1024x1)
      broadcasts_S1024x1_S1024x256 : FVec Ideal S1024x256 .f32) (ix2 r d) = v19 (ix1 r) := by
    refine (col_bcast_apply _ broadcasts_S1024x1_S1024x256 r d).trans ?_
    refine (col_cast_apply _ shapeCasts_S1024_S1024x1 r 0).trans ?_
    rw [shapeCast_self]
  have hrow : (broadcastTo S1024x256 (shapeCast S1x256 v21 shapeCasts_S256_S1x256) broadcasts_S1x256_S1024x256
      : FVec Ideal S1024x256 .f32) (ix2 r d) = v21 (ix1 d) := by
    refine (broadcastTo_1b_ab_apply _ broadcasts_S1x256_S1024x256 r d).trans ?_
    exact shapeCast_a_1a_apply _ shapeCasts_S256_S1x256 0 d
  rw [hcol, hrow]
  exact congrArg (max _) Ideal.ofBits_zero_f32

end Cert.KernelIdeal.Val

end
-- ==== Proof.KI.Val2Blk.lean ====
import proofs.«144456_j68298569941180_2_alg».proof.Proof.KI.Region2
import Idealize.ShloMosaic.Lib.Pipeline.Value
import Idealize.ShloMosaic.Lib.ValueIdx

/-!
# The output blocks of the first aggregation

The aggregation runs over a `4 × 4` grid: point `t` works on row block `t / 4` at reduction step
`t % 4`. Its output window's block at point `t` is rows `1024 (t / 4) … 1024 (t / 4) + 1023` of the
`[4096, 256]` output, all 256 columns, and it is written back at the last step of each row block.
So every index of the output lies in the block of the point `4 (row / 1024) + 3`, which is written
back.
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-- The output window's block index at each grid point: row block `t / 4`, the one column block. -/
theorem idx2_4 : ∀ t : Fin cfg2.N, win2_4.index t (0 : Fin 2) = t.val / 4 ∧ win2_4.index t (1 : Fin 2) = 0 :=
  (by decide +kernel : ∀ t : Fin grid2.N, _)

/-- An index of the output array is in point `t`'s block iff each coordinate is in the block's range on its axis. -/
theorem mem_blk2_4 (t : Fin cfg2.N) (i : S4096x256.Idx) :
    i ∈ ((cfg2.win 4).blk t).view.set ↔ ∀ a : Fin 2, win2_4.index t a * S1024x256.size a ≤ (i a).val ∧ (i a).val < win2_4.index t a * S1024x256.size a + S1024x256.size a := by
  show i ∈ ((View.whole main_v9).slice (win2_4.rect t)).set ↔ _
  rw [View.set_slice_whole, Rect.mem_set_unit]
  exact Iff.rfl

/-- Every index of the output array is in the block of a point that writes its block back: the last
    reduction step of the row block its row falls in. -/
theorem cover2_4_arr (i : S4096x256.Idx) :
    ∃ t : Fin cfg2.N, (cfg2.win 4).flush t = true ∧ i ∈ ((cfg2.win 4).blk t).view.set := by
  have hi0 : (i 0).val < 4096 := (i 0).isLt
  have hi1 : (i 1).val < 256 := (i 1).isLt
  have hN : cfg2.N = 16 := N_2
  let t : Fin cfg2.N := ⟨4 * ((i 0).val / 1024) + 3, by rw [hN]; omega⟩
  obtain ⟨e0, e1⟩ := idx2_4 t
  have htv : t.val = 4 * ((i 0).val / 1024) + 3 := rfl
  refine ⟨t, (flush2_4 t).mpr (by rw [htv]; omega), ?_⟩
  rw [mem_blk2_4]
  intro a
  match a with
  | ⟨0, _⟩ => show win2_4.index t (0 : Fin 2) * 1024 ≤ (i 0).val ∧ (i 0).val < win2_4.index t (0 : Fin 2) * 1024 + 1024; rw [e0, htv]; omega
  | ⟨1, _⟩ => show win2_4.index t (1 : Fin 2) * 256 ≤ (i 1).val ∧ (i 1).val < win2_4.index t (1 : Fin 2) * 256 + 256; rw [e1]; omega

/-- Local row `r`, column `d` of point `t`'s output block is row `1024 (t / 4) + r`, column `d` of the array. -/
theorem blk2_4_emb (t : Fin cfg2.N) (r : Fin 1024) (d : Fin 256) :
    ((((cfg2.win 4).blk t).view.emb (ix2 r d)) 0).val = 1024 * (t.val / 4) + r.val
      ∧ ((((cfg2.win 4).blk t).view.emb (ix2 r d)) 1).val = d.val := by
  obtain ⟨e0, e1⟩ := idx2_4 t
  constructor
  · show win2_4.index t 0 * 1024 + 1 * r.val = _; rw [e0]; omega
  · show win2_4.index t 1 * 256 + 1 * d.val = _; rw [e1]; omega

end Cert.KernelIdeal.Val

end
-- ==== Proof.KI.Val2.lean ====
/-
  Region 2, the value of its output array after the region, over the extended reals: at row `v` and column `d` it is
  the contraction over `u` of the first matrix's entry `(u, v)` with the second's `(u, d)`, times the scale of row `v`,
  plus the entry `d` of the row vector, negatives replaced by zero. The contraction is accumulated in four blocks of 1024
  values of `u`, one per reduction step; the accumulator after each grid point is found by induction on the point; only a
  row block's last step writes the output block back.
-/
import proofs.«144456_j68298569941180_2_alg».proof.Proof.KI.Region2
import proofs.«144456_j68298569941180_2_alg».proof.Proof.KI.Val2Pay
import proofs.«144456_j68298569941180_2_alg».proof.Proof.KI.Val2Blk
import proofs.«144456_j68298569941180_2_alg».proof.Proof.LibSumBlocks
import proofs.«144456_j68298569941180_2_alg».proof.Proof.KI.Rd
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Region-independent vocabulary -/

theorem agg_hz1 : (![0] : Fin 1 → Nat) = fun _ => 0 := funext fun a => by fin_cases a; rfl
theorem agg_hz2 : (![0, 0] : Fin 2 → Nat) = fun _ => 0 := funext fun a => by fin_cases a <;> rfl

/-- The part of the contraction over the rows `1024 k … 1024 k + 1023` (zero past the fourth block). -/
def aggBlock (C : Fin 4096 → Fin 4096 → EReal) (H : Fin 4096 → Fin 256 → EReal) (v : Fin 4096) (d : Fin 256) (k : ℕ) : EReal :=
  if h : k < 4 then ∑ u : Fin 1024, C ⟨1024 * k + u.val, by have := u.isLt; omega⟩ v * H ⟨1024 * k + u.val, by have := u.isLt; omega⟩ d else 0

/-- The four blocks make up the whole contraction. -/
theorem aggBlock_sum (C : Fin 4096 → Fin 4096 → EReal) (H : Fin 4096 → Fin 256 → EReal) (v : Fin 4096) (d : Fin 256) :
    ∑ k ∈ Finset.range 4, aggBlock C H v d k = ∑ u : Fin 4096, C u v * H u d := by
  rw [Cert.SumBlocks.sum_4x1024 (fun u => C u v * H u d), Finset.sum_range]
  refine Finset.sum_congr rfl fun k _ => ?_
  unfold aggBlock; rw [dif_pos k.isLt]

/-- The layer as one function of whole arrays: at row `v` and column `d`, the contraction over `u` of `C u v · H u d`,
    times the scale of row `v`, plus the entry `d` of the row vector, negatives replaced by zero. -/
def aggLayer (C : S4096x4096.Idx → EReal) (H : S4096x256.Idx → EReal) (s : S4096.Idx → EReal) (b : S256.Idx → EReal) : S4096x256.Idx → EReal :=
  fun i => max ((∑ u : Fin 4096, C (ix2 u (i 0)) * H (ix2 u (i 1))) * s (ix1 (i 0)) + b (ix1 (i 1))) 0

theorem aggLayer_apply (C : S4096x4096.Idx → EReal) (H : S4096x256.Idx → EReal) (s : S4096.Idx → EReal) (b : S256.Idx → EReal)
    (v : Fin 4096) (d : Fin 256) :
    aggLayer C H s b (ix2 v d) = max ((∑ u : Fin 4096, C (ix2 u v) * H (ix2 u d)) * s (ix1 v) + b (ix1 d)) 0 := rfl

/-- Components of a pair known as a pair. -/
theorem agg_fst_of_eq {α β : Type} {p : α × β} {a : α} {b : β} (h : p = (a, b)) : p.1 = a := by subst h; rfl
theorem agg_snd_of_eq {α β : Type} {p : α × β} {a : α} {b : β} (h : p = (a, b)) : p.2 = b := by subst h; rfl

/-! ## What each case leaves, as a payload of the loaded blocks -/

section Pieces2
variable {F : FTy → Type} [FloatOps F]

/-- The rows of the whole second matrix the body loads at grid coordinates `i`: 1024 rows from the offset the kernel
    computes from the reduction step. -/
def slice2 (i : grid2.Coords) (x1 : Vec F S4096x256 .bf16) : Vec F S1024x256 .bf16 :=
  View.ld x1 (Rect.unit (s := S4096x256) (k2_off1 i) S1024x256.size (k2_off1_inb i))

/-- A middle step leaves the accumulator at the product added to what it held. -/
theorem sout2_B_0_eq (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : ¬cond2_1 i) (x0 : Vec F S1024x1024 .bf16) (x1 : Vec F S4096x256 .bf16) (xs0 : Vec F S1024x256 .f32) :
    sout2_B_0 c i arg2 harg2 arg3 harg3 arg4 harg4 arg5 harg5 arg6 harg6 arg7 harg7 hc0 hc1 x0 x1 xs0 = k2_pay2 x0 (slice2 i x1) xs0 := by
  unfold sout2_B_0
  rw [View.read_writes_eq_canon _ _ _ (scover2_B_0 c i arg2 harg2 arg3 harg3 arg4 harg4 arg5 harg5 arg6 harg6 arg7 harg7 hc0 hc1 x0 x1 xs0)]
  unfold kernelRun2_B
  dsimp only
  rw [View.canon_unit_zero agg_hz2]
  simp only [View.readAt_eq_ld, harg2.read_unread, harg3.read_unread, harg7.read_unread,
    View.ld_unit_zero (S := S1024x1024) agg_hz2, View.ld_unit_zero (S := S1024x256) agg_hz2]
  rfl

/-- The first step zeroes the accumulator, reads the zeros back and leaves the product added to them. -/
theorem sout2_A_0_eq (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond2_0 i) (hc1 : ¬cond2_1 i) (x0 : Vec F S1024x1024 .bf16) (x1 : Vec F S4096x256 .bf16) :
    sout2_A_0 c i arg2 harg2 arg3 harg3 arg4 harg4 arg5 harg5 arg6 harg6 arg7 harg7 hc0 hc1 x0 x1 = k2_pay2 x0 (slice2 i x1) k2_pay1 := by
  unfold sout2_A_0
  rw [View.read_writes_eq_canon _ _ _ (scover2_A_0 c i arg2 harg2 arg3 harg3 arg4 harg4 arg5 harg5 arg6 harg6 arg7 harg7 hc0 hc1 x0 x1)]
  unfold kernelRun2_A
  dsimp only
  sl_unfold_words
  rw [View.canon_cons_unit_zero (S := S1024x256) agg_hz2, View.readCov_unit_zero (S := S1024x256) _ agg_hz2]
  simp only [View.readAt_eq_ld, harg2.read_unread, harg3.read_unread,
    View.ld_unit_zero (S := S1024x1024) agg_hz2, View.ld_unit_zero (S := S1024x256) agg_hz2]
  rfl

/-- The last step leaves the accumulator as a middle step does, -/
theorem sout2_C_0_eq (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) :
    sout2_C_0 c i arg2 harg2 arg3 harg3 arg4 harg4 arg5 harg5 arg6 harg6 arg7 harg7 hc0 hc1 x0 x1 x2 x3 xs0 = k2_pay2 x0 (slice2 i x1) xs0 := by
  unfold sout2_C_0
  rw [View.read_writes_eq_canon _ _ _ (scover2_C_0 c i arg2 harg2 arg3 harg3 arg4 harg4 arg5 harg5 arg6 harg6 arg7 harg7 hc0 hc1 x0 x1 x2 x3 xs0)]
  unfold kernelRun2_C
  dsimp only
  sl_unfold_words
  rw [View.canon_unit_zero agg_hz2]
  simp only [View.readAt_eq_ld, harg2.read_unread, harg3.read_unread, harg7.read_unread,
    View.ld_unit_zero (S := S1024x1024) agg_hz2, View.ld_unit_zero (S := S1024x256) agg_hz2]
  rfl

/-- and the output block at the final payload of that accumulator, the row scales and the row vector. -/
theorem out2_C_4_eq (c : Dev nD) (i : grid2.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond2_0 i) (hc1 : cond2_1 i) (x0 : Vec F S1024x1024 .bf16) (x1 : Vec F S4096x256 .bf16) (x2 : Vec F S1024 .f32) (x3 : Vec F S256 .f32)
    (xs0 : Vec F S1024x256 .f32) :
    out2_C_4 c i arg2 harg2 arg3 harg3 arg4 harg4 arg5 harg5 arg6 harg6 arg7 harg7 hc0 hc1 x0 x1 x2 x3 xs0 = k2_pay3 x2 x3 (k2_pay2 x0 (slice2 i x1) xs0) := by
  unfold out2_C_4
  rw [View.read_writes_eq_canon _ _ _ (cover2_C_4 c i arg2 harg2 arg3 harg3 arg4 harg4 arg5 harg5 arg6 harg6 arg7 harg7 hc0 hc1 x0 x1 x2 x3 xs0)]
  unfold kernelRun2_C
  dsimp only
  sl_unfold_words
  rw [View.canon_unit_zero agg_hz2, View.readCov_unit_zero (S := S1024x256) _ agg_hz2]
  simp only [View.readAt_eq_ld, harg2.read_unread, harg3.read_unread, harg4.read_unread, harg5.read_unread, harg7.read_unread,
    View.ld_unit_zero (S := S1024x1024) agg_hz2, View.ld_unit_zero (S := S1024x256) agg_hz2,
    View.ld_unit_zero (S := S1024) agg_hz1, View.ld_unit_zero (S := S256) agg_hz1]
  rfl

/-- The loaded rows at local row `u` and column `d`: row `1024 k + u` of the whole matrix, `k` the reduction step. -/
theorem slice2_apply (i : grid2.Coords) (x1 : Vec F S4096x256 .bf16) (u : Fin 1024) (d : Fin 256) (k : S4096x256.Idx)
    (hk0 : (k 0).val = 1024 * (i 1).val + u.val) (hk1 : (k 1).val = d.val) :
    slice2 i x1 (ix2 u d) = x1 k := by
  unfold slice2
  show x1 _ = x1 _
  refine congrArg x1 (funext fun a => Fin.ext ?_)
  match a with
  | ⟨0, _⟩ => show (k2_off1 i) 0 + 1 * u.val = (k 0).val; rw [k2_off1_eq, hk0]; show 1024 * (i 1).val + 1 * u.val = _; omega
  | ⟨1, _⟩ => show (k2_off1 i) 1 + 1 * d.val = (k 1).val; rw [k2_off1_eq, hk1]; show 0 + 1 * d.val = _; omega

end Pieces2

/-! ## The blocks the body reads, as entries of the arrays -/

section Region2
variable (V : (c : Dev nD) → (b : Ref sig .tc) → Buf (Elt Ideal) ((c : Thread nD τ).loc b))

/-- The block indices of region 2's windows at each grid point `t = 4 i + k` (row block `i`, reduction step `k`):
    block `(k, i)` of the first matrix, the whole second matrix, block `i` of the row scales, the whole row vector,
    block `i` of the output; and the reduction step as the body reads it off the grid coordinates. -/
theorem idx_facts2 : ∀ t : Fin cfg2.N, win2_0.index t (0 : Fin 2) = t.val % 4 ∧ win2_0.index t (1 : Fin 2) = t.val / 4
    ∧ win2_1.index t (0 : Fin 2) = 0 ∧ win2_1.index t (1 : Fin 2) = 0
    ∧ win2_2.index t (0 : Fin 1) = t.val / 4
    ∧ win2_3.index t (0 : Fin 1) = 0
    ∧ win2_4.index t (0 : Fin 2) = t.val / 4 ∧ win2_4.index t (1 : Fin 2) = 0
    ∧ ((grid2.coords t) 1).val = t.val % 4 :=
  (by decide +kernel : ∀ t : Fin grid2.N, _)

/-- The first matrix's block at point `t`: rows `1024 k …`, columns `1024 i …`. -/
theorem iblk2_0_apply (c : Dev nD) (t : Fin cfg2.N) (x : S1024x1024.Idx) (k : S4096x4096.Idx)
    (hk0 : (k 0).val = 1024 * (t.val % 4) + (x 0).val) (hk1 : (k 1).val = 1024 * (t.val / 4) + (x 1).val) :
    (iblk2 V c 0 t : Vec Ideal S1024x1024 .bf16) x = (V c main_v0_0 : S4096x4096.Idx → EReal) k := by
  obtain ⟨e0, e1, -⟩ := idx_facts2 t
  unfold iblk2
  rw [View.read_apply]
  show V c main_v0_0 _ = V c main_v0_0 _
  refine congrArg (V c main_v0_0) (funext fun a => Fin.ext ?_)
  match a with
  | ⟨0, _⟩ => show win2_0.index t 0 * 1024 + 1 * (x 0).val = (k 0).val; rw [e0, hk0]; omega
  | ⟨1, _⟩ => show win2_0.index t 1 * 1024 + 1 * (x 1).val = (k 1).val; rw [e1, hk1]; omega

/-- The second matrix's block at every point is the whole matrix. -/
theorem iblk2_1_apply (c : Dev nD) (t : Fin cfg2.N) (x : S4096x256.Idx) :
    (iblk2 V c 1 t : Vec Ideal S4096x256 .bf16) x = (V c main_v8 : S4096x256.Idx → EReal) x := by
  obtain ⟨-, -, e0, e1, -⟩ := idx_facts2 t
  unfold iblk2
  rw [View.read_apply]
  show V c main_v8 _ = V c main_v8 _
  refine congrArg (V c main_v8) (funext fun a => Fin.ext ?_)
  match a with
  | ⟨0, _⟩ => show win2_1.index t 0 * 4096 + 1 * (x 0).val = (x 0).val; rw [e0]; omega
  | ⟨1, _⟩ => show win2_1.index t 1 * 256 + 1 * (x 1).val = (x 1).val; rw [e1]; omega

/-- The row scales' block at point `t`: entries `1024 i …`. -/
theorem iblk2_2_apply (c : Dev nD) (t : Fin cfg2.N) (x : S1024.Idx) (k : S4096.Idx)
    (hk0 : (k 0).val = 1024 * (t.val / 4) + (x 0).val) :
    (iblk2 V c 2 t : Vec Ideal S1024 .f32) x = (V c main_v7 : S4096.Idx → EReal) k := by
  obtain ⟨-, -, -, -, e0, -⟩ := idx_facts2 t
  unfold iblk2
  rw [View.read_apply]
  show V c main_v7 _ = V c main_v7 _
  refine congrArg (V c main_v7) (funext fun a => Fin.ext ?_)
  match a with
  | ⟨0, _⟩ => show win2_2.index t 0 * 1024 + 1 * (x 0).val = (k 0).val; rw [e0, hk0]; omega

/-- The row vector's block at every point is the whole vector. -/
theorem iblk2_3_apply (c : Dev nD) (t : Fin cfg2.N) (x : S256.Idx) :
    (iblk2 V c 3 t : Vec Ideal S256 .f32) x = (V c main_arg3 : S256.Idx → EReal) x := by
  obtain ⟨-, -, -, -, -, e0, -⟩ := idx_facts2 t
  unfold iblk2
  rw [View.read_apply]
  show V c main_arg3 _ = V c main_arg3 _
  refine congrArg (V c main_arg3) (funext fun a => Fin.ext ?_)
  match a with
  | ⟨0, _⟩ => show win2_3.index t 0 * 256 + 1 * (x 0).val = (x 0).val; rw [e0]; omega

end Region2

section Value2
variable (V : (c : Dev nD) → (b : Ref sig .tc) → Buf (Elt Ideal) ((c : Thread nD τ).loc b))

/-- The table of what the points leave, component by component. -/
theorem outsAt2_A_snd (c : Dev nD) (t : Fin cfg2.N) (h0 : t.val % 4 = 0) (h1 : ¬t.val % 4 = 3) :
    (outsAt2 V c t.val t.isLt).2 = sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) :=
  agg_snd_of_eq (outsAt2_A V c t h0 h1)
theorem outsAt2_B_snd (c : Dev nD) (t : Fin cfg2.N) (h0 : ¬t.val % 4 = 0) (h1 : ¬t.val % 4 = 3) :
    (outsAt2 V c t.val t.isLt).2 = sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2 :=
  agg_snd_of_eq (outsAt2_B V c t h0 h1)
theorem outsAt2_C_snd (c : Dev nD) (t : Fin cfg2.N) (h0 : ¬t.val % 4 = 0) (h1 : t.val % 4 = 3) :
    (outsAt2 V c t.val t.isLt).2 = sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2 :=
  agg_snd_of_eq (outsAt2_C V c t h0 h1)
theorem outsAt2_C_fst (c : Dev nD) (t : Fin cfg2.N) (h0 : ¬t.val % 4 = 0) (h1 : t.val % 4 = 3) :
    (outsAt2 V c t.val t.isLt).1 = out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2 :=
  agg_fst_of_eq (outsAt2_C V c t h0 h1)

/-- The product the body forms at point `t = 4 i + k`, at local row `r` and column `d`, is block `k` of the
    contraction at row `1024 i + r`. -/
theorem term2_eq (c : Dev nD) (t : Fin cfg2.N) (r : Fin 1024) (d : Fin 256) (v : Fin 4096) (hv : v.val = 1024 * (t.val / 4) + r.val) :
    (∑ u : Fin 1024, rd S1024x1024 (iblk2 V c 0 t) (ix2 u r) * rd S1024x256 (slice2 (grid2.coords t) (iblk2 V c 1 t)) (ix2 u d))
      = aggBlock (fun u v => (V c main_v0_0 : S4096x4096.Idx → EReal) (ix2 u v)) (fun u d => (V c main_v8 : S4096x256.Idx → EReal) (ix2 u d)) v d (t.val % 4) := by
  obtain ⟨-, -, -, -, -, -, -, -, ek⟩ := idx_facts2 t
  have hk : t.val % 4 < 4 := Nat.mod_lt _ (by decide)
  unfold aggBlock; rw [dif_pos hk]
  refine Finset.sum_congr rfl fun u _ => ?_
  have hu := u.isLt
  refine congrArg₂ (· * ·) ?_ ?_
  · exact iblk2_0_apply V c t (ix2 u r) (ix2 ⟨1024 * (t.val % 4) + u.val, by omega⟩ v) rfl hv
  · exact (slice2_apply (grid2.coords t) (iblk2 V c 1 t) u d (ix2 ⟨1024 * (t.val % 4) + u.val, by omega⟩ d)
      (by show _ = 1024 * ((grid2.coords t) 1).val + u.val; rw [ek]) rfl).trans (iblk2_1_apply V c t _)

/-- ONE STEP of the accumulation: if before point `t` (when `t` is not a first reduction step) the accumulator holds
    the blocks before `t`'s of the contraction, after it it holds those up to `t`'s. -/
theorem acc2_step (c : Dev nD) (t : Fin cfg2.N)
    (ih : t.val % 4 ≠ 0 → ∀ (r : Fin 1024) (d : Fin 256) (v : Fin 4096), v.val = 1024 * ((t.val - 1) / 4) + r.val →
      rd S1024x256 (outsAt2 V c (t.val - 1) (Nat.lt_of_le_of_lt (Nat.sub_le _ _) t.isLt)).2 (ix2 r d) = ∑ k ∈ Finset.range ((t.val - 1) % 4 + 1), aggBlock (fun u v => (V c main_v0_0 : S4096x4096.Idx → EReal) (ix2 u v)) (fun u d => (V c main_v8 : S4096x256.Idx → EReal) (ix2 u d)) v d k)
    (r : Fin 1024) (d : Fin 256) (v : Fin 4096) (hv : v.val = 1024 * (t.val / 4) + r.val) :
    rd S1024x256 (outsAt2 V c t.val t.isLt).2 (ix2 r d) = ∑ k ∈ Finset.range (t.val % 4 + 1), aggBlock (fun u v => (V c main_v0_0 : S4096x4096.Idx → EReal) (ix2 u v)) (fun u d => (V c main_v8 : S4096x256.Idx → EReal) (ix2 u d)) v d k := by
  by_cases h0 : t.val % 4 = 0
  · have h1 : ¬t.val % 4 = 3 := by omega
    refine (congrFun (outsAt2_A_snd V c t h0 h1) (ix2 r d)).trans ?_
    refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t)) (ix2 r d)).trans ?_
    refine (k2_pay2_apply _ _ _ r d).trans ?_
    refine (congrArg₂ (· + ·) (k2_pay1_apply r d) (term2_eq V c t r d v hv)).trans ?_
    rw [zero_add, h0, Finset.sum_range_one]
  · have e1 : (t.val - 1) % 4 + 1 = t.val % 4 := by omega
    have e2 : (t.val - 1) / 4 = t.val / 4 := by omega
    have hprev := ih h0 r d v (by rw [e2]; exact hv)
    rw [e1] at hprev
    by_cases h1 : t.val % 4 = 3
    · refine (congrFun (outsAt2_C_snd V c t h0 h1) (ix2 r d)).trans ?_
      refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) (ix2 r d)).trans ?_
      refine (k2_pay2_apply _ _ _ r d).trans ?_
      refine (congrArg₂ (· + ·) hprev (term2_eq V c t r d v hv)).trans ?_
      exact (Finset.sum_range_succ _ _).symm
    · refine (congrFun (outsAt2_B_snd V c t h0 h1) (ix2 r d)).trans ?_
      refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) (ix2 r d)).trans ?_
      refine (k2_pay2_apply _ _ _ r d).trans ?_
      refine (congrArg₂ (· + ·) hprev (term2_eq V c t r d v hv)).trans ?_
      exact (Finset.sum_range_succ _ _).symm

/-- THE ACCUMULATOR after the body at position `n = 4 i + k`: at local row `r` and column `d`, the blocks `0 … k` of
    the contraction at row `1024 i + r`. By induction on the point. -/
theorem acc2_eq (c : Dev nD) : ∀ (n : ℕ) (hn : n < cfg2.N) (r : Fin 1024) (d : Fin 256) (v : Fin 4096), v.val = 1024 * (n / 4) + r.val →
    rd S1024x256 (outsAt2 V c n hn).2 (ix2 r d) = ∑ k ∈ Finset.range (n % 4 + 1), aggBlock (fun u v => (V c main_v0_0 : S4096x4096.Idx → EReal) (ix2 u v)) (fun u d => (V c main_v8 : S4096x256.Idx → EReal) (ix2 u d)) v d k
  | 0, hn => acc2_step V c ⟨0, hn⟩ (fun h => absurd rfl h)
  | n + 1, hn => acc2_step V c ⟨n + 1, hn⟩ (fun _ => acc2_eq c n (Nat.lt_of_succ_lt hn))

/-- At a last reduction step the output block is the final payload of the accumulator the step leaves. -/
theorem out2_last (c : Dev nD) (t : Fin cfg2.N) (h1 : t.val % 4 = 3) :
    (outsAt2 V c t.val t.isLt).1 = k2_pay3 (iblk2 V c 2 t) (iblk2 V c 3 t) (outsAt2 V c t.val t.isLt).2 := by
  have h0 : ¬t.val % 4 = 0 := by omega
  refine (outsAt2_C_fst V c t h0 h1).trans ?_
  refine (out2_C_4_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2).trans ?_
  refine congrArg (k2_pay3 (iblk2 V c 2 t) (iblk2 V c 3 t)) ?_
  exact ((outsAt2_C_snd V c t h0 h1).trans
    (sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2)).symm

/-- What a last reduction step writes back is its block of the layer of the arrays as the region finds them. -/
theorem flushed2_4_eq (c : Dev nD) (t : Fin cfg2.N) (hf : (cfg2.win 4).flush t = true) :
    (dat2 V c).flushed 4 t
      = ((cfg2.win 4).blk t).view.read (Elt Ideal) (aggLayer (V c main_v0_0) (V c main_v8) (V c main_v7) (V c main_arg3)) := by
  have h1 : t.val % 4 = 3 := (flush2_4 t).mp hf
  show (cfg2.win 4).cut (grid2.coords t) ((dat2 V c).after 4 t) = _
  rw [after2_4, out2_last V c t h1]
  obtain ⟨-, -, -, -, -, -, e0, e1, -⟩ := idx_facts2 t
  funext y
  obtain ⟨r, d, rfl⟩ : ∃ (r : Fin 1024) (d : Fin 256), y = ix2 r d := ⟨y 0, y 1, eq_ix2 y⟩
  have hr := r.isLt
  have hN : t.val < 16 := lt_of_lt_of_eq t.isLt (show cfg2.N = 16 from N_2)
  obtain ⟨v, hv⟩ : ∃ v : Fin 4096, v.val = 1024 * (t.val / 4) + r.val := ⟨⟨1024 * (t.val / 4) + r.val, by omega⟩, rfl⟩
  have hemb : ((cfg2.win 4).blk t).view.emb (ix2 r d) = ix2 v d := funext fun a => Fin.ext (by
    match a with
    | ⟨0, _⟩ => show win2_4.index t 0 * 1024 + 1 * r.val = v.val; rw [e0, hv]; omega
    | ⟨1, _⟩ => show win2_4.index t 1 * 256 + 1 * d.val = d.val; rw [e1]; omega)
  show k2_pay3 (iblk2 V c 2 t) (iblk2 V c 3 t) (outsAt2 V c t.val t.isLt).2 (ix2 r d)
    = aggLayer (V c main_v0_0) (V c main_v8) (V c main_v7) (V c main_arg3) (((cfg2.win 4).blk t).view.emb (ix2 r d))
  refine Eq.trans ?_ (congrArg (aggLayer (V c main_v0_0) (V c main_v8) (V c main_v7) (V c main_arg3)) hemb.symm)
  refine (k2_pay3_apply _ _ _ r d).trans ?_
  have hacc := acc2_eq V c t.val t.isLt r d v hv
  rw [h1, show (3 + 1 : ℕ) = 4 from rfl, aggBlock_sum] at hacc
  refine congrArg (max · (0 : EReal)) ?_
  refine congrArg₂ (· + ·) (congrArg₂ (· * ·) hacc ?_) ?_
  · exact iblk2_2_apply V c t (ix1 r) (ix1 v) hv
  · exact iblk2_3_apply V c t (ix1 d)

end Value2

section Array2
variable (V : (c : Dev nD) → (b : Ref sig .tc) → Buf (Elt Ideal) ((c : Thread nD τ).loc b))

/-- The output array after region 2 is the layer of the arrays as the region finds them: every row lies in the block
    of one row block's last reduction step, and only those steps write back. -/
theorem arr2_eq (c : Dev nD) : (dat2 V c).arrAt 4 cfg2.N = aggLayer (V c main_v0_0) (V c main_v8) (V c main_v7) (V c main_arg3) :=
  (dat2 V c).arrAt_eq_of_cover 4 (aggLayer (V c main_v0_0) (V c main_v8) (V c main_v7) (V c main_arg3)) (fun t hf => flushed2_4_eq V c t hf) cover2_4_arr

/-- Index by index. -/
theorem arr2_layer (c : Dev nD) (v : Fin 4096) (d : Fin 256) : rd S4096x256 ((dat2 (F := Ideal) V c).arrAt 4 cfg2.N) (ix2 v d)
    = (max ((∑ u : Fin 4096, rd S4096x4096 (V c main_v0_0) (ix2 u v) * rd S4096x256 (V c main_v8) (ix2 u d)) * rd S4096 (V c main_v7) (ix1 v)
        + rd S256 (V c main_arg3) (ix1 d)) (0 : EReal) : EReal) :=
  congrFun (arr2_eq V c) (ix2 v d)

end Array2

end Cert.KernelIdeal.Val

end
-- ==== Proof.KI.Val4Pay.lean ====
import proofs.«144456_j68298569941180_2_alg».proof.Proof.KI.Val2Pay

/-!
# The second aggregation kernel's three stored values, read at an index

The second layer aggregates with the same kernel as the first: zeros, then one transposed product
per block of source nodes added to the accumulator, then the scale, the bias and the clamp at
zero. Each stored value is read at a row `r` and a column `d`, over arbitrary loaded blocks.
-/

set_option maxRecDepth 16384

noncomputable section

namespace Cert.KernelIdeal.Val

open Cert.KernelIdeal Cert.KernelIdeal.Gen
open Idealize.ShloMosaic Idealize.ShloMosaic.ValueIdx

/-! ## The three stored values of the second aggregation -/

/-- The zeroed accumulator: every entry is zero. -/
theorem k4_pay1_apply (r : Fin 1024) (d : Fin 256) : (k4_pay1 (F := Ideal)) (ix2 r d) = 0 := by
  unfold k4_pay1
  rw [shapeCast_self]
  exact Ideal.ofBits_zero_f32

/-- One accumulation step at local output row `r`, column `d`: the accumulator's entry plus the sum,
    over the block's source nodes `u`, of the edge count from `u` into `r` (COLUMN `r` of the edge
    block: the product contracts the first axis of both operands) times the projected feature of `u`. -/
theorem k4_pay2_apply (v3 : Vec Ideal S1024x1024 .bf16) (v8 : Vec Ideal S1024x256 .bf16) (v10 : Vec Ideal S1024x256 .f32)
    (r : Fin 1024) (d : Fin 256) :
    k4_pay2 v3 v8 v10 (ix2 r d) = v10 (ix2 r d) + ∑ u : Fin 1024, v3 (ix2 u r) * v8 (ix2 u d) := by
  unfold k4_pay2
  rw [shapeCast_self, addf_apply]
  refine congrArg (v10 (ix2 r d) + ·) ?_
  simp only [matmul]
  refine (Ideal.matmul_constant_zero_apply dot_S1024x1024_S1024x256_S1024x256_0_0_1_1_n_n none _ _ (ix2 r d)).trans ?_
  rw [← Equiv.sum_comp (contrEquiv1 dot_S1024x1024_S1024x256_S1024x256_0_0_1_1_n_n 1024 rfl rfl).symm]
  refine Finset.sum_congr rfl fun k _ => ?_
  rw [agg_lhsIdx, agg_rhsIdx, shapeCast_self, shapeCast_self]

/-- The last step at local output row `r`, column `d`: the accumulated sum times the row's scale,
    plus the column's bias, clamped below at zero. -/
theorem k4_pay3_apply (v19 : Vec Ideal S1024 .f32) (v21 : Vec Ideal S256 .f32) (v22 : Vec Ideal S1024x256 .f32)
    (r : Fin 1024) (d : Fin 256) :
    k4_pay3 v19 v21 v22 (ix2 r d) = max (v22 (ix2 r d) * v19 (ix1 r) + v21 (ix1 d)) 0 := by
  unfold k4_pay3
  rw [maximumf_apply, addf_apply, mulf_apply]
  have hcol : (broadcastTo S1024x256 (shapeCast S1024x1 (shapeCast S1024 v19 shapeCasts_S1024_S1024) shapeCasts_S1024_S1024x1)
      broadcasts_S1024x1_S1024x256 : FVec Ideal S1024x256 .f32) (ix2 r d) = v19 (ix1 r) := by
    refine (col_bcast_apply _ broadcasts_S1024x1_S1024x256 r d).trans ?_
    refine (col_cast_apply _ shapeCasts_S1024_S1024x1 r 0).trans ?_
    rw [shapeCast_self]
  have hrow : (broadcastTo S1024x256 (shapeCast S1x256 v21 shapeCasts_S256_S1x256) broadcasts_S1x256_S1024x256
      : FVec Ideal S1024x256 .f32) (ix2 r d) = v21 (ix1 d) := by
    refine (broadcastTo_1b_ab_apply _ broadcasts_S1x256_S1024x256 r d).trans ?_
    exact shapeCast_a_1a_apply _ shapeCasts_S256_S1x256 0 d
  rw [hcol, hrow]
  exact congrArg (max _) Ideal.ofBits_zero_f32

end Cert.KernelIdeal.Val

end
-- ==== Proof.KI.Val4Blk.lean ====
import proofs.«144456_j68298569941180_2_alg».proof.Proof.KI.Region4
import Idealize.ShloMosaic.Lib.Pipeline.Value
import Idealize.ShloMosaic.Lib.ValueIdx

/-!
# The output blocks of the second aggregation

The aggregation runs over a `4 × 4` grid: point `t` works on row block `t / 4` at reduction step
`t % 4`. Its output window's block at point `t` is rows `1024 (t / 4) … 1024 (t / 4) + 1023` of the
`[4096, 256]` output, all 256 columns, and it is written back at the last step of each row block.
So every index of the output lies in the block of the point `4 (row / 1024) + 3`, which is written
back.
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

/-- The output window's block index at each grid point: row block `t / 4`, the one column block. -/
theorem idx4_4 : ∀ t : Fin cfg4.N, win4_4.index t (0 : Fin 2) = t.val / 4 ∧ win4_4.index t (1 : Fin 2) = 0 :=
  (by decide +kernel : ∀ t : Fin grid4.N, _)

/-- An index of the output array is in point `t`'s block iff each coordinate is in the block's range on its axis. -/
theorem mem_blk4_4 (t : Fin cfg4.N) (i : S4096x256.Idx) :
    i ∈ ((cfg4.win 4).blk t).view.set ↔ ∀ a : Fin 2, win4_4.index t a * S1024x256.size a ≤ (i a).val ∧ (i a).val < win4_4.index t a * S1024x256.size a + S1024x256.size a := by
  show i ∈ ((View.whole main_v11).slice (win4_4.rect t)).set ↔ _
  rw [View.set_slice_whole, Rect.mem_set_unit]
  exact Iff.rfl

/-- Every index of the output array is in the block of a point that writes its block back: the last
    reduction step of the row block its row falls in. -/
theorem cover4_4_arr (i : S4096x256.Idx) :
    ∃ t : Fin cfg4.N, (cfg4.win 4).flush t = true ∧ i ∈ ((cfg4.win 4).blk t).view.set := by
  have hi0 : (i 0).val < 4096 := (i 0).isLt
  have hi1 : (i 1).val < 256 := (i 1).isLt
  have hN : cfg4.N = 16 := N_4
  let t : Fin cfg4.N := ⟨4 * ((i 0).val / 1024) + 3, by rw [hN]; omega⟩
  obtain ⟨e0, e1⟩ := idx4_4 t
  have htv : t.val = 4 * ((i 0).val / 1024) + 3 := rfl
  refine ⟨t, (flush4_4 t).mpr (by rw [htv]; omega), ?_⟩
  rw [mem_blk4_4]
  intro a
  match a with
  | ⟨0, _⟩ => show win4_4.index t (0 : Fin 2) * 1024 ≤ (i 0).val ∧ (i 0).val < win4_4.index t (0 : Fin 2) * 1024 + 1024; rw [e0, htv]; omega
  | ⟨1, _⟩ => show win4_4.index t (1 : Fin 2) * 256 ≤ (i 1).val ∧ (i 1).val < win4_4.index t (1 : Fin 2) * 256 + 256; rw [e1]; omega

/-- Local row `r`, column `d` of point `t`'s output block is row `1024 (t / 4) + r`, column `d` of the array. -/
theorem blk4_4_emb (t : Fin cfg4.N) (r : Fin 1024) (d : Fin 256) :
    ((((cfg4.win 4).blk t).view.emb (ix2 r d)) 0).val = 1024 * (t.val / 4) + r.val
      ∧ ((((cfg4.win 4).blk t).view.emb (ix2 r d)) 1).val = d.val := by
  obtain ⟨e0, e1⟩ := idx4_4 t
  constructor
  · show win4_4.index t 0 * 1024 + 1 * r.val = _; rw [e0]; omega
  · show win4_4.index t 1 * 256 + 1 * d.val = _; rw [e1]; omega

end Cert.KernelIdeal.Val

end
-- ==== Proof.KI.Val4.lean ====
/-
  Region 4, the value of its output array after the region, over the extended reals: the same layer as region 2's, of
  region 4's arrays (at row `v` and column `d`: the contraction over `u` of the first matrix's entry `(u, v)` with the
  second's `(u, d)`, times the scale of row `v`, plus the entry `d` of the row vector, negatives replaced by zero),
  accumulated in four blocks of 1024 values of `u`. The vocabulary that does not depend on the region is region 2's.
-/
import proofs.«144456_j68298569941180_2_alg».proof.Proof.KI.Region4
import proofs.«144456_j68298569941180_2_alg».proof.Proof.KI.Val4Pay
import proofs.«144456_j68298569941180_2_alg».proof.Proof.KI.Val4Blk
import proofs.«144456_j68298569941180_2_alg».proof.Proof.KI.Val2
import proofs.«144456_j68298569941180_2_alg».proof.Proof.KI.Rd
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## What each case leaves, as a payload of the loaded blocks -/

section Pieces4
variable {F : FTy → Type} [FloatOps F]

/-- The rows of the whole second matrix the body loads at grid coordinates `i`: 1024 rows from the offset the kernel
    computes from the reduction step. -/
def slice4 (i : grid4.Coords) (x1 : Vec F S4096x256 .bf16) : Vec F S1024x256 .bf16 :=
  View.ld x1 (Rect.unit (s := S4096x256) (k4_off1 i) S1024x256.size (k4_off1_inb i))

/-- A middle step leaves the accumulator at the product added to what it held. -/
theorem sout4_B_0_eq (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : ¬cond4_1 i) (x0 : Vec F S1024x1024 .bf16) (x1 : Vec F S4096x256 .bf16) (xs0 : Vec F S1024x256 .f32) :
    sout4_B_0 c i arg2 harg2 arg3 harg3 arg4 harg4 arg5 harg5 arg6 harg6 arg7 harg7 hc0 hc1 x0 x1 xs0 = k4_pay2 x0 (slice4 i x1) xs0 := by
  unfold sout4_B_0
  rw [View.read_writes_eq_canon _ _ _ (scover4_B_0 c i arg2 harg2 arg3 harg3 arg4 harg4 arg5 harg5 arg6 harg6 arg7 harg7 hc0 hc1 x0 x1 xs0)]
  unfold kernelRun4_B
  dsimp only
  rw [View.canon_unit_zero agg_hz2]
  simp only [View.readAt_eq_ld, harg2.read_unread, harg3.read_unread, harg7.read_unread,
    View.ld_unit_zero (S := S1024x1024) agg_hz2, View.ld_unit_zero (S := S1024x256) agg_hz2]
  rfl

/-- The first step zeroes the accumulator, reads the zeros back and leaves the product added to them. -/
theorem sout4_A_0_eq (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : cond4_0 i) (hc1 : ¬cond4_1 i) (x0 : Vec F S1024x1024 .bf16) (x1 : Vec F S4096x256 .bf16) :
    sout4_A_0 c i arg2 harg2 arg3 harg3 arg4 harg4 arg5 harg5 arg6 harg6 arg7 harg7 hc0 hc1 x0 x1 = k4_pay2 x0 (slice4 i x1) k4_pay1 := by
  unfold sout4_A_0
  rw [View.read_writes_eq_canon _ _ _ (scover4_A_0 c i arg2 harg2 arg3 harg3 arg4 harg4 arg5 harg5 arg6 harg6 arg7 harg7 hc0 hc1 x0 x1)]
  unfold kernelRun4_A
  dsimp only
  sl_unfold_words
  rw [View.canon_cons_unit_zero (S := S1024x256) agg_hz2, View.readCov_unit_zero (S := S1024x256) _ agg_hz2]
  simp only [View.readAt_eq_ld, harg2.read_unread, harg3.read_unread,
    View.ld_unit_zero (S := S1024x1024) agg_hz2, View.ld_unit_zero (S := S1024x256) agg_hz2]
  rfl

/-- The last step leaves the accumulator as a middle step does, -/
theorem sout4_C_0_eq (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) :
    sout4_C_0 c i arg2 harg2 arg3 harg3 arg4 harg4 arg5 harg5 arg6 harg6 arg7 harg7 hc0 hc1 x0 x1 x2 x3 xs0 = k4_pay2 x0 (slice4 i x1) xs0 := by
  unfold sout4_C_0
  rw [View.read_writes_eq_canon _ _ _ (scover4_C_0 c i arg2 harg2 arg3 harg3 arg4 harg4 arg5 harg5 arg6 harg6 arg7 harg7 hc0 hc1 x0 x1 x2 x3 xs0)]
  unfold kernelRun4_C
  dsimp only
  sl_unfold_words
  rw [View.canon_unit_zero agg_hz2]
  simp only [View.readAt_eq_ld, harg2.read_unread, harg3.read_unread, harg7.read_unread,
    View.ld_unit_zero (S := S1024x1024) agg_hz2, View.ld_unit_zero (S := S1024x256) agg_hz2]
  rfl

/-- and the output block at the final payload of that accumulator, the row scales and the row vector. -/
theorem out4_C_4_eq (c : Dev nD) (i : grid4.Coords) (arg2 : Memref sig .tc .vmem S1024x1024 .bf16) (harg2 : arg2.IsWhole) (arg3 : Memref sig .tc .vmem S4096x256 .bf16) (harg3 : arg3.IsWhole)
    (arg4 : Memref sig .tc .vmem S1024 .f32) (harg4 : arg4.IsWhole) (arg5 : Memref sig .tc .vmem S256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond4_0 i) (hc1 : cond4_1 i) (x0 : Vec F S1024x1024 .bf16) (x1 : Vec F S4096x256 .bf16) (x2 : Vec F S1024 .f32) (x3 : Vec F S256 .f32)
    (xs0 : Vec F S1024x256 .f32) :
    out4_C_4 c i arg2 harg2 arg3 harg3 arg4 harg4 arg5 harg5 arg6 harg6 arg7 harg7 hc0 hc1 x0 x1 x2 x3 xs0 = k4_pay3 x2 x3 (k4_pay2 x0 (slice4 i x1) xs0) := by
  unfold out4_C_4
  rw [View.read_writes_eq_canon _ _ _ (cover4_C_4 c i arg2 harg2 arg3 harg3 arg4 harg4 arg5 harg5 arg6 harg6 arg7 harg7 hc0 hc1 x0 x1 x2 x3 xs0)]
  unfold kernelRun4_C
  dsimp only
  sl_unfold_words
  rw [View.canon_unit_zero agg_hz2, View.readCov_unit_zero (S := S1024x256) _ agg_hz2]
  simp only [View.readAt_eq_ld, harg2.read_unread, harg3.read_unread, harg4.read_unread, harg5.read_unread, harg7.read_unread,
    View.ld_unit_zero (S := S1024x1024) agg_hz2, View.ld_unit_zero (S := S1024x256) agg_hz2,
    View.ld_unit_zero (S := S1024) agg_hz1, View.ld_unit_zero (S := S256) agg_hz1]
  rfl

/-- The loaded rows at local row `u` and column `d`: row `1024 k + u` of the whole matrix, `k` the reduction step. -/
theorem slice4_apply (i : grid4.Coords) (x1 : Vec F S4096x256 .bf16) (u : Fin 1024) (d : Fin 256) (k : S4096x256.Idx)
    (hk0 : (k 0).val = 1024 * (i 1).val + u.val) (hk1 : (k 1).val = d.val) :
    slice4 i x1 (ix2 u d) = x1 k := by
  unfold slice4
  show x1 _ = x1 _
  refine congrArg x1 (funext fun a => Fin.ext ?_)
  match a with
  | ⟨0, _⟩ => show (k4_off1 i) 0 + 1 * u.val = (k 0).val; rw [k4_off1_eq, hk0]; show 1024 * (i 1).val + 1 * u.val = _; omega
  | ⟨1, _⟩ => show (k4_off1 i) 1 + 1 * d.val = (k 1).val; rw [k4_off1_eq, hk1]; show 0 + 1 * d.val = _; omega

end Pieces4

/-! ## The blocks the body reads, as entries of the arrays -/

section Region4
variable (V : (c : Dev nD) → (b : Ref sig .tc) → Buf (Elt Ideal) ((c : Thread nD τ).loc b))

/-- The block indices of region 4's windows at each grid point `t = 4 i + k` (row block `i`, reduction step `k`):
    block `(k, i)` of the first matrix, the whole second matrix, block `i` of the row scales, the whole row vector,
    block `i` of the output; and the reduction step as the body reads it off the grid coordinates. -/
theorem idx_facts4 : ∀ t : Fin cfg4.N, win4_0.index t (0 : Fin 2) = t.val % 4 ∧ win4_0.index t (1 : Fin 2) = t.val / 4
    ∧ win4_1.index t (0 : Fin 2) = 0 ∧ win4_1.index t (1 : Fin 2) = 0
    ∧ win4_2.index t (0 : Fin 1) = t.val / 4
    ∧ win4_3.index t (0 : Fin 1) = 0
    ∧ win4_4.index t (0 : Fin 2) = t.val / 4 ∧ win4_4.index t (1 : Fin 2) = 0
    ∧ ((grid4.coords t) 1).val = t.val % 4 :=
  (by decide +kernel : ∀ t : Fin grid4.N, _)

/-- The first matrix's block at point `t`: rows `1024 k …`, columns `1024 i …`. -/
theorem iblk4_0_apply (c : Dev nD) (t : Fin cfg4.N) (x : S1024x1024.Idx) (k : S4096x4096.Idx)
    (hk0 : (k 0).val = 1024 * (t.val % 4) + (x 0).val) (hk1 : (k 1).val = 1024 * (t.val / 4) + (x 1).val) :
    (iblk4 V c 0 t : Vec Ideal S1024x1024 .bf16) x = (V c main_v0_0 : S4096x4096.Idx → EReal) k := by
  obtain ⟨e0, e1, -⟩ := idx_facts4 t
  unfold iblk4
  rw [View.read_apply]
  show V c main_v0_0 _ = V c main_v0_0 _
  refine congrArg (V c main_v0_0) (funext fun a => Fin.ext ?_)
  match a with
  | ⟨0, _⟩ => show win4_0.index t 0 * 1024 + 1 * (x 0).val = (k 0).val; rw [e0, hk0]; omega
  | ⟨1, _⟩ => show win4_0.index t 1 * 1024 + 1 * (x 1).val = (k 1).val; rw [e1, hk1]; omega

/-- The second matrix's block at every point is the whole matrix. -/
theorem iblk4_1_apply (c : Dev nD) (t : Fin cfg4.N) (x : S4096x256.Idx) :
    (iblk4 V c 1 t : Vec Ideal S4096x256 .bf16) x = (V c main_v10 : S4096x256.Idx → EReal) x := by
  obtain ⟨-, -, e0, e1, -⟩ := idx_facts4 t
  unfold iblk4
  rw [View.read_apply]
  show V c main_v10 _ = V c main_v10 _
  refine congrArg (V c main_v10) (funext fun a => Fin.ext ?_)
  match a with
  | ⟨0, _⟩ => show win4_1.index t 0 * 4096 + 1 * (x 0).val = (x 0).val; rw [e0]; omega
  | ⟨1, _⟩ => show win4_1.index t 1 * 256 + 1 * (x 1).val = (x 1).val; rw [e1]; omega

/-- The row scales' block at point `t`: entries `1024 i …`. -/
theorem iblk4_2_apply (c : Dev nD) (t : Fin cfg4.N) (x : S1024.Idx) (k : S4096.Idx)
    (hk0 : (k 0).val = 1024 * (t.val / 4) + (x 0).val) :
    (iblk4 V c 2 t : Vec Ideal S1024 .f32) x = (V c main_v7 : S4096.Idx → EReal) k := by
  obtain ⟨-, -, -, -, e0, -⟩ := idx_facts4 t
  unfold iblk4
  rw [View.read_apply]
  show V c main_v7 _ = V c main_v7 _
  refine congrArg (V c main_v7) (funext fun a => Fin.ext ?_)
  match a with
  | ⟨0, _⟩ => show win4_2.index t 0 * 1024 + 1 * (x 0).val = (k 0).val; rw [e0, hk0]; omega

/-- The row vector's block at every point is the whole vector. -/
theorem iblk4_3_apply (c : Dev nD) (t : Fin cfg4.N) (x : S256.Idx) :
    (iblk4 V c 3 t : Vec Ideal S256 .f32) x = (V c main_arg5 : S256.Idx → EReal) x := by
  obtain ⟨-, -, -, -, -, e0, -⟩ := idx_facts4 t
  unfold iblk4
  rw [View.read_apply]
  show V c main_arg5 _ = V c main_arg5 _
  refine congrArg (V c main_arg5) (funext fun a => Fin.ext ?_)
  match a with
  | ⟨0, _⟩ => show win4_3.index t 0 * 256 + 1 * (x 0).val = (x 0).val; rw [e0]; omega

end Region4

section Value4
variable (V : (c : Dev nD) → (b : Ref sig .tc) → Buf (Elt Ideal) ((c : Thread nD τ).loc b))

/-- The table of what the points leave, component by component. -/
theorem outsAt4_A_snd (c : Dev nD) (t : Fin cfg4.N) (h0 : t.val % 4 = 0) (h1 : ¬t.val % 4 = 3) :
    (outsAt4 V c t.val t.isLt).2 = sout4_A_0 c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t) :=
  agg_snd_of_eq (outsAt4_A V c t h0 h1)
theorem outsAt4_B_snd (c : Dev nD) (t : Fin cfg4.N) (h0 : ¬t.val % 4 = 0) (h1 : ¬t.val % 4 = 3) :
    (outsAt4 V c t.val t.isLt).2 = sout4_B_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2 :=
  agg_snd_of_eq (outsAt4_B V c t h0 h1)
theorem outsAt4_C_snd (c : Dev nD) (t : Fin cfg4.N) (h0 : ¬t.val % 4 = 0) (h1 : t.val % 4 = 3) :
    (outsAt4 V c t.val t.isLt).2 = sout4_C_0 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2 :=
  agg_snd_of_eq (outsAt4_C V c t h0 h1)
theorem outsAt4_C_fst (c : Dev nD) (t : Fin cfg4.N) (h0 : ¬t.val % 4 = 0) (h1 : t.val % 4 = 3) :
    (outsAt4 V c t.val t.isLt).1 = out4_C_4 c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2 :=
  agg_fst_of_eq (outsAt4_C V c t h0 h1)

/-- The product the body forms at point `t = 4 i + k`, at local row `r` and column `d`, is block `k` of the
    contraction at row `1024 i + r`. -/
theorem term4_eq (c : Dev nD) (t : Fin cfg4.N) (r : Fin 1024) (d : Fin 256) (v : Fin 4096) (hv : v.val = 1024 * (t.val / 4) + r.val) :
    (∑ u : Fin 1024, rd S1024x1024 (iblk4 V c 0 t) (ix2 u r) * rd S1024x256 (slice4 (grid4.coords t) (iblk4 V c 1 t)) (ix2 u d))
      = aggBlock (fun u v => (V c main_v0_0 : S4096x4096.Idx → EReal) (ix2 u v)) (fun u d => (V c main_v10 : S4096x256.Idx → EReal) (ix2 u d)) v d (t.val % 4) := by
  obtain ⟨-, -, -, -, -, -, -, -, ek⟩ := idx_facts4 t
  have hk : t.val % 4 < 4 := Nat.mod_lt _ (by decide)
  unfold aggBlock; rw [dif_pos hk]
  refine Finset.sum_congr rfl fun u _ => ?_
  have hu := u.isLt
  refine congrArg₂ (· * ·) ?_ ?_
  · exact iblk4_0_apply V c t (ix2 u r) (ix2 ⟨1024 * (t.val % 4) + u.val, by omega⟩ v) rfl hv
  · exact (slice4_apply (grid4.coords t) (iblk4 V c 1 t) u d (ix2 ⟨1024 * (t.val % 4) + u.val, by omega⟩ d)
      (by show _ = 1024 * ((grid4.coords t) 1).val + u.val; rw [ek]) rfl).trans (iblk4_1_apply V c t _)

/-- ONE STEP of the accumulation: if before point `t` (when `t` is not a first reduction step) the accumulator holds
    the blocks before `t`'s of the contraction, after it it holds those up to `t`'s. -/
theorem acc4_step (c : Dev nD) (t : Fin cfg4.N)
    (ih : t.val % 4 ≠ 0 → ∀ (r : Fin 1024) (d : Fin 256) (v : Fin 4096), v.val = 1024 * ((t.val - 1) / 4) + r.val →
      rd S1024x256 (outsAt4 V c (t.val - 1) (Nat.lt_of_le_of_lt (Nat.sub_le _ _) t.isLt)).2 (ix2 r d) = ∑ k ∈ Finset.range ((t.val - 1) % 4 + 1), aggBlock (fun u v => (V c main_v0_0 : S4096x4096.Idx → EReal) (ix2 u v)) (fun u d => (V c main_v10 : S4096x256.Idx → EReal) (ix2 u d)) v d k)
    (r : Fin 1024) (d : Fin 256) (v : Fin 4096) (hv : v.val = 1024 * (t.val / 4) + r.val) :
    rd S1024x256 (outsAt4 V c t.val t.isLt).2 (ix2 r d) = ∑ k ∈ Finset.range (t.val % 4 + 1), aggBlock (fun u v => (V c main_v0_0 : S4096x4096.Idx → EReal) (ix2 u v)) (fun u d => (V c main_v10 : S4096x256.Idx → EReal) (ix2 u d)) v d k := by
  by_cases h0 : t.val % 4 = 0
  · have h1 : ¬t.val % 4 = 3 := by omega
    refine (congrFun (outsAt4_A_snd V c t h0 h1) (ix2 r d)).trans ?_
    refine (congrFun (sout4_A_0_eq (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) ((hcond4_0 t).mpr h0) (fun h => h1 ((hcond4_1 t).mp h)) (iblk4 V c 0 t) (iblk4 V c 1 t)) (ix2 r d)).trans ?_
    refine (k4_pay2_apply _ _ _ r d).trans ?_
    refine (congrArg₂ (· + ·) (k4_pay1_apply r d) (term4_eq V c t r d v hv)).trans ?_
    rw [zero_add, h0, Finset.sum_range_one]
  · have e1 : (t.val - 1) % 4 + 1 = t.val % 4 := by omega
    have e2 : (t.val - 1) / 4 = t.val / 4 := by omega
    have hprev := ih h0 r d v (by rw [e2]; exact hv)
    rw [e1] at hprev
    by_cases h1 : t.val % 4 = 3
    · refine (congrFun (outsAt4_C_snd V c t h0 h1) (ix2 r d)).trans ?_
      refine (congrFun (sout4_C_0_eq (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2) (ix2 r d)).trans ?_
      refine (k4_pay2_apply _ _ _ r d).trans ?_
      refine (congrArg₂ (· + ·) hprev (term4_eq V c t r d v hv)).trans ?_
      exact (Finset.sum_range_succ _ _).symm
    · refine (congrFun (outsAt4_B_snd V c t h0 h1) (ix2 r d)).trans ?_
      refine (congrFun (sout4_B_0_eq (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) (ix2 r d)).trans ?_
      refine (k4_pay2_apply _ _ _ r d).trans ?_
      refine (congrArg₂ (· + ·) hprev (term4_eq V c t r d v hv)).trans ?_
      exact (Finset.sum_range_succ _ _).symm

/-- THE ACCUMULATOR after the body at position `n = 4 i + k`: at local row `r` and column `d`, the blocks `0 … k` of
    the contraction at row `1024 i + r`. By induction on the point. -/
theorem acc4_eq (c : Dev nD) : ∀ (n : ℕ) (hn : n < cfg4.N) (r : Fin 1024) (d : Fin 256) (v : Fin 4096), v.val = 1024 * (n / 4) + r.val →
    rd S1024x256 (outsAt4 V c n hn).2 (ix2 r d) = ∑ k ∈ Finset.range (n % 4 + 1), aggBlock (fun u v => (V c main_v0_0 : S4096x4096.Idx → EReal) (ix2 u v)) (fun u d => (V c main_v10 : S4096x256.Idx → EReal) (ix2 u d)) v d k
  | 0, hn => acc4_step V c ⟨0, hn⟩ (fun h => absurd rfl h)
  | n + 1, hn => acc4_step V c ⟨n + 1, hn⟩ (fun _ => acc4_eq c n (Nat.lt_of_succ_lt hn))

/-- At a last reduction step the output block is the final payload of the accumulator the step leaves. -/
theorem out4_last (c : Dev nD) (t : Fin cfg4.N) (h1 : t.val % 4 = 3) :
    (outsAt4 V c t.val t.isLt).1 = k4_pay3 (iblk4 V c 2 t) (iblk4 V c 3 t) (outsAt4 V c t.val t.isLt).2 := by
  have h0 : ¬t.val % 4 = 0 := by omega
  refine (outsAt4_C_fst V c t h0 h1).trans ?_
  refine (out4_C_4_eq (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2).trans ?_
  refine congrArg (k4_pay3 (iblk4 V c 2 t) (iblk4 V c 3 t)) ?_
  exact ((outsAt4_C_snd V c t h0 h1).trans
    (sout4_C_0_eq (F := Ideal) c (grid4.coords t) (ms4_0 t) (hs4_0 t) (ms4_1 t) (hs4_1 t) (ms4_2 t) (hs4_2 t) (ms4_3 t) (hs4_3 t) (ms4_4 t) (hs4_4 t) scM4_0 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2)).symm

/-- What a last reduction step writes back is its block of the layer of the arrays as the region finds them. -/
theorem flushed4_4_eq (c : Dev nD) (t : Fin cfg4.N) (hf : (cfg4.win 4).flush t = true) :
    (dat4 V c).flushed 4 t
      = ((cfg4.win 4).blk t).view.read (Elt Ideal) (aggLayer (V c main_v0_0) (V c main_v10) (V c main_v7) (V c main_arg5)) := by
  have h1 : t.val % 4 = 3 := (flush4_4 t).mp hf
  show (cfg4.win 4).cut (grid4.coords t) ((dat4 V c).after 4 t) = _
  rw [after4_4, out4_last V c t h1]
  obtain ⟨-, -, -, -, -, -, e0, e1, -⟩ := idx_facts4 t
  funext y
  obtain ⟨r, d, rfl⟩ : ∃ (r : Fin 1024) (d : Fin 256), y = ix2 r d := ⟨y 0, y 1, eq_ix2 y⟩
  have hr := r.isLt
  have hN : t.val < 16 := lt_of_lt_of_eq t.isLt (show cfg4.N = 16 from N_4)
  obtain ⟨v, hv⟩ : ∃ v : Fin 4096, v.val = 1024 * (t.val / 4) + r.val := ⟨⟨1024 * (t.val / 4) + r.val, by omega⟩, rfl⟩
  have hemb : ((cfg4.win 4).blk t).view.emb (ix2 r d) = ix2 v d := funext fun a => Fin.ext (by
    match a with
    | ⟨0, _⟩ => show win4_4.index t 0 * 1024 + 1 * r.val = v.val; rw [e0, hv]; omega
    | ⟨1, _⟩ => show win4_4.index t 1 * 256 + 1 * d.val = d.val; rw [e1]; omega)
  show k4_pay3 (iblk4 V c 2 t) (iblk4 V c 3 t) (outsAt4 V c t.val t.isLt).2 (ix2 r d)
    = aggLayer (V c main_v0_0) (V c main_v10) (V c main_v7) (V c main_arg5) (((cfg4.win 4).blk t).view.emb (ix2 r d))
  refine Eq.trans ?_ (congrArg (aggLayer (V c main_v0_0) (V c main_v10) (V c main_v7) (V c main_arg5)) hemb.symm)
  refine (k4_pay3_apply _ _ _ r d).trans ?_
  have hacc := acc4_eq V c t.val t.isLt r d v hv
  rw [h1, show (3 + 1 : ℕ) = 4 from rfl, aggBlock_sum] at hacc
  refine congrArg (max · (0 : EReal)) ?_
  refine congrArg₂ (· + ·) (congrArg₂ (· * ·) hacc ?_) ?_
  · exact iblk4_2_apply V c t (ix1 r) (ix1 v) hv
  · exact iblk4_3_apply V c t (ix1 d)

end Value4

section Array4
variable (V : (c : Dev nD) → (b : Ref sig .tc) → Buf (Elt Ideal) ((c : Thread nD τ).loc b))

/-- The output array after region 4 is the layer of the arrays as the region finds them: every row lies in the block
    of one row block's last reduction step, and only those steps write back. -/
theorem arr4_eq (c : Dev nD) : (dat4 V c).arrAt 4 cfg4.N = aggLayer (V c main_v0_0) (V c main_v10) (V c main_v7) (V c main_arg5) :=
  (dat4 V c).arrAt_eq_of_cover 4 (aggLayer (V c main_v0_0) (V c main_v10) (V c main_v7) (V c main_arg5)) (fun t hf => flushed4_4_eq V c t hf) cover4_4_arr

/-- Index by index. -/
theorem arr4_layer (c : Dev nD) (v : Fin 4096) (d : Fin 256) : rd S4096x256 ((dat4 (F := Ideal) V c).arrAt 4 cfg4.N) (ix2 v d)
    = (max ((∑ u : Fin 4096, rd S4096x4096 (V c main_v0_0) (ix2 u v) * rd S4096x256 (V c main_v10) (ix2 u d)) * rd S4096 (V c main_v7) (ix1 v)
        + rd S256 (V c main_arg5) (ix1 d)) (0 : EReal) : EReal) :=
  congrFun (arr4_eq V c) (ix2 v d)

end Array4

end Cert.KernelIdeal.Val

end
-- ==== Proof.KI.Compose.lean ====
/-
  The kernel program's two results as functions of the argument arrays: the folds through the five regions and the
  host stretch, read index by index. Region 0 leaves the adjacency with self loops, its row sums and its column
  sums by row block; the host stretch turns the sums into the two scale vectors; regions 1 and 3 form the scaled
  projections; regions 2 and 4 aggregate them along the edges, scale, add the bias and clamp at zero.
-/
import proofs.«144456_j68298569941180_2_alg».proof.Proof.KI.Ends
import proofs.«144456_j68298569941180_2_alg».proof.Proof.KI.Val0
import proofs.«144456_j68298569941180_2_alg».proof.Proof.KI.ValHost
import proofs.«144456_j68298569941180_2_alg».proof.Proof.KI.Val1
import proofs.«144456_j68298569941180_2_alg».proof.Proof.KI.Val3
import proofs.«144456_j68298569941180_2_alg».proof.Proof.KI.Val2
import proofs.«144456_j68298569941180_2_alg».proof.Proof.KI.Val4
import proofs.«144456_j68298569941180_2_alg».proof.Proof.Gen.KernelIdeal.Regions
import proofs.«144456_j68298569941180_2_alg».proof.Proof.Spec
import Idealize.ShloMosaic.Lib.StableHlo.Run
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg) (c : Dev nD)

/-- The argument arrays as functions of literal coordinates. -/
abbrev sA : Fin 4096 → Fin 4096 → EReal := fun u v => rd S4096x4096 (m ((c : Thread nD τ).loc main_arg0)) (ix2 u v)
abbrev sX : Fin 4096 → Fin 256 → EReal := fun u j => rd S4096x256 (m ((c : Thread nD τ).loc main_arg1)) (ix2 u j)
abbrev sW1 : Fin 256 → Fin 256 → EReal := fun j d => rd S256x256 (m ((c : Thread nD τ).loc main_arg2)) (ix2 j d)
abbrev sb1 : Fin 256 → EReal := fun d => rd S256 (m ((c : Thread nD τ).loc main_arg3)) (ix1 d)
abbrev sW2 : Fin 256 → Fin 256 → EReal := fun j d => rd S256x256 (m ((c : Thread nD τ).loc main_arg4)) (ix2 j d)
abbrev sb2 : Fin 256 → EReal := fun d => rd S256 (m ((c : Thread nD τ).loc main_arg5)) (ix1 d)

/-! ## Buffers no step in between writes -/

theorem keep_main_arg1_2 : W2 m ρ c (Proc.devRef .tc main_arg1) = W0 m ρ c (Proc.devRef .tc main_arg1) :=
  calc W2 m ρ c (Proc.devRef .tc main_arg1)
    _ = W1 m ρ c (Proc.devRef .tc main_arg1) := (StableHlo.after_of_writes_sub hostOps1 _ hostOps1_writes (by decide))
    _ = W0 m ρ c (Proc.devRef .tc main_arg1) := (W1_of_ne m ρ c _ (by decide))
theorem keep_main_arg2_2 : W2 m ρ c (Proc.devRef .tc main_arg2) = W0 m ρ c (Proc.devRef .tc main_arg2) :=
  calc W2 m ρ c (Proc.devRef .tc main_arg2)
    _ = W1 m ρ c (Proc.devRef .tc main_arg2) := (StableHlo.after_of_writes_sub hostOps1 _ hostOps1_writes (by decide))
    _ = W0 m ρ c (Proc.devRef .tc main_arg2) := (W1_of_ne m ρ c _ (by decide))
theorem keep_main_v0_0_3 : W3 m ρ c (Proc.devRef .tc main_v0_0) = W1 m ρ c (Proc.devRef .tc main_v0_0) :=
  calc W3 m ρ c (Proc.devRef .tc main_v0_0)
    _ = W2 m ρ c (Proc.devRef .tc main_v0_0) := (W3_of_ne m ρ c _ (by decide))
    _ = W1 m ρ c (Proc.devRef .tc main_v0_0) := (StableHlo.after_of_writes_sub hostOps1 _ hostOps1_writes (by decide))
theorem keep_main_v7_3 : W3 m ρ c (Proc.devRef .tc main_v7) = W2 m ρ c (Proc.devRef .tc main_v7) :=
  calc W3 m ρ c (Proc.devRef .tc main_v7)
    _ = W2 m ρ c (Proc.devRef .tc main_v7) := (W3_of_ne m ρ c _ (by decide))
theorem keep_main_arg3_3 : W3 m ρ c (Proc.devRef .tc main_arg3) = W0 m ρ c (Proc.devRef .tc main_arg3) :=
  calc W3 m ρ c (Proc.devRef .tc main_arg3)
    _ = W2 m ρ c (Proc.devRef .tc main_arg3) := (W3_of_ne m ρ c _ (by decide))
    _ = W1 m ρ c (Proc.devRef .tc main_arg3) := (StableHlo.after_of_writes_sub hostOps1 _ hostOps1_writes (by decide))
    _ = W0 m ρ c (Proc.devRef .tc main_arg3) := (W1_of_ne m ρ c _ (by decide))
theorem keep_main_v4_4 : W4 m ρ c (Proc.devRef .tc main_v4) = W2 m ρ c (Proc.devRef .tc main_v4) :=
  calc W4 m ρ c (Proc.devRef .tc main_v4)
    _ = W3 m ρ c (Proc.devRef .tc main_v4) := (W4_of_ne m ρ c _ (by decide))
    _ = W2 m ρ c (Proc.devRef .tc main_v4) := (W3_in m ρ c 1 rfl)
theorem keep_main_arg4_4 : W4 m ρ c (Proc.devRef .tc main_arg4) = W0 m ρ c (Proc.devRef .tc main_arg4) :=
  calc W4 m ρ c (Proc.devRef .tc main_arg4)
    _ = W3 m ρ c (Proc.devRef .tc main_arg4) := (W4_of_ne m ρ c _ (by decide))
    _ = W2 m ρ c (Proc.devRef .tc main_arg4) := (W3_of_ne m ρ c _ (by decide))
    _ = W1 m ρ c (Proc.devRef .tc main_arg4) := (StableHlo.after_of_writes_sub hostOps1 _ hostOps1_writes (by decide))
    _ = W0 m ρ c (Proc.devRef .tc main_arg4) := (W1_of_ne m ρ c _ (by decide))
theorem keep_main_v0_0_5 : W5 m ρ c (Proc.devRef .tc main_v0_0) = W1 m ρ c (Proc.devRef .tc main_v0_0) :=
  calc W5 m ρ c (Proc.devRef .tc main_v0_0)
    _ = W4 m ρ c (Proc.devRef .tc main_v0_0) := (W5_of_ne m ρ c _ (by decide))
    _ = W3 m ρ c (Proc.devRef .tc main_v0_0) := (W4_in m ρ c 0 rfl)
    _ = W2 m ρ c (Proc.devRef .tc main_v0_0) := (W3_of_ne m ρ c _ (by decide))
    _ = W1 m ρ c (Proc.devRef .tc main_v0_0) := (StableHlo.after_of_writes_sub hostOps1 _ hostOps1_writes (by decide))
theorem keep_main_v7_5 : W5 m ρ c (Proc.devRef .tc main_v7) = W2 m ρ c (Proc.devRef .tc main_v7) :=
  calc W5 m ρ c (Proc.devRef .tc main_v7)
    _ = W4 m ρ c (Proc.devRef .tc main_v7) := (W5_of_ne m ρ c _ (by decide))
    _ = W3 m ρ c (Proc.devRef .tc main_v7) := (W4_in m ρ c 2 rfl)
    _ = W2 m ρ c (Proc.devRef .tc main_v7) := (W3_of_ne m ρ c _ (by decide))
theorem keep_main_arg5_5 : W5 m ρ c (Proc.devRef .tc main_arg5) = W0 m ρ c (Proc.devRef .tc main_arg5) :=
  calc W5 m ρ c (Proc.devRef .tc main_arg5)
    _ = W4 m ρ c (Proc.devRef .tc main_arg5) := (W5_of_ne m ρ c _ (by decide))
    _ = W3 m ρ c (Proc.devRef .tc main_arg5) := (W4_of_ne m ρ c _ (by decide))
    _ = W2 m ρ c (Proc.devRef .tc main_arg5) := (W3_of_ne m ρ c _ (by decide))
    _ = W1 m ρ c (Proc.devRef .tc main_arg5) := (StableHlo.after_of_writes_sub hostOps1 _ hostOps1_writes (by decide))
    _ = W0 m ρ c (Proc.devRef .tc main_arg5) := (W1_of_ne m ρ c _ (by decide))

/-! ## Region 0 and the host stretch -/

theorem u1_adj (u v : Fin 4096) : rd S4096x4096 (W1 m ρ c (Proc.devRef .tc main_v0_0)) (ix2 u v) = Cert.Spec.adj (sA m c) u v :=
  (congrArg (fun f : S4096x4096.Idx → EReal => rd S4096x4096 f (ix2 u v)) (W1_arr m ρ c 1)).trans (arr0_adj (U0 m ρ) c u v)
theorem u1_out (u : Fin 4096) : rd S4096 (W1 m ρ c (Proc.devRef .tc main_v0_1)) (ix1 u) = Cert.Spec.outDeg (sA m c) u :=
  (congrArg (fun f : S4096.Idx → EReal => rd S4096 f (ix1 u)) (W1_arr m ρ c 2)).trans (arr0_out (U0 m ρ) c u)
theorem u1_colp (b : Fin 16) (s : Fin 8) (v : Fin 4096) : rd S16x8x4096 (W1 m ρ c (Proc.devRef .tc main_v0_2)) (ix3 b s v)
    = (if s = 0 then ∑ r : Fin 256, Cert.Spec.adj (sA m c) ⟨256 * b.val + r.val, by omega⟩ v else 0 : EReal) :=
  (congrArg (fun f : S16x8x4096.Idx → EReal => rd S16x8x4096 f (ix3 b s v)) (W1_arr m ρ c 3)).trans (arr0_colp (U0 m ρ) c b s v)
theorem u2_outScale (u : Fin 4096) : rd S4096 (W2 m ρ c (Proc.devRef .tc main_v4)) (ix1 u) = Cert.Spec.outScale (sA m c) u :=
  host_outScale (W1 m ρ c) (sA m c) (u1_out m ρ c) u
theorem u2_inScale (v : Fin 4096) : rd S4096 (W2 m ρ c (Proc.devRef .tc main_v7)) (ix1 v) = Cert.Spec.inScale (sA m c) v :=
  host_inScale (W1 m ρ c) (sA m c) (u1_colp m ρ c) v

/-! ## Layer 1 -/

/-- The first scaled projection. -/
theorem u3_proj (u : Fin 4096) (d : Fin 256) : rd S4096x256 (W3 m ρ c (Proc.devRef .tc main_v8)) (ix2 u d)
    = ∑ j : Fin 256, (sX m c u j * Cert.Spec.outScale (sA m c) u) * sW1 m c j d := by
  refine (congrArg (fun f : S4096x256.Idx → EReal => rd S4096x256 f (ix2 u d)) (W3_arr m ρ c 3)).trans ((arr1_proj (U2 m ρ) c u d).trans ((proj_apply _ _ _ u d).trans ?_))
  refine Finset.sum_congr rfl fun j _ => ?_
  show (rd S4096x256 (W2 m ρ c (Proc.devRef .tc main_arg1)) (ix2 u j) * rd S4096 (W2 m ρ c (Proc.devRef .tc main_v4)) (ix1 u))
      * rd S256x256 (W2 m ρ c (Proc.devRef .tc main_arg2)) (ix2 j d) = _
  rw [u2_outScale m ρ c u, keep_main_arg1_2 m ρ c, keep_main_arg2_2 m ρ c]

/-- The first result. -/
theorem u4_h1 (v : Fin 4096) (d : Fin 256) : rd S4096x256 (W4 m ρ c (Proc.devRef .tc main_v9)) (ix2 v d)
    = Cert.Spec.h1 (sA m c) (sX m c) (sW1 m c) (sb1 m c) v d := by
  refine (congrArg (fun f : S4096x256.Idx → EReal => rd S4096x256 f (ix2 v d)) (W4_arr m ρ c 4)).trans ((arr2_layer (U3 m ρ) c v d).trans ?_)
  show max ((∑ u : Fin 4096, rd S4096x4096 (W3 m ρ c (Proc.devRef .tc main_v0_0)) (ix2 u v) * rd S4096x256 (W3 m ρ c (Proc.devRef .tc main_v8)) (ix2 u d))
      * rd S4096 (W3 m ρ c (Proc.devRef .tc main_v7)) (ix1 v) + rd S256 (W3 m ρ c (Proc.devRef .tc main_arg3)) (ix1 d)) (0 : EReal) = _
  rw [keep_main_v7_3 m ρ c, u2_inScale m ρ c v, keep_main_arg3_3 m ρ c, keep_main_v0_0_3 m ρ c]
  unfold Cert.Spec.h1 Cert.Spec.layer
  refine congrArg (fun s : EReal => max (s * Cert.Spec.inScale (sA m c) v + sb1 m c d) 0) (Finset.sum_congr rfl fun u _ => ?_)
  rw [u1_adj m ρ c u v, u3_proj m ρ c u d]

/-! ## Layer 2 -/

theorem u5_proj (u : Fin 4096) (d : Fin 256) : rd S4096x256 (W5 m ρ c (Proc.devRef .tc main_v10)) (ix2 u d)
    = ∑ j : Fin 256, (Cert.Spec.h1 (sA m c) (sX m c) (sW1 m c) (sb1 m c) u j * Cert.Spec.outScale (sA m c) u) * sW2 m c j d := by
  refine (congrArg (fun f : S4096x256.Idx → EReal => rd S4096x256 f (ix2 u d)) (W5_arr m ρ c 3)).trans ((arr3_proj (U4 m ρ) c u d).trans ((proj_apply _ _ _ u d).trans ?_))
  refine Finset.sum_congr rfl fun j _ => ?_
  show (rd S4096x256 (W4 m ρ c (Proc.devRef .tc main_v9)) (ix2 u j) * rd S4096 (W4 m ρ c (Proc.devRef .tc main_v4)) (ix1 u))
      * rd S256x256 (W4 m ρ c (Proc.devRef .tc main_arg4)) (ix2 j d) = _
  rw [u4_h1 m ρ c u j, keep_main_v4_4 m ρ c, u2_outScale m ρ c u, keep_main_arg4_4 m ρ c]

/-- The second result. -/
theorem u6_h2 (v : Fin 4096) (d : Fin 256) : rd S4096x256 (W6 m ρ c (Proc.devRef .tc main_v11)) (ix2 v d)
    = Cert.Spec.h2 (sA m c) (sX m c) (sW1 m c) (sb1 m c) (sW2 m c) (sb2 m c) v d := by
  refine (congrArg (fun f : S4096x256.Idx → EReal => rd S4096x256 f (ix2 v d)) (W6_arr m ρ c 4)).trans ((arr4_layer (U5 m ρ) c v d).trans ?_)
  show max ((∑ u : Fin 4096, rd S4096x4096 (W5 m ρ c (Proc.devRef .tc main_v0_0)) (ix2 u v) * rd S4096x256 (W5 m ρ c (Proc.devRef .tc main_v10)) (ix2 u d))
      * rd S4096 (W5 m ρ c (Proc.devRef .tc main_v7)) (ix1 v) + rd S256 (W5 m ρ c (Proc.devRef .tc main_arg5)) (ix1 d)) (0 : EReal) = _
  rw [keep_main_v7_5 m ρ c, u2_inScale m ρ c v, keep_main_arg5_5 m ρ c, keep_main_v0_0_5 m ρ c]
  unfold Cert.Spec.h2 Cert.Spec.layer
  refine congrArg (fun s : EReal => max (s * Cert.Spec.inScale (sA m c) v + sb2 m c d) 0) (Finset.sum_congr rfl fun u _ => ?_)
  rw [u1_adj m ρ c u v, u5_proj m ρ c u d]

/-! ## The two result arrays, whole -/

theorem res1 : (W6 m ρ c (Proc.devRef .tc main_v9) : S4096x256.Idx → EReal)
    = Cert.Spec.out1 (m ((c : Thread nD τ).loc main_arg0)) (m ((c : Thread nD τ).loc main_arg1)) (m ((c : Thread nD τ).loc main_arg2)) (m ((c : Thread nD τ).loc main_arg3)) := by
  funext i
  rw [eq_ix2 i]
  have h65 : W6 m ρ c (Proc.devRef .tc main_v9) = W4 m ρ c (Proc.devRef .tc main_v9) :=
    (W6_of_ne m ρ c _ (by decide)).trans (W5_in m ρ c 0 rfl)
  rw [h65]
  exact u4_h1 m ρ c (i 0) (i 1)

theorem res2 : (W6 m ρ c (Proc.devRef .tc main_v11) : S4096x256.Idx → EReal)
    = Cert.Spec.out2 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  funext i
  rw [eq_ix2 i]
  exact u6_h2 m ρ c (i 0) (i 1)

end Cert.KernelIdeal.Val
end
-- ==== Proof.RefFrame.lean ====
import proofs.«144456_j68298569941180_2_alg».proof.Defs
import proofs.«144456_j68298569941180_2_alg».proof.Proof.Gen.ReferenceIdeal.Run
import proofs.«144456_j68298569941180_2_alg».proof.Proof.Gen.Pre_finite_inputs

/-!
# The reference leaves its arguments unchanged

The reference is a straight-line host program: every weakly fair execution of it terminates, and
its run leaves the six argument arrays as it found them. This is the run of the program read back
operation by operation, with the two results dropped.
-/

noncomputable section

namespace Cert.ReferenceIdeal.RefValue

open Idealize.ShloMosaic Idealize.ShloMosaic.TcCoe Idealize.SL.Sem

theorem frame_ri : Cert.frame_ReferenceIdeal := fun m ρ _ =>
  (θ_run Cert.ReferenceIdeal.defs _ _).mono (fun _ h c => (h c).2.2)
    (Cert.ReferenceIdeal.Value.run (F := Ideal) m ρ)

end Cert.ReferenceIdeal.RefValue

end
-- ==== Proof.RefValue.lean ====
import proofs.«144456_j68298569941180_2_alg».proof.Proof.Gen.ReferenceIdeal.Read
import proofs.«144456_j68298569941180_2_alg».proof.Proof.Spec

/-!
# The reference program computes the two-layer graph convolution

The reference's two results, read at an index, are the functions `Cert.Spec.h1` and `Cert.Spec.h2`
of its six argument arrays. Each stage of the program is read at explicit coordinates
(`ix2 u v`, `ix1 u`): the sum of the thresholded entry and the diagonal indicator is the edge
count, its row and column sums are the degrees, the reciprocal square roots of the clamped
degrees are the two scalings, the two contractions are the sums over features and over source
nodes, and the last maximum with zero is the clamp.
-/

noncomputable section

namespace Cert.ReferenceIdeal.RefValue

open Cert.ReferenceIdeal Cert.ReferenceIdeal.Gen Cert.ReferenceIdeal.Read Idealize.ShloMosaic
  Idealize.ShloMosaic.TcCoe Idealize.SL.Sem Idealize.ShloMosaic.StableHlo
open Idealize.ShloMosaic.ValueIdx (ix1 ix2 eq_ix1 eq_ix2)

/-- The node-by-node array as a function of two node numbers. -/
abbrev sA (A : (⟨S4096x4096, .f32⟩ : BufTy).Contents (Elt Ideal)) : Fin 4096 → Fin 4096 → EReal :=
  fun u v => A (ix2 u v)
/-- A node-by-feature array as a function of a node and a feature. -/
abbrev sX (X : (⟨S4096x256, .f32⟩ : BufTy).Contents (Elt Ideal)) : Fin 4096 → Fin 256 → EReal :=
  fun u j => X (ix2 u j)
/-- A weight array as a function of an input and an output feature. -/
abbrev sW (W : (⟨S256x256, .f32⟩ : BufTy).Contents (Elt Ideal)) : Fin 256 → Fin 256 → EReal :=
  fun j d => W (ix2 j d)
/-- A bias array as a function of a feature. -/
abbrev sb (b : (⟨S256, .f32⟩ : BufTy).Contents (Elt Ideal)) : Fin 256 → EReal :=
  fun d => b (ix1 d)

/-! ## The edge counts -/

/-- Adding the zero word changes nothing. -/
theorem addi_zero (x : BitVec 32) : IntOp.addi x 0#32 = x := by simp [IntOp.addi]

/-- The thresholded comparison plus the comparison of the two node numbers, both converted to
    floats and added, is the edge count. -/
theorem adj_of_ops (a : EReal) (u v : Fin 4096) :
    FloatOps.addf (F := Ideal) (φ := .f32)
      (FloatOps.uitofp (F := Ideal) .f32
        (FloatOps.cmpf (F := Ideal) (φ := .f32) .oge a (FloatOps.ofBits (F := Ideal) .f32 0x3D23D70A#32)))
      (FloatOps.uitofp (F := Ideal) .f32
        (IntOp.cmpi .eq (IntOp.addi (BitVec.ofNat 32 u.val) 0#32) (BitVec.ofNat 32 v.val)))
    = (if Spec.thr ≤ a then 1 else 0) + (if u = v then 1 else 0) := by
  rw [addi_zero, Ideal.cmpf_def, Spec.uitofp_cmp_oge, Spec.uitofp_cmpi_eq]
  rfl

/-- The thresholded adjacency plus the identity, at node numbers `u`, `v`. -/
theorem v9_apply (A : (⟨S4096x4096, .f32⟩ : BufTy).Contents (Elt Ideal)) (u v : Fin 4096) :
    val_main_v9 (F := Ideal) A (ix2 u v) = Spec.adj (sA A) u v := by
  rw [val_main_v9_apply, val_main_v2_apply, val_main_v1_apply, val_main_v0_apply, val_main_cst_apply,
    val_main_v8_apply, val_main_v7_apply, val_main_v6_apply, val_main_v3_apply, val_main_v4_apply,
    val_main_v5_apply, val_main_c_apply]
  exact adj_of_ops (A (ix2 u v)) u v

/-! ## The degrees and the two scalings -/

/-- The row sum is the out-degree. -/
theorem v10_apply (A : (⟨S4096x4096, .f32⟩ : BufTy).Contents (Elt Ideal)) (u : Fin 4096) :
    val_main_v10 (F := Ideal) A (ix1 u) = Spec.outDeg (sA A) u := by
  rw [val_main_v10_apply, val_main_cst_0_apply]
  have e : ∀ k : Fin 4096, idx_main_v10 (ix1 u) k = ix2 u k := fun k =>
    funext fun a => Fin.ext (by match a with | ⟨0, _⟩ => rfl | ⟨1, _⟩ => rfl)
  simp only [e, v9_apply, Ideal.ofBits_def, Ideal.ofBits_zero_f32, zero_add]
  rfl

/-- The column sum is the in-degree. -/
theorem v13_apply (A : (⟨S4096x4096, .f32⟩ : BufTy).Contents (Elt Ideal)) (v : Fin 4096) :
    val_main_v13 (F := Ideal) A (ix1 v) = Spec.inDeg (sA A) v := by
  rw [val_main_v13_apply, val_main_cst_2_apply]
  have e : ∀ k : Fin 4096, idx_main_v13 (ix1 v) k = ix2 k v := fun k =>
    funext fun a => Fin.ext (by match a with | ⟨0, _⟩ => rfl | ⟨1, _⟩ => rfl)
  simp only [e, v9_apply, Ideal.ofBits_def, Ideal.ofBits_zero_f32, zero_add]
  rfl

/-- The reciprocal square root of the clamped out-degree. -/
theorem v16_apply (A : (⟨S4096x4096, .f32⟩ : BufTy).Contents (Elt Ideal)) (u : Fin 4096) :
    val_main_v16 (F := Ideal) A (ix1 u) = Spec.outScale (sA A) u := by
  rw [val_main_v16_apply, val_main_v12_apply, val_main_v11_apply, val_main_cst_1_apply, v10_apply]
  simp only [Ideal.hostUnary_rsqrt_def, Ideal.maximumf_def, Ideal.ofBits_def, Spec.ofBits_one_f32]
  rfl

/-- The reciprocal square root of the clamped in-degree. -/
theorem v17_apply (A : (⟨S4096x4096, .f32⟩ : BufTy).Contents (Elt Ideal)) (v : Fin 4096) :
    val_main_v17 (F := Ideal) A (ix1 v) = Spec.inScale (sA A) v := by
  rw [val_main_v17_apply, val_main_v15_apply, val_main_v14_apply, val_main_cst_3_apply, v13_apply]
  simp only [Ideal.hostUnary_rsqrt_def, Ideal.maximumf_def, Ideal.ofBits_def, Spec.ofBits_one_f32]
  rfl

/-! ## The first layer -/

/-- The source features scaled by the out-degree factor. -/
theorem v20_apply (A : (⟨S4096x4096, .f32⟩ : BufTy).Contents (Elt Ideal)) (X : (⟨S4096x256, .f32⟩ : BufTy).Contents (Elt Ideal)) (u : Fin 4096) (j : Fin 256) :
    val_main_v20 (F := Ideal) A X (ix2 u j) = X (ix2 u j) * Spec.outScale (sA A) u := by
  rw [val_main_v20_apply, val_main_v19_apply, val_main_v18_apply]
  have e : idx_main_v18 (idx_main_v19 (ix2 u j)) = ix1 u :=
    funext fun a => Fin.ext (by match a with | ⟨0, _⟩ => rfl)
  rw [e, v16_apply]
  rfl

/-- The scaled features times the weights: a sum over the input features. -/
theorem v21_apply (A : (⟨S4096x4096, .f32⟩ : BufTy).Contents (Elt Ideal)) (X : (⟨S4096x256, .f32⟩ : BufTy).Contents (Elt Ideal)) (W : (⟨S256x256, .f32⟩ : BufTy).Contents (Elt Ideal)) (u : Fin 4096) (d : Fin 256) :
    val_main_v21 (F := Ideal) A X W (ix2 u d)
      = ∑ j : Fin 256, (X (ix2 u j) * Spec.outScale (sA A) u) * W (ix2 j d) := by
  rw [val_main_v21_apply]
  have el : ∀ k : Fin 256, lidx_main_v21 (ix2 u d) k = ix2 u k := fun k =>
    funext fun a => Fin.ext (by match a with | ⟨0, _⟩ => rfl | ⟨1, _⟩ => rfl)
  have er : ∀ k : Fin 256, ridx_main_v21 (ix2 u d) k = ix2 k d := fun k =>
    funext fun a => Fin.ext (by match a with | ⟨0, _⟩ => rfl | ⟨1, _⟩ => rfl)
  simp only [el, er, v20_apply]

/-- The aggregation over the edges entering `v`: a sum over the source nodes. -/
theorem v22_apply (A : (⟨S4096x4096, .f32⟩ : BufTy).Contents (Elt Ideal)) (X : (⟨S4096x256, .f32⟩ : BufTy).Contents (Elt Ideal)) (W : (⟨S256x256, .f32⟩ : BufTy).Contents (Elt Ideal)) (v : Fin 4096) (d : Fin 256) :
    val_main_v22 (F := Ideal) A X W (ix2 v d)
      = ∑ u : Fin 4096, Spec.adj (sA A) u v
          * (∑ j : Fin 256, (X (ix2 u j) * Spec.outScale (sA A) u) * W (ix2 j d)) := by
  rw [val_main_v22_apply]
  have el : ∀ k : Fin 4096, lidx_main_v22 (ix2 v d) k = ix2 k v := fun k =>
    funext fun a => Fin.ext (by match a with | ⟨0, _⟩ => rfl | ⟨1, _⟩ => rfl)
  have er : ∀ k : Fin 4096, ridx_main_v22 (ix2 v d) k = ix2 k d := fun k =>
    funext fun a => Fin.ext (by match a with | ⟨0, _⟩ => rfl | ⟨1, _⟩ => rfl)
  simp only [el, er, v9_apply, v21_apply]

/-- The in-degree factor broadcast along the features. -/
theorem v24_apply (A : (⟨S4096x4096, .f32⟩ : BufTy).Contents (Elt Ideal)) (v : Fin 4096) (d : Fin 256) :
    val_main_v24 (F := Ideal) A (ix2 v d) = Spec.inScale (sA A) v := by
  rw [val_main_v24_apply, val_main_v23_apply]
  have e : idx_main_v23 (idx_main_v24 (ix2 v d)) = ix1 v :=
    funext fun a => Fin.ext (by match a with | ⟨0, _⟩ => rfl)
  rw [e, v17_apply]

/-- The bias broadcast along the nodes. -/
theorem v27_apply (b : (⟨S256, .f32⟩ : BufTy).Contents (Elt Ideal)) (v : Fin 4096) (d : Fin 256) :
    val_main_v27 (F := Ideal) b (ix2 v d) = b (ix1 d) := by
  rw [val_main_v27_apply, val_main_v26_apply]
  exact congrArg b (funext fun a => Fin.ext (by match a with | ⟨0, _⟩ => rfl))

/-- The first result at a node and a feature is the first layer. -/
theorem v29_apply (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (v : Fin 4096) (d : Fin 256) :
    val_main_v29 (F := Ideal) A X W1 b1 (ix2 v d) = Spec.h1 (sA A) (sX X) (sW W1) (sb b1) v d := by
  rw [val_main_v29_apply, val_main_call0_v0_apply, val_main_call0_cst_apply, val_main_v28_apply,
    val_main_v25_apply, v22_apply, v24_apply, v27_apply]
  simp only [Ideal.maximumf_def, Ideal.addf_def, Ideal.mulf_def, Ideal.ofBits_def, Ideal.ofBits_zero_f32]
  rfl

/-- The first result, as a whole array, is the first layer of the argument arrays. -/
theorem out1_eq (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) :
    val_main_v29 (F := Ideal) A X W1 b1 = Spec.out1 A X W1 b1 := by
  funext i
  obtain ⟨v, d, rfl⟩ : ∃ (v : Fin 4096) (d : Fin 256), i = ix2 v d := ⟨i 0, i 1, eq_ix2 i⟩
  exact v29_apply A X W1 b1 v d

/-! ## The second layer -/

/-- The first layer's output scaled by the out-degree factor. -/
theorem v32_apply (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (u : Fin 4096) (j : Fin 256) :
    val_main_v32 (F := Ideal) A X W1 b1 (ix2 u j)
      = Spec.h1 (sA A) (sX X) (sW W1) (sb b1) u j * Spec.outScale (sA A) u := by
  rw [val_main_v32_apply, val_main_v31_apply, val_main_v30_apply, v29_apply]
  have e : idx_main_v30 (idx_main_v31 (ix2 u j)) = ix1 u :=
    funext fun a => Fin.ext (by match a with | ⟨0, _⟩ => rfl)
  rw [e, v16_apply]
  rfl

/-- The scaled first-layer output times the second weights: a sum over the features. -/
theorem v33_apply (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (u : Fin 4096) (d : Fin 256) :
    val_main_v33 (F := Ideal) A X W1 b1 W2 (ix2 u d)
      = ∑ j : Fin 256, (Spec.h1 (sA A) (sX X) (sW W1) (sb b1) u j * Spec.outScale (sA A) u) * W2 (ix2 j d) := by
  rw [val_main_v33_apply]
  have el : ∀ k : Fin 256, lidx_main_v33 (ix2 u d) k = ix2 u k := fun k =>
    funext fun a => Fin.ext (by match a with | ⟨0, _⟩ => rfl | ⟨1, _⟩ => rfl)
  have er : ∀ k : Fin 256, ridx_main_v33 (ix2 u d) k = ix2 k d := fun k =>
    funext fun a => Fin.ext (by match a with | ⟨0, _⟩ => rfl | ⟨1, _⟩ => rfl)
  simp only [el, er, v32_apply]

/-- The second aggregation over the edges entering `v`. -/
theorem v34_apply (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (v : Fin 4096) (d : Fin 256) :
    val_main_v34 (F := Ideal) A X W1 b1 W2 (ix2 v d)
      = ∑ u : Fin 4096, Spec.adj (sA A) u v
          * (∑ j : Fin 256, (Spec.h1 (sA A) (sX X) (sW W1) (sb b1) u j * Spec.outScale (sA A) u) * W2 (ix2 j d)) := by
  rw [val_main_v34_apply]
  have el : ∀ k : Fin 4096, lidx_main_v34 (ix2 v d) k = ix2 k v := fun k =>
    funext fun a => Fin.ext (by match a with | ⟨0, _⟩ => rfl | ⟨1, _⟩ => rfl)
  have er : ∀ k : Fin 4096, ridx_main_v34 (ix2 v d) k = ix2 k d := fun k =>
    funext fun a => Fin.ext (by match a with | ⟨0, _⟩ => rfl | ⟨1, _⟩ => rfl)
  simp only [el, er, v9_apply, v33_apply]

/-- The in-degree factor broadcast along the features, second use. -/
theorem v36_apply (A : (⟨S4096x4096, .f32⟩ : BufTy).Contents (Elt Ideal)) (v : Fin 4096) (d : Fin 256) :
    val_main_v36 (F := Ideal) A (ix2 v d) = Spec.inScale (sA A) v := by
  rw [val_main_v36_apply, val_main_v35_apply]
  have e : idx_main_v35 (idx_main_v36 (ix2 v d)) = ix1 v :=
    funext fun a => Fin.ext (by match a with | ⟨0, _⟩ => rfl)
  rw [e, v17_apply]

/-- The second bias broadcast along the nodes. -/
theorem v39_apply (b : (⟨S256, .f32⟩ : BufTy).Contents (Elt Ideal)) (v : Fin 4096) (d : Fin 256) :
    val_main_v39 (F := Ideal) b (ix2 v d) = b (ix1 d) := by
  rw [val_main_v39_apply, val_main_v38_apply]
  exact congrArg b (funext fun a => Fin.ext (by match a with | ⟨0, _⟩ => rfl))

/-- The second result at a node and a feature is the second layer. -/
theorem v41_apply (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal))
    (v : Fin 4096) (d : Fin 256) :
    val_main_v41 (F := Ideal) A X W1 b1 W2 b2 (ix2 v d)
      = Spec.h2 (sA A) (sX X) (sW W1) (sb b1) (sW W2) (sb b2) v d := by
  rw [val_main_v41_apply, val_main_call1_v0_apply, val_main_call1_cst_apply, val_main_v40_apply,
    val_main_v37_apply, v34_apply, v36_apply, v39_apply]
  simp only [Ideal.maximumf_def, Ideal.addf_def, Ideal.mulf_def, Ideal.ofBits_def, Ideal.ofBits_zero_f32]
  rfl

/-- The second result, as a whole array, is the second layer of the argument arrays. -/
theorem out2_eq (A : (⟨S4096x4096, .f32⟩ : BufTy).Contents (Elt Ideal)) (X : (⟨S4096x256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal)) :
    val_main_v41 (F := Ideal) A X W1 b1 W2 b2 = Spec.out2 A X W1 b1 W2 b2 := by
  funext i
  obtain ⟨v, d, rfl⟩ : ∃ (v : Fin 4096) (d : Fin 256), i = ix2 v d := ⟨i 0, i 1, eq_ix2 i⟩
  exact v41_apply A X W1 b1 W2 b2 v d

/-! ## The run

Every weakly fair execution of the reference ends with its two results at the two layers of the
launch contents of its arguments, and the arguments unchanged. -/

theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
        = Spec.out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41)
        = Spec.out2 (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c).1.trans ((val_main_v29_eq _ _ _ _).trans (out1_eq _ _ _ _)),
       (h c).2.1.trans ((val_main_v41_eq m c).trans (out2_eq _ _ _ _ _ _)),
       (h c).2.2⟩)
    (Cert.ReferenceIdeal.Value.run (F := Ideal) m ρ)

end Cert.ReferenceIdeal.RefValue

end
-- ==== Proof.RefHalf.lean ====
import proofs.«144456_j68298569941180_2_alg».proof.Defs
import proofs.«144456_j68298569941180_2_alg».proof.Proof.RefValue

/-!
# The reference's half of the comparison

From a memory that agrees with the kernel's on the six arguments, the reference ends with its
two results at the two layers of the KERNEL's argument arrays, and its own arguments unchanged.
-/

noncomputable section

namespace Cert.ReferenceIdeal.RefValue

open Idealize.ShloMosaic Idealize.ShloMosaic.TcCoe Idealize.SL.Sem

theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v29) = Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.ReferenceIdeal.nD Cert.ReferenceIdeal.τ).loc Cert.ReferenceIdeal.main_v41) = Cert.Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c =>
      ⟨by rw [(h c).1, (hagree c).1, (hagree c).2.1, (hagree c).2.2.1, (hagree c).2.2.2.1],
       by rw [(h c).2.1, (hagree c).1, (hagree c).2.1, (hagree c).2.2.1, (hagree c).2.2.2.1,
            (hagree c).2.2.2.2.1, (hagree c).2.2.2.2.2],
       (h c).2.2⟩)
    (run_spec m' g')

end Cert.ReferenceIdeal.RefValue

end
-- ==== Proof.lean ====
/-
  The certificate's five claims.

  The program is a two-layer graph convolution. The kernel version builds, in one pass over the adjacency input, the
  thresholded adjacency with self loops together with its row sums and its column sums by row block; the host clamps
  the two degree vectors below by one and takes inverse square roots; each layer is then a scaled projection
  (rows scaled by the source scale, multiplied by the weights) followed by the aggregation along the edges,
  accumulated over four blocks of source rows, scaled by the destination scale, shifted by the bias and clamped at
  zero. The reference computes the same two layers with whole-array operations.

  Frames: each of the three programs runs to the end from any memory, faults nowhere and leaves its six argument
  arrays as launched. For the two kernel programs this is the run through the five regions and the host stretch;
  for the reference it is its run with the results dropped.
  The idealization rewrote nothing, so its claim is trivial.
  Equality at the extended reals: both programs end with the two layers of the specification. The sums over the
  4096 source rows are grouped differently on the two sides (by blocks of 1024 in the aggregation, by blocks of 256
  and eight sublanes in the column sums); sums of extended reals may be regrouped freely, so no finiteness of the
  inputs is used.
-/
import proofs.«144456_j68298569941180_2_alg».proof.Defs
import proofs.«144456_j68298569941180_2_alg».proof.Proof.Gen.Kernel
import proofs.«144456_j68298569941180_2_alg».proof.Proof.Gen.KernelIdeal
import proofs.«144456_j68298569941180_2_alg».proof.Proof.Gen.ReferenceIdeal
import proofs.«144456_j68298569941180_2_alg».proof.Proof.Gen.Pre_finite_inputs
import proofs.«144456_j68298569941180_2_alg».proof.Proof.KB.Ends
import proofs.«144456_j68298569941180_2_alg».proof.Proof.KI.Compose
import proofs.«144456_j68298569941180_2_alg».proof.Proof.RefFrame
import proofs.«144456_j68298569941180_2_alg».proof.Proof.RefHalf

noncomputable section

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame_all m ρ

theorem frame_pi : Cert.frame_KernelIdeal (hKernelIdeal := Cert.KernelIdeal.Gen.facts) (hPre_finite_inputs := Cert.Pre_finite_inputs.Gen.facts) :=
  fun m ρ _ => Cert.KernelIdeal.Hand.frame_all m ρ

/-- Both idealized programs end with the specification's two layers of the kernel's argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, ?_, Cert.ReferenceIdeal.RefValue.ref_half m m' ρ' hagree⟩
  refine (θ_run Cert.KernelIdeal.defs _ _).mono (fun _ h c => ⟨?_, ?_, ?_, ?_, ?_, ?_, ?_, ?_⟩) (Cert.KernelIdeal.Hand.run_all (F := Ideal) m ρ)
  · exact (h c _ (Cert.KernelIdeal.Hand.mem_uc Cert.KernelIdeal.main_v9 (by decide))).trans (Cert.KernelIdeal.Val.res1 m ρ c)
  · exact (h c _ (Cert.KernelIdeal.Hand.mem_uc Cert.KernelIdeal.main_v11 (by decide))).trans (Cert.KernelIdeal.Val.res2 m ρ c)
  · exact (h c _ (Cert.KernelIdeal.Hand.mem_uc Cert.KernelIdeal.main_arg0 (by decide))).trans (Cert.KernelIdeal.Hand.W6_main_arg0 m ρ c)
  · exact (h c _ (Cert.KernelIdeal.Hand.mem_uc Cert.KernelIdeal.main_arg1 (by decide))).trans (Cert.KernelIdeal.Hand.W6_main_arg1 m ρ c)
  · exact (h c _ (Cert.KernelIdeal.Hand.mem_uc Cert.KernelIdeal.main_arg2 (by decide))).trans (Cert.KernelIdeal.Hand.W6_main_arg2 m ρ c)
  · exact (h c _ (Cert.KernelIdeal.Hand.mem_uc Cert.KernelIdeal.main_arg3 (by decide))).trans (Cert.KernelIdeal.Hand.W6_main_arg3 m ρ c)
  · exact (h c _ (Cert.KernelIdeal.Hand.mem_uc Cert.KernelIdeal.main_arg4 (by decide))).trans (Cert.KernelIdeal.Hand.W6_main_arg4 m ρ c)
  · exact (h c _ (Cert.KernelIdeal.Hand.mem_uc Cert.KernelIdeal.main_arg5 (by decide))).trans (Cert.KernelIdeal.Hand.W6_main_arg5 m ρ c)

theorem claim : Cert.Claim :=
  ⟨Cert.Kernel.Gen.facts, Cert.KernelIdeal.Gen.facts, Cert.ReferenceIdeal.Gen.facts, Cert.Pre_finite_inputs.Gen.facts,
    frame_p, frame_pi, Cert.ReferenceIdeal.RefValue.frame_ri, trivial, algebraic⟩

end Cert.Proof

end
